-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S65536x1000 : Shape := ⟨2, ![65536, 1000]⟩
abbrev S65536x1 : Shape := ⟨2, ![65536, 1]⟩
abbrev S65536x4x128 : Shape := ⟨3, ![65536, 4, 128]⟩
abbrev S65536x2 : Shape := ⟨2, ![65536, 2]⟩
abbrev S64x128 : Shape := ⟨2, ![64, 128]⟩
abbrev S128 : Shape := ⟨1, ![128]⟩
abbrev S128x128 : Shape := ⟨2, ![128, 128]⟩
abbrev S1000x128 : Shape := ⟨2, ![1000, 128]⟩
abbrev S2x64 : Shape := ⟨2, ![2, 64]⟩
abbrev S64 : Shape := ⟨1, ![64]⟩
abbrev S512x256 : Shape := ⟨2, ![512, 256]⟩
abbrev S256 : Shape := ⟨1, ![256]⟩
abbrev S384x128 : Shape := ⟨2, ![384, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S65536x32 : S_.BroadcastsInDim S65536x32 (![] : Fin 0 → Fin S65536x32.rank)
  reducesTo_S65536x32_S_d0_1 : S65536x32.ReducesTo [0, 1] S_
  h_S_ : 0 < S_.numel
  bcast_S_S65536x1000 : S_.BroadcastsInDim S65536x1000 (![] : Fin 0 → Fin S65536x1000.rank)
  reducesTo_S65536x1000_S_d0_1 : S65536x1000.ReducesTo [0, 1] S_
  bcast_S_S65536x1 : S_.BroadcastsInDim S65536x1 (![] : Fin 0 → Fin S65536x1.rank)
  reducesTo_S65536x1_S_d0_1 : S65536x1.ReducesTo [0, 1] S_
  bcast_S_S65536x4x128 : S_.BroadcastsInDim S65536x4x128 (![] : Fin 0 → Fin S65536x4x128.rank)
  reducesTo_S65536x4x128_S_d0_1_2 : S65536x4x128.ReducesTo [0, 1, 2] S_
  bcast_S_S65536x2 : S_.BroadcastsInDim S65536x2 (![] : Fin 0 → Fin S65536x2.rank)
  reducesTo_S65536x2_S_d0_1 : S65536x2.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1000x128 : S_.BroadcastsInDim S1000x128 (![] : Fin 0 → Fin S1000x128.rank)
  reducesTo_S1000x128_S_d0_1 : S1000x128.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S384x128 : S_.BroadcastsInDim S384x128 (![] : Fin 0 → Fin S384x128.rank)
  reducesTo_S384x128_S_d0_1 : S384x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg28 : FVec F S32x1 .f32) (main_arg29 : FVec F S1 .f32) (main_v133 : IVec S_ 1) (main_v136 : IVec S32 1) : IVec S_ 1 :=
  let main_c_53 : IVec S_ 1 := constantI S_ 1 1#1
  let main_v137 : IVec S_ 1 := (fun x v => Host.reduce IntOp.andi x v reducesTo_S32_S_d0 h_S_) main_v136 main_c_53
  let main_v138 : IVec S_ 1 := andi main_v133 main_v137
  let main_v139 : FVec F S32x1 .f32 := Host.absf main_arg28
  let main_cst_54 : FVec F S_ .f32 := constant S_ .f32 0x7F800000#32
  let main_v140 : FVec F S32x1 .f32 := broadcastInDim S32x1 ![] bcast_S_S32x1 main_cst_54
  let main_v141 : IVec S32x1 1 := cmpf .olt main_v139 main_v140
  let main_c_55 : IVec S_ 1 := constantI S_ 1 1#1
  let main_v142 : IVec S_ 1 := (fun x v => Host.reduce IntOp.andi x v reducesTo_S32x1_S_d0_1 h_S_) main_v141 main_c_55
  let main_v143 : IVec S_ 1 := andi main_v138 main_v142
  let main_v144 : FVec F S1 .f32 := Host.absf main_arg29
  let main_cst_56 : FVec F S_ .f32 := constant S_ .f32 0x7F800000#32
  let main_v145 : FVec F S1 .f32 := broadcastInDim S1 ![] bcast_S_S1 main_cst_56
  let main_v146 : IVec S1 1 := cmpf .olt main_v144 main_v145
  let main_c_57 : IVec S_ 1 := constantI S_ 1 1#1
  let main_v147 : IVec S_ 1 := (fun x v => Host.reduce IntOp.andi x v reducesTo_S1_S_d0 h_S_) main_v146 main_c_57
  let main_v148 : IVec S_ 1 := andi main_v143 main_v147
  main_v148

def fn_part7 {F : FTy → Type} [FloatOps F] (main_arg25 : FVec F S1 .f32) (main_arg26 : FVec F S64x32 .f32) (main_arg27 : FVec F S32 .f32) (main_arg28 : FVec F S32x1 .f32) (main_arg29 : FVec F S1 .f32) (main_v118 : IVec S_ 1) (main_v119 : FVec F S32x1 .f32) : IVec S_ 1 :=
  let main_cst_46 : FVec F S_ .f32 := constant S_ .f32 0x7F800000#32
  let main_v120 : FVec F S32x1 .f32 := broadcastInDim S32x1 ![] bcast_S_S32x1 main_cst_46
  let main_v121 : IVec S32x1 1 := cmpf .olt main_v119 main_v120
  let main_c_47 : IVec S_ 1 := constantI S_ 1 1#1
  let main_v122 : IVec S_ 1 := (fun x v => Host.reduce IntOp.andi x v reducesTo_S32x1_S_d0_1 h_S_) main_v121 main_c_47
  let main_v123 : IVec S_ 1 := andi main_v118 main_v122
  let main_v124 : FVec F S1 .f32 := Host.absf main_arg25
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_v129 : FVec F S64x32 .f32 := Host.absf main_arg26
  let main_cst_50 : FVec F S_ .f32 := constant S_ .f32 0x7F800000#32
  let main_v130 : FVec F S64x32 .f32 := broadcastInDim S64x32 ![] bcast_S_S64x32 main_cst_50
  let main_v131 : IVec S64x32 1 := cmpf .olt main_v129 main_v130
  let main_c_51 : IVec S_ 1 := constantI S_ 1 1#1
  let main_v132 : IVec S_ 1 := (fun x v => Host.reduce IntOp.andi x v reducesTo_S64x32_S_d0_1 h_S_) main_v131 main_c_51
  let main_v133 : IVec S_ 1 := andi main_v128 main_v132
  let main_v134 : FVec F S32 .f32 := Host.absf main_arg27
  let main_cst_52 : FVec F S_ .f32 := constant S_ .f32 0x7F800000#32
  let main_v135 : FVec F S32 .f32 := broadcastInDim S32 ![] bcast_S_S32 main_cst_52
  let main_v136 : IVec S32 1 := cmpf .olt main_v134 main_v135
  fn_part8 (F := F) main_arg28 main_arg29 main_v133 main_v136

def fn_part6 {F : FTy → Type} [FloatOps F] (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x32 .f32 := Host.absf main_arg22
  let main_cst_42 : FVec F S_ .f32 := constant S_ .f32 0x7F800000#32
  let main_v110 : FVec F S64x32 .f32 := broadcastInDim S64x32 ![] bcast_S_S64x32 main_cst_42
  let main_v111 : IVec S64x32 1 := cmpf .olt main_v109 main_v110
  let main_c_43 : IVec S_ 1 := constantI S_ 1 1#1
  let main_v112 : IVec S_ 1 := (fun x v => Host.reduce IntOp.andi x v reducesTo_S64x32_S_d0_1 h_S_) main_v111 main_c_43
  let main_v113 : IVec S_ 1 := andi main_v108 main_v112
  let main_v114 : FVec F S32 .f32 := Host.absf main_arg23
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32x1 .f32 := Host.absf main_arg24
  fn_part7 (F := F) main_arg25 main_arg26 main_arg27 main_arg28 main_arg29 main_v118 main_v119

def fn_part5 {F : FTy → Type} [FloatOps F] (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S384x128 .f32 := Host.absf main_arg18
  let main_cst_34 : FVec F S_ .f32 := constant S_ .f32 0x7F800000#32
  let main_v90 : FVec F S384x128 .f32 := broadcastInDim S384x128 ![] bcast_S_S384x128 main_cst_34
  let main_v91 : IVec S384x128 1 := cmpf .olt main_v89 main_v90
  let main_c_35 : IVec S_ 1 := constantI S_ 1 1#1
  let main_v92 : IVec S_ 1 := (fun x v => Host.reduce IntOp.andi x v reducesTo_S384x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg20
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg21 main_arg22 main_arg23 main_arg24 main_arg25 main_arg26 main_arg27 main_arg28 main_arg29 main_v98 main_v101 main_c_39

def fn_part4 {F : FTy → Type} [FloatOps F] (main_arg14 : FVec F S2x64 .f32) (main_arg15 : FVec F S64 .f32) (main_arg16 : FVec F S512x256 .f32) (main_arg17 : FVec F S256 .f32) (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v63 : IVec S_ 1) (main_v67 : IVec S_ 1) : IVec S_ 1 :=
  let main_v68 : IVec S_ 1 := andi main_v63 main_v67
  let main_v69 : FVec F S2x64 .f32 := Host.absf main_arg14
  let main_cst_26 : FVec F S_ .f32 := constant S_ .f32 0x7F800000#32
  let main_v70 : FVec F S2x64 .f32 := broadcastInDim S2x64 ![] bcast_S_S2x64 main_cst_26
  let main_v71 : IVec S2x64 1 := cmpf .olt main_v69 main_v70
  let main_c_27 : IVec S_ 1 := constantI S_ 1 1#1
  let main_v72 : IVec S_ 1 := (fun x v => Host.reduce IntOp.andi x v reducesTo_S2x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S512x256 .f32 := Host.absf main_arg16
  let main_cst_30 : FVec F S_ .f32 := constant S_ .f32 0x7F800000#32
  let main_v80 : FVec F S512x256 .f32 := broadcastInDim S512x256 ![] bcast_S_S512x256 main_cst_30
  let main_v81 : IVec S512x256 1 := cmpf .olt main_v79 main_v80
  let main_c_31 : IVec S_ 1 := constantI S_ 1 1#1
  let main_v82 : IVec S_ 1 := (fun x v => Host.reduce IntOp.andi x v reducesTo_S512x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_v83 main_v84 main_cst_32

def fn_part3 {F : FTy → Type} [FloatOps F] (main_arg11 : FVec F S128 .f32) (main_arg12 : FVec F S1000x128 .f32) (main_arg13 : FVec F S128 .f32) (main_arg14 : FVec F S2x64 .f32) (main_arg15 : FVec F S64 .f32) (main_arg16 : FVec F S512x256 .f32) (main_arg17 : FVec F S256 .f32) (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1000x128 .f32 := Host.absf main_arg12
  let main_cst_22 : FVec F S_ .f32 := constant S_ .f32 0x7F800000#32
  let main_v60 : FVec F S1000x128 .f32 := broadcastInDim S1000x128 ![] bcast_S_S1000x128 main_cst_22
  let main_v61 : IVec S1000x128 1 := cmpf .olt main_v59 main_v60
  let main_c_23 : IVec S_ 1 := constantI S_ 1 1#1
  let main_v62 : IVec S_ 1 := (fun x v => Host.reduce IntOp.andi x v reducesTo_S1000x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg7 : FVec F S65536x2 .f32) (main_arg8 : FVec F S64x128 .f32) (main_arg9 : FVec F S128 .f32) (main_arg10 : FVec F S128x128 .f32) (main_arg11 : FVec F S128 .f32) (main_arg12 : FVec F S1000x128 .f32) (main_arg13 : FVec F S128 .f32) (main_arg14 : FVec F S2x64 .f32) (main_arg15 : FVec F S64 .f32) (main_arg16 : FVec F S512x256 .f32) (main_arg17 : FVec F S256 .f32) (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v33 : IVec S_ 1) : IVec S_ 1 :=
  let main_v34 : FVec F S65536x2 .f32 := Host.absf main_arg7
  let main_cst_12 : FVec F S_ .f32 := constant S_ .f32 0x7F800000#32
  let main_v35 : FVec F S65536x2 .f32 := broadcastInDim S65536x2 ![] bcast_S_S65536x2 main_cst_12
  let main_v36 : IVec S65536x2 1 := cmpf .olt main_v34 main_v35
  let main_c_13 : IVec S_ 1 := constantI S_ 1 1#1
  let main_v37 : IVec S_ 1 := (fun x v => Host.reduce IntOp.andi x v reducesTo_S65536x2_S_d0_1 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg4 : FVec F S65536x4x128 .f32) (main_arg5 : FVec F S65536x4x128 .f32) (main_arg6 : FVec F S65536x2 .f32) (main_arg7 : FVec F S65536x2 .f32) (main_arg8 : FVec F S64x128 .f32) (main_arg9 : FVec F S128 .f32) (main_arg10 : FVec F S128x128 .f32) (main_arg11 : FVec F S128 .f32) (main_arg12 : FVec F S1000x128 .f32) (main_arg13 : FVec F S128 .f32) (main_arg14 : FVec F S2x64 .f32) (main_arg15 : FVec F S64 .f32) (main_arg16 : FVec F S512x256 .f32) (main_arg17 : FVec F S256 .f32) (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v13 : IVec S_ 1) (main_v16 : IVec S65536x1 1) : IVec S_ 1 :=
  let main_c_5 : IVec S_ 1 := constantI S_ 1 1#1
  let main_v17 : IVec S_ 1 := (fun x v => Host.reduce IntOp.andi x v reducesTo_S65536x1_S_d0_1 h_S_) main_v16 main_c_5
  let main_v18 : IVec S_ 1 := andi main_v13 main_v17
  let main_v19 : FVec F S65536x4x128 .f32 := Host.absf main_arg4
  let main_cst_6 : FVec F S_ .f32 := constant S_ .f32 0x7F800000#32
  let main_v20 : FVec F S65536x4x128 .f32 := broadcastInDim S65536x4x128 ![] bcast_S_S65536x4x128 main_cst_6
  let main_v21 : IVec S65536x4x128 1 := cmpf .olt main_v19 main_v20
  let main_c_7 : IVec S_ 1 := constantI S_ 1 1#1
  let main_v22 : IVec S_ 1 := (fun x v => Host.reduce IntOp.andi x v reducesTo_S65536x4x128_S_d0_1_2 h_S_) main_v21 main_c_7
  let main_v23 : IVec S_ 1 := andi main_v18 main_v22
  let main_v24 : FVec F S65536x4x128 .f32 := Host.absf main_arg5
  let main_cst_8 : FVec F S_ .f32 := constant S_ .f32 0x7F800000#32
  let main_v25 : FVec F S65536x4x128 .f32 := broadcastInDim S65536x4x128 ![] bcast_S_S65536x4x128 main_cst_8
  let main_v26 : IVec S65536x4x128 1 := cmpf .olt main_v24 main_v25
  let main_c_9 : IVec S_ 1 := constantI S_ 1 1#1
  let main_v27 : IVec S_ 1 := (fun x v => Host.reduce IntOp.andi x v reducesTo_S65536x4x128_S_d0_1_2 h_S_) main_v26 main_c_9
  let main_v28 : IVec S_ 1 := andi main_v23 main_v27
  let main_v29 : FVec F S65536x2 .f32 := Host.absf main_arg6
  let main_cst_10 : FVec F S_ .f32 := constant S_ .f32 0x7F800000#32
  let main_v30 : FVec F S65536x2 .f32 := broadcastInDim S65536x2 ![] bcast_S_S65536x2 main_cst_10
  let main_v31 : IVec S65536x2 1 := cmpf .olt main_v29 main_v30
  let main_c_11 : IVec S_ 1 := constantI S_ 1 1#1
  let main_v32 : IVec S_ 1 := (fun x v => Host.reduce IntOp.andi x v reducesTo_S65536x2_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S65536x32 .f32) (main_arg1 : FVec F S65536x32 .f32) (main_arg2 : FVec F S65536x1000 .f32) (main_arg3 : FVec F S65536x1 .f32) (main_arg4 : FVec F S65536x4x128 .f32) (main_arg5 : FVec F S65536x4x128 .f32) (main_arg6 : FVec F S65536x2 .f32) (main_arg7 : FVec F S65536x2 .f32) (main_arg8 : FVec F S64x128 .f32) (main_arg9 : FVec F S128 .f32) (main_arg10 : FVec F S128x128 .f32) (main_arg11 : FVec F S128 .f32) (main_arg12 : FVec F S1000x128 .f32) (main_arg13 : FVec F S128 .f32) (main_arg14 : FVec F S2x64 .f32) (main_arg15 : FVec F S64 .f32) (main_arg16 : FVec F S512x256 .f32) (main_arg17 : FVec F S256 .f32) (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) : IVec S_ 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_c : IVec S_ 1 := constantI S_ 1 1#1
  let main_v3 : IVec S_ 1 := (fun x v => Host.reduce IntOp.andi x v reducesTo_S65536x32_S_d0_1 h_S_) main_v2 main_c
  let main_v4 : FVec F S65536x32 .f32 := Host.absf main_arg1
  let main_cst_0 : FVec F S_ .f32 := constant S_ .f32 0x7F800000#32
  let main_v5 : FVec F S65536x32 .f32 := broadcastInDim S65536x32 ![] bcast_S_S65536x32 main_cst_0
  let main_v6 : IVec S65536x32 1 := cmpf .olt main_v4 main_v5
  let main_c_1 : IVec S_ 1 := constantI S_ 1 1#1
  let main_v7 : IVec S_ 1 := (fun x v => Host.reduce IntOp.andi x v reducesTo_S65536x32_S_d0_1 h_S_) main_v6 main_c_1
  let main_v8 : IVec S_ 1 := andi main_v3 main_v7
  let main_v9 : FVec F S65536x1000 .f32 := Host.absf main_arg2
  let main_cst_2 : FVec F S_ .f32 := constant S_ .f32 0x7F800000#32
  let main_v10 : FVec F S65536x1000 .f32 := broadcastInDim S65536x1000 ![] bcast_S_S65536x1000 main_cst_2
  let main_v11 : IVec S65536x1000 1 := cmpf .olt main_v9 main_v10
  let main_c_3 : IVec S_ 1 := constantI S_ 1 1#1
  let main_v12 : IVec S_ 1 := (fun x v => Host.reduce IntOp.andi x v reducesTo_S65536x1000_S_d0_1 h_S_) main_v11 main_c_3
  let main_v13 : IVec S_ 1 := andi main_v8 main_v12
  let main_v14 : FVec F S65536x1 .f32 := Host.absf main_arg3
  let main_cst_4 : FVec F S_ .f32 := constant S_ .f32 0x7F800000#32
  let main_v15 : FVec F S65536x1 .f32 := broadcastInDim S65536x1 ![] bcast_S_S65536x1 main_cst_4
  let main_v16 : IVec S65536x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S65536x32 : Shape := ⟨2, ![65536, 32]⟩
abbrev S65536x1000 : Shape := ⟨2, ![65536, 1000]⟩
abbrev S65536x1 : Shape := ⟨2, ![65536, 1]⟩
abbrev S65536x4x128 : Shape := ⟨3, ![65536, 4, 128]⟩
abbrev S65536x2 : Shape := ⟨2, ![65536, 2]⟩
abbrev S64x128 : Shape := ⟨2, ![64, 128]⟩
abbrev S128 : Shape := ⟨1, ![128]⟩
abbrev S128x128 : Shape := ⟨2, ![128, 128]⟩
abbrev S1000x128 : Shape := ⟨2, ![1000, 128]⟩
abbrev S2x64 : Shape := ⟨2, ![2, 64]⟩
abbrev S64 : Shape := ⟨1, ![64]⟩
abbrev S512x256 : Shape := ⟨2, ![512, 256]⟩
abbrev S256 : Shape := ⟨1, ![256]⟩
abbrev S384x128 : Shape := ⟨2, ![384, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S65536x69 : Shape := ⟨2, ![65536, 69]⟩
abbrev S_ : Shape := ⟨0, ![]⟩
abbrev S65536x128 : Shape := ⟨2, ![65536, 128]⟩
abbrev S1024x128 : Shape := ⟨2, ![1024, 128]⟩
abbrev S1024x1000 : Shape := ⟨2, ![1024, 1000]⟩
abbrev S1024x4x128 : Shape := ⟨3, ![1024, 4, 128]⟩
abbrev S1024x2 : Shape := ⟨2, ![1024, 2]⟩
abbrev S1024x1x128 : Shape := ⟨3, ![1024, 1, 128]⟩
abbrev S1x128 : Shape := ⟨2, ![1, 128]⟩
abbrev S1024x64 : Shape := ⟨2, ![1024, 64]⟩
abbrev S1024x1 : Shape := ⟨2, ![1024, 1]⟩
abbrev S128x256 : Shape := ⟨2, ![128, 256]⟩
abbrev S1024x256 : Shape := ⟨2, ![1024, 256]⟩
abbrev S1x256 : Shape := ⟨2, ![1, 256]⟩
abbrev S1x64 : Shape := ⟨2, ![1, 64]⟩
abbrev S256x128 : Shape := ⟨2, ![256, 128]⟩
abbrev S1024x32 : Shape := ⟨2, ![1024, 32]⟩
abbrev S1x32 : Shape := ⟨2, ![1, 32]⟩
abbrev S1x1 : Shape := ⟨2, ![1, 1]⟩

abbrev nBuf : Space → Nat
  | .hbm => 35
  | .vmem => 32
  | .smem => 0
  | _ => 0

abbrev bufTy : (tb : Table) → Fin (tcTables nBuf tb) → BufTy
  | .hbm, ⟨0, _⟩ => ⟨S65536x32, .f32⟩
  | .hbm, ⟨1, _⟩ => ⟨S65536x32, .f32⟩
  | .hbm, ⟨2, _⟩ => ⟨S65536x1000, .f32⟩
  | .hbm, ⟨3, _⟩ => ⟨S65536x1, .f32⟩
  | .hbm, ⟨4, _⟩ => ⟨S65536x4x128, .f32⟩
  | .hbm, ⟨5, _⟩ => ⟨S65536x4x128, .f32⟩
  | .hbm, ⟨6, _⟩ => ⟨S65536x2, .f32⟩
  | .hbm, ⟨7, _⟩ => ⟨S65536x2, .f32⟩
  | .hbm, ⟨8, _⟩ => ⟨S64x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1000x128, .f32⟩
  | .hbm, ⟨13, _⟩ => ⟨S128, .f32⟩
  | .hbm, ⟨14, _⟩ => ⟨S2x64, .f32⟩
  | .hbm, ⟨15, _⟩ => ⟨S64, .f32⟩
  | .hbm, ⟨16, _⟩ => ⟨S512x256, .f32⟩
  | .hbm, ⟨17, _⟩ => ⟨S256, .f32⟩
  | .hbm, ⟨18, _⟩ => ⟨S384x128, .f32⟩
  | .hbm, ⟨19, _⟩ => ⟨S128, .f32⟩
  | .hbm, ⟨20, _⟩ => ⟨S128x64, .f32⟩
  | .hbm, ⟨21, _⟩ => ⟨S64, .f32⟩
  | .hbm, ⟨22, _⟩ => ⟨S64x32, .f32⟩
  | .hbm, ⟨23, _⟩ => ⟨S32, .f32⟩
  | .hbm, ⟨24, _⟩ => ⟨S32x1, .f32⟩
  | .hbm, ⟨25, _⟩ => ⟨S1, .f32⟩
  | .hbm, ⟨26, _⟩ => ⟨S64x32, .f32⟩
  | .hbm, ⟨27, _⟩ => ⟨S32, .f32⟩
  | .hbm, ⟨28, _⟩ => ⟨S32x1, .f32⟩
  | .hbm, ⟨29, _⟩ => ⟨S1, .f32⟩
  | .hbm, ⟨30, _⟩ => ⟨S65536x69, .f32⟩
  | .hbm, ⟨31, _⟩ => ⟨S_, .i32⟩
  | .hbm, ⟨32, _⟩ => ⟨S_, .f32⟩
  | .hbm, ⟨33, _⟩ => ⟨S65536x128, .f32⟩
  | .hbm, ⟨34, _⟩ => ⟨S65536x2, .f32⟩
  | .local _ .vmem, ⟨0, _⟩ => ⟨S1024x128, .f32⟩
  | .local _ .vmem, ⟨1, _⟩ => ⟨S1024x128, .f32⟩
  | .local _ .vmem, ⟨2, _⟩ => ⟨S1024x1000, .f32⟩
  | .local _ .vmem, ⟨3, _⟩ => ⟨S1024x1000, .f32⟩
  | .local _ .vmem, ⟨4, _⟩ => ⟨S1024x4x128, .f32⟩
  | .local _ .vmem, ⟨5, _⟩ => ⟨S1024x4x128, .f32⟩
  | .local _ .vmem, ⟨6, _⟩ => ⟨S1024x4x128, .f32⟩
  | .local _ .vmem, ⟨7, _⟩ => ⟨S1024x4x128, .f32⟩
  | .local _ .vmem, ⟨8, _⟩ => ⟨S64x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S1000x128, .f32⟩
  | .local _ .vmem, ⟨13, _⟩ => ⟨S128, .f32⟩
  | .local _ .vmem, ⟨14, _⟩ => ⟨S2x64, .f32⟩
  | .local _ .vmem, ⟨15, _⟩ => ⟨S64, .f32⟩
  | .local _ .vmem, ⟨16, _⟩ => ⟨S512x256, .f32⟩
  | .local _ .vmem, ⟨17, _⟩ => ⟨S256, .f32⟩
  | .local _ .vmem, ⟨18, _⟩ => ⟨S384x128, .f32⟩
  | .local _ .vmem, ⟨19, _⟩ => ⟨S128, .f32⟩
  | .local _ .vmem, ⟨20, _⟩ => ⟨S128x64, .f32⟩
  | .local _ .vmem, ⟨21, _⟩ => ⟨S64, .f32⟩
  | .local _ .vmem, ⟨22, _⟩ => ⟨S64x32, .f32⟩
  | .local _ .vmem, ⟨23, _⟩ => ⟨S32, .f32⟩
  | .local _ .vmem, ⟨24, _⟩ => ⟨S32x1, .f32⟩
  | .local _ .vmem, ⟨25, _⟩ => ⟨S1, .f32⟩
  | .local _ .vmem, ⟨26, _⟩ => ⟨S64x32, .f32⟩
  | .local _ .vmem, ⟨27, _⟩ => ⟨S32, .f32⟩
  | .local _ .vmem, ⟨28, _⟩ => ⟨S32x1, .f32⟩
  | .local _ .vmem, ⟨29, _⟩ => ⟨S1, .f32⟩
  | .local _ .vmem, ⟨30, _⟩ => ⟨S1024x2, .f32⟩
  | .local _ .vmem, ⟨31, _⟩ => ⟨S1024x2, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_c : Ref sig .tc := ⟨.hbm, 31, rfl⟩
abbrev main_call0_v0 : Ref sig .tc := ⟨.hbm, 32, rfl⟩
abbrev main_v1 : Ref sig .tc := ⟨.hbm, 33, rfl⟩
abbrev main_v2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg26_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem26_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1000x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S32x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1024x2 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  concatenates_S65536x32_S65536x32_S65536x1_S65536x2_S65536x2_S65536x69_d1 : Shape.Concatenates [S65536x32, S65536x32, S65536x1, S65536x2, S65536x2] S65536x69 1
  pads_S65536x69_S65536x128_000_0590 : S65536x69.Pads (![0, 0] : Fin 2 → Nat) ![0, 59] ![0, 0] S65536x128
  h_S_ : 0 < S_.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  inb_S1024x4x128_S1024x1x128_0_0_0 : ∀ a, (![0, 0, 0] : Fin 3 → Nat) a + S1024x1x128.size a ≤ S1024x4x128.size a
  h_S1024x1x128 : 0 < S1024x1x128.numel
  shapeCasts_S1024x1x128_S1024x128 : S1024x1x128.ShapeCasts S1024x128
  shapeCasts_S128_S1x128 : S128.ShapeCasts S1x128
  broadcasts_S1x128_S1024x128 : S1x128.Broadcasts S1024x128
  inb_S1024x4x128_S1024x1x128_0_1_0 : ∀ a, (![0, 1, 0] : Fin 3 → Nat) a + S1024x1x128.size a ≤ S1024x4x128.size a
  inb_S1024x4x128_S1024x1x128_0_2_0 : ∀ a, (![0, 2, 0] : Fin 3 → Nat) a + S1024x1x128.size a ≤ S1024x4x128.size a
  inb_S1024x4x128_S1024x1x128_0_3_0 : ∀ a, (![0, 3, 0] : Fin 3 → Nat) a + S1024x1x128.size a ≤ S1024x4x128.size a
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x64 : S1024x128.Slices ![0, 0] S1024x64
  slices_S1024x128_o0_64_S1024x1 : S1024x128.Slices ![0, 64] S1024x1
  slices_S1024x128_o0_65_S1024x2 : S1024x128.Slices ![0, 65] S1024x2
  slices_S1024x128_o0_67_S1024x2 : S1024x128.Slices ![0, 67] S1024x2
  inb_S64x128_S64x128_0_0 : ∀ a, (![0, 0] : Fin 2 → Nat) a + S64x128.size a ≤ S64x128.size a
  h_S64x128 : 0 < S64x128.numel
  inb_S1024x1000_S1024x1000_0_0 : ∀ a, (![0, 0] : Fin 2 → Nat) a + S1024x1000.size a ≤ S1024x1000.size a
  h_S1024x1000 : 0 < S1024x1000.numel
  inb_S1000x128_S1000x128_0_0 : ∀ a, (![0, 0] : Fin 2 → Nat) a + S1000x128.size a ≤ S1000x128.size a
  h_S1000x128 : 0 < S1000x128.numel
  broadcasts_S1024x1_S1024x128 : S1024x1.Broadcasts S1024x128
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  slices_S512x256_o0_0_S128x256 : S512x256.Slices ![0, 0] S128x256
  slices_S512x256_o128_0_S128x256 : S512x256.Slices ![128, 0] S128x256
  slices_S512x256_o256_0_S128x256 : S512x256.Slices ![256, 0] S128x256
  slices_S512x256_o384_0_S128x256 : S512x256.Slices ![384, 0] S128x256
  shapeCasts_S256_S1x256 : S256.ShapeCasts S1x256
  broadcasts_S1x256_S1024x256 : S1x256.Broadcasts S1024x256
  inb_S2x64_S2x64_0_0 : ∀ a, (![0, 0] : Fin 2 → Nat) a + S2x64.size a ≤ S2x64.size a
  h_S2x64 : 0 < S2x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S384x128_S384x128_0_0 : ∀ a, (![0, 0] : Fin 2 → Nat) a + S384x128.size a ≤ S384x128.size a
  h_S384x128 : 0 < S384x128.numel
  slices_S384x128_o0_0_S256x128 : S384x128.Slices ![0, 0] S256x128
  slices_S384x128_o256_0_S64x128 : S384x128.Slices ![256, 0] S64x128
  slices_S384x128_o320_0_S64x128 : S384x128.Slices ![320, 0] S64x128
  inb_S128x64_S128x64_0_0 : ∀ a, (![0, 0] : Fin 2 → Nat) a + S128x64.size a ≤ S128x64.size a
  h_S128x64 : 0 < S128x64.numel
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  concatenates_S1024x1_S1024x1_S1024x2_d1 : Shape.Concatenates [S1024x1, S1024x1] S1024x2 1
  inb_S1024x2_S1024x2_0_0 : ∀ a, (![0, 0] : Fin 2 → Nat) a + S1024x2.size a ≤ S1024x2.size a
  h_S1024x2 : 0 < S1024x2.numel
  dot_S1024x128_S128x128_S1024x128_1_0_0_1_n_n_wf : DotDims.WF S1024x128 S128x128 S1024x128 [1] [0] [0] [1] [] []
  dot_S1024x64_S64x128_S1024x128_1_0_0_1_n_n_wf : DotDims.WF S1024x64 S64x128 S1024x128 [1] [0] [0] [1] [] []
  dot_S1024x1000_S1000x128_S1024x128_1_0_0_1_n_n_wf : DotDims.WF S1024x1000 S1000x128 S1024x128 [1] [0] [0] [1] [] []
  dot_S1024x128_S128x256_S1024x256_1_0_0_1_n_n_wf : DotDims.WF S1024x128 S128x256 S1024x256 [1] [0] [0] [1] [] []
  dot_S1024x2_S2x64_S1024x64_1_0_0_1_n_n_wf : DotDims.WF S1024x2 S2x64 S1024x64 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S65536x1000.size a
  hwx0_1 : ∀ i : grid0.Coords, EltTy.bits .f32 = 32 ∨ (Rect.block (s := S65536x1000) S1024x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4x128.size a ≤ S65536x4x128.size a
  hwx0_2 : ∀ i : grid0.Coords, EltTy.bits .f32 = 32 ∨ (Rect.block (s := S65536x4x128) S1024x4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4x128.size a ≤ S65536x4x128.size a
  hwx0_3 : ∀ i : grid0.Coords, EltTy.bits .f32 = 32 ∨ (Rect.block (s := S65536x4x128) S1024x4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1000x128.size a ≤ S1000x128.size a
  hwx0_8 : ∀ i : grid0.Coords, EltTy.bits .f32 = 32 ∨ (Rect.block (s := S1000x128) S1000x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x64.size a ≤ S2x64.size a
  hwx0_10 : ∀ i : grid0.Coords, EltTy.bits .f32 = 32 ∨ (Rect.block (s := S2x64) S2x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .f32 = 32 ∨ (Rect.block (s := S512x256) S512x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S384x128.size a ≤ S384x128.size a
  hwx0_14 : ∀ i : grid0.Coords, EltTy.bits .f32 = 32 ∨ (Rect.block (s := S384x128) S384x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x64.size a ≤ S128x64.size a
  hwx0_16 : ∀ i : grid0.Coords, EltTy.bits .f32 = 32 ∨ (Rect.block (s := S128x64) S128x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64.size a ≤ S64.size a
  hwx0_17 : ∀ i : grid0.Coords, EltTy.bits .f32 = 32 ∨ (Rect.block (s := S64) S64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64x32.size a ≤ S64x32.size a
  hwx0_18 : ∀ i : grid0.Coords, EltTy.bits .f32 = 32 ∨ (Rect.block (s := S64x32) S64x32.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S32.size a ≤ S32.size a
  hwx0_19 : ∀ i : grid0.Coords, EltTy.bits .f32 = 32 ∨ (Rect.block (s := S32) S32.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S32x1.size a ≤ S32x1.size a
  hwx0_20 : ∀ i : grid0.Coords, EltTy.bits .f32 = 32 ∨ (Rect.block (s := S32x1) S32x1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1.size a ≤ S1.size a
  hwx0_21 : ∀ i : grid0.Coords, EltTy.bits .f32 = 32 ∨ (Rect.block (s := S1) S1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x32.size a ≤ S64x32.size a
  hwx0_22 : ∀ i : grid0.Coords, EltTy.bits .f32 = 32 ∨ (Rect.block (s := S64x32) S64x32.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S32.size a ≤ S32.size a
  hwx0_23 : ∀ i : grid0.Coords, EltTy.bits .f32 = 32 ∨ (Rect.block (s := S32) S32.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S32x1.size a ≤ S32x1.size a
  hwx0_24 : ∀ i : grid0.Coords, EltTy.bits .f32 = 32 ∨ (Rect.block (s := S32x1) S32x1.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1.size a ≤ S1.size a
  hwx0_25 : ∀ i : grid0.Coords, EltTy.bits .f32 = 32 ∨ (Rect.block (s := S1) S1.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1024x2.size a ≤ S65536x2.size a
  hwx0_26 : ∀ i : grid0.Coords, EltTy.bits .f32 = 32 ∨ (Rect.block (s := S65536x2) S1024x2.size (cc0_transform_26 i) (hinb0_26 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x1000_S1000x128_S1024x128_1_0_0_1_n_n : DotDims S1024x1000 S1000x128 S1024x128 where
  lhsContracting := [1]
  rhsContracting := [0]
  lhsNonContracting := [0]
  rhsNonContracting := [1]
  lhsBatch := []
  rhsBatch := []
  wf := dot_S1024x1000_S1000x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x2_S2x64_S1024x64_1_0_0_1_n_n : DotDims S1024x2 S2x64 S1024x64 where
  lhsContracting := [1]
  rhsContracting := [0]
  lhsNonContracting := [0]
  rhsNonContracting := [1]
  lhsBatch := []
  rhsBatch := []
  wf := dot_S1024x2_S2x64_S1024x64_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S1000x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S2x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg17) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg18) S384x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg19) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg20) S128x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg21) S64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg22) S64x32.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg23) S32.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg24) S32x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg25) S1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg26) S64x32.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg27) S32.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg28) S32x1.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg29) S1.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v2) S1024x2.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S65536x32 : Shape := ⟨2, ![65536, 32]⟩
abbrev S65536x1000 : Shape := ⟨2, ![65536, 1000]⟩
abbrev S65536x1 : Shape := ⟨2, ![65536, 1]⟩
abbrev S65536x4x128 : Shape := ⟨3, ![65536, 4, 128]⟩
abbrev S65536x2 : Shape := ⟨2, ![65536, 2]⟩
abbrev S64x128 : Shape := ⟨2, ![64, 128]⟩
abbrev S128 : Shape := ⟨1, ![128]⟩
abbrev S128x128 : Shape := ⟨2, ![128, 128]⟩
abbrev S1000x128 : Shape := ⟨2, ![1000, 128]⟩
abbrev S2x64 : Shape := ⟨2, ![2, 64]⟩
abbrev S64 : Shape := ⟨1, ![64]⟩
abbrev S512x256 : Shape := ⟨2, ![512, 256]⟩
abbrev S256 : Shape := ⟨1, ![256]⟩
abbrev S384x128 : Shape := ⟨2, ![384, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1x128 : Shape := ⟨3, ![1, 1, 128]⟩
abbrev S_ : Shape := ⟨0, ![]⟩
abbrev S65536x128 : Shape := ⟨2, ![65536, 128]⟩
abbrev S65536x64 : Shape := ⟨2, ![65536, 64]⟩
abbrev S1x128 : Shape := ⟨2, ![1, 128]⟩
abbrev S65536x512 : Shape := ⟨2, ![65536, 512]⟩
abbrev S65536x256 : Shape := ⟨2, ![65536, 256]⟩
abbrev S1x256 : Shape := ⟨2, ![1, 256]⟩
abbrev S1x64 : Shape := ⟨2, ![1, 64]⟩
abbrev S65536x384 : Shape := ⟨2, ![65536, 384]⟩
abbrev S1x32 : Shape := ⟨2, ![1, 32]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S65536x32, .f32⟩
  | 1 => ⟨S65536x32, .f32⟩
  | 2 => ⟨S65536x1000, .f32⟩
  | 3 => ⟨S65536x1, .f32⟩
  | 4 => ⟨S65536x4x128, .f32⟩
  | 5 => ⟨S65536x4x128, .f32⟩
  | 6 => ⟨S65536x2, .f32⟩
  | 7 => ⟨S65536x2, .f32⟩
  | 8 => ⟨S64x128, .f32⟩
  | 9 => ⟨S128, .f32⟩
  | 10 => ⟨S128x128, .f32⟩
  | 11 => ⟨S128, .f32⟩
  | 12 => ⟨S1000x128, .f32⟩
  | 13 => ⟨S128, .f32⟩
  | 14 => ⟨S2x64, .f32⟩
  | 15 => ⟨S64, .f32⟩
  | 16 => ⟨S512x256, .f32⟩
  | 17 => ⟨S256, .f32⟩
  | 18 => ⟨S384x128, .f32⟩
  | 19 => ⟨S128, .f32⟩
  | 20 => ⟨S128x64, .f32⟩
  | 21 => ⟨S64, .f32⟩
  | 22 => ⟨S64x32, .f32⟩
  | 23 => ⟨S32, .f32⟩
  | 24 => ⟨S32x1, .f32⟩
  | 25 => ⟨S1, .f32⟩
  | 26 => ⟨S64x32, .f32⟩
  | 27 => ⟨S32, .f32⟩
  | 28 => ⟨S32x1, .f32⟩
  | 29 => ⟨S1, .f32⟩
  | 30 => ⟨S65536x4x128, .f32⟩
  | 31 => ⟨S1x1x128, .f32⟩
  | 32 => ⟨S65536x4x128, .f32⟩
  | 33 => ⟨S65536x4x128, .f32⟩
  | 34 => ⟨S_, .f32⟩
  | 35 => ⟨S65536x128, .f32⟩
  | 36 => ⟨S65536x4x128, .f32⟩
  | 37 => ⟨S1x1x128, .f32⟩
  | 38 => ⟨S65536x4x128, .f32⟩
  | 39 => ⟨S65536x4x128, .f32⟩
  | 40 => ⟨S_, .f32⟩
  | 41 => ⟨S65536x128, .f32⟩
  | 42 => ⟨S65536x64, .f32⟩
  | 43 => ⟨S65536x128, .f32⟩
  | 44 => ⟨S1x128, .f32⟩
  | 45 => ⟨S65536x128, .f32⟩
  | 46 => ⟨S65536x128, .f32⟩
  | 47 => ⟨S65536x128, .f32⟩
  | 48 => ⟨S1x128, .f32⟩
  | 49 => ⟨S65536x128, .f32⟩
  | 50 => ⟨S65536x128, .f32⟩
  | 51 => ⟨S65536x128, .f32⟩
  | 52 => ⟨S65536x128, .f32⟩
  | 53 => ⟨S65536x512, .f32⟩
  | 54 => ⟨S65536x256, .f32⟩
  | 55 => ⟨S1x256, .f32⟩
  | 56 => ⟨S65536x256, .f32⟩
  | 57 => ⟨S65536x256, .f32⟩
  | 58 => ⟨S_, .f32⟩
  | 59 => ⟨S65536x256, .f32⟩
  | 60 => ⟨S65536x256, .f32⟩
  | 61 => ⟨S65536x64, .f32⟩
  | 62 => ⟨S1x64, .f32⟩
  | 63 => ⟨S65536x64, .f32⟩
  | 64 => ⟨S65536x64, .f32⟩
  | 65 => ⟨S_, .f32⟩
  | 66 => ⟨S65536x64, .f32⟩
  | 67 => ⟨S65536x64, .f32⟩
  | 68 => ⟨S65536x64, .f32⟩
  | 69 => ⟨S1x64, .f32⟩
  | 70 => ⟨S65536x64, .f32⟩
  | 71 => ⟨S65536x64, .f32⟩
  | 72 => ⟨S_, .f32⟩
  | 73 => ⟨S65536x64, .f32⟩
  | 74 => ⟨S65536x64, .f32⟩
  | 75 => ⟨S65536x384, .f32⟩
  | 76 => ⟨S65536x128, .f32⟩
  | 77 => ⟨S1x128, .f32⟩
  | 78 => ⟨S65536x128, .f32⟩
  | 79 => ⟨S65536x128, .f32⟩
  | 80 => ⟨S_, .f32⟩
  | 81 => ⟨S65536x128, .f32⟩
  | 82 => ⟨S65536x128, .f32⟩
  | 83 => ⟨S65536x64, .f32⟩
  | 84 => ⟨S1x64, .f32⟩
  | 85 => ⟨S65536x64, .f32⟩
  | 86 => ⟨S65536x64, .f32⟩
  | 87 => ⟨S_, .f32⟩
  | 88 => ⟨S65536x64, .f32⟩
  | 89 => ⟨S65536x64, .f32⟩
  | 90 => ⟨S65536x32, .f32⟩
  | 91 => ⟨S1x32, .f32⟩
  | 92 => ⟨S65536x32, .f32⟩
  | 93 => ⟨S65536x32, .f32⟩
  | 94 => ⟨S_, .f32⟩
  | 95 => ⟨S65536x32, .f32⟩
  | 96 => ⟨S65536x32, .f32⟩
  | 97 => ⟨S65536x1, .f32⟩
  | 98 => ⟨S1x1, .f32⟩
  | 99 => ⟨S65536x1, .f32⟩
  | 100 => ⟨S65536x1, .f32⟩
  | 101 => ⟨S65536x1, .f32⟩
  | 102 => ⟨S65536x1, .f32⟩
  | 103 => ⟨S_, .f32⟩
  | 104 => ⟨S65536x1, .f32⟩
  | 105 => ⟨S65536x1, .f32⟩
  | 106 => ⟨S_, .f32⟩
  | 107 => ⟨S65536x1, .f32⟩
  | 108 => ⟨S65536x1, .f32⟩
  | 109 => ⟨S65536x32, .f32⟩
  | 110 => ⟨S1x32, .f32⟩
  | 111 => ⟨S65536x32, .f32⟩
  | 112 => ⟨S65536x32, .f32⟩
  | 113 => ⟨S_, .f32⟩
  | 114 => ⟨S65536x32, .f32⟩
  | 115 => ⟨S65536x32, .f32⟩
  | 116 => ⟨S65536x1, .f32⟩
  | 117 => ⟨S1x1, .f32⟩
  | 118 => ⟨S65536x1, .f32⟩
  | 119 => ⟨S65536x1, .f32⟩
  | 120 => ⟨S65536x1, .f32⟩
  | 121 => ⟨S65536x1, .f32⟩
  | 122 => ⟨S_, .f32⟩
  | 123 => ⟨S65536x1, .f32⟩
  | 124 => ⟨S65536x1, .f32⟩
  | 125 => ⟨S_, .f32⟩
  | 126 => ⟨S65536x1, .f32⟩
  | 127 => ⟨S65536x1, .f32⟩
  | _ => ⟨S65536x32, .f32⟩

abbrev hbmTy0_1 (i : Nat) : BufTy := match i % 128 with
  | 0 => ⟨S65536x2, .f32⟩
  | _ => ⟨S65536x32, .f32⟩

abbrev hbmTy (i : Nat) : BufTy := match i / 128 with
  | 0 => hbmTy0_0 i
  | 1 => hbmTy0_1 i
  | _ => ⟨S65536x32, .f32⟩

abbrev bufTy : (tb : Table) → Fin (tcTables nBuf tb) → BufTy
  | .hbm, ⟨i, _⟩ => hbmTy i
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_call0_cst : Ref sig .tc := ⟨.hbm, 58, rfl⟩
abbrev main_call0_v0 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_call1_cst : Ref sig .tc := ⟨.hbm, 65, rfl⟩
abbrev main_call1_v0 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_call2_cst : Ref sig .tc := ⟨.hbm, 72, rfl⟩
abbrev main_call2_v0 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_call3_cst : Ref sig .tc := ⟨.hbm, 80, rfl⟩
abbrev main_call3_v0 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_call4_cst : Ref sig .tc := ⟨.hbm, 87, rfl⟩
abbrev main_call4_v0 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_call5_cst : Ref sig .tc := ⟨.hbm, 94, rfl⟩
abbrev main_call5_v0 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_1 : Ref sig .tc := ⟨.hbm, 103, rfl⟩
abbrev main_v59 : Ref sig .tc := ⟨.hbm, 104, rfl⟩
abbrev main_v60 : Ref sig .tc := ⟨.hbm, 105, rfl⟩
abbrev main_cst_2 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_call6_cst : Ref sig .tc := ⟨.hbm, 113, rfl⟩
abbrev main_call6_v0 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_3 : Ref sig .tc := ⟨.hbm, 122, rfl⟩
abbrev main_v74 : Ref sig .tc := ⟨.hbm, 123, rfl⟩
abbrev main_v75 : Ref sig .tc := ⟨.hbm, 124, rfl⟩
abbrev main_cst_4 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S65536x4x128_0_1_2 : S1x1x128.BroadcastsInDim S65536x4x128 (![0, 1, 2] : Fin 3 → Fin S65536x4x128.rank)
  reducesTo_S65536x4x128_S65536x128_d1 : S65536x4x128.ReducesTo [1] S65536x128
  h_S_ : 0 < S_.numel
  concatenates_S65536x32_S65536x32_S65536x64_d1 : Shape.Concatenates [S65536x32, S65536x32] S65536x64 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S65536x1_S65536x128_0_1 : S65536x1.BroadcastsInDim S65536x128 (![0, 1] : Fin 2 → Fin S65536x128.rank)
  concatenates_S65536x128_S65536x128_S65536x128_S65536x128_S65536x512_d1 : Shape.Concatenates [S65536x128, S65536x128, S65536x128, S65536x128] S65536x512 1
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  concatenates_S65536x256_S65536x64_S65536x64_S65536x384_d1 : Shape.Concatenates [S65536x256, S65536x64, S65536x64] S65536x384 1
  bcast_S_S65536x128 : S_.BroadcastsInDim S65536x128 (![] : Fin 0 → Fin S65536x128.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  concatenates_S65536x1_S65536x1_S65536x2_d1 : Shape.Concatenates [S65536x1, S65536x1] S65536x2 1
  dot_S65536x4x128_S128x128_S65536x4x128_2_0_01_1_n_n_wf : DotDims.WF S65536x4x128 S128x128 S65536x4x128 [2] [0] [0, 1] [1] [] []
  dot_S65536x64_S64x128_S65536x128_1_0_0_1_n_n_wf : DotDims.WF S65536x64 S64x128 S65536x128 [1] [0] [0] [1] [] []
  dot_S65536x1000_S1000x128_S65536x128_1_0_0_1_n_n_wf : DotDims.WF S65536x1000 S1000x128 S65536x128 [1] [0] [0] [1] [] []
  dot_S65536x512_S512x256_S65536x256_1_0_0_1_n_n_wf : DotDims.WF S65536x512 S512x256 S65536x256 [1] [0] [0] [1] [] []
  dot_S65536x2_S2x64_S65536x64_1_0_0_1_n_n_wf : DotDims.WF S65536x2 S2x64 S65536x64 [1] [0] [0] [1] [] []
  dot_S65536x384_S384x128_S65536x128_1_0_0_1_n_n_wf : DotDims.WF S65536x384 S384x128 S65536x128 [1] [0] [0] [1] [] []
  dot_S65536x128_S128x64_S65536x64_1_0_0_1_n_n_wf : DotDims.WF S65536x128 S128x64 S65536x64 [1] [0] [0] [1] [] []
  dot_S65536x64_S64x32_S65536x32_1_0_0_1_n_n_wf : DotDims.WF S65536x64 S64x32 S65536x32 [1] [0] [0] [1] [] []
  dot_S65536x32_S32x1_S65536x1_1_0_0_1_n_n_wf : DotDims.WF S65536x32 S32x1 S65536x1 [1] [0] [0] [1] [] []

variable [Facts₀]

def dot_S65536x4x128_S128x128_S65536x4x128_2_0_01_1_n_n : DotDims S65536x4x128 S128x128 S65536x4x128 where
  lhsContracting := [2]
  rhsContracting := [0]
  lhsNonContracting := [0, 1]
  rhsNonContracting := [1]
  lhsBatch := []
  rhsBatch := []
  wf := dot_S65536x4x128_S128x128_S65536x4x128_2_0_01_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf
def dot_S65536x1000_S1000x128_S65536x128_1_0_0_1_n_n : DotDims S65536x1000 S1000x128 S65536x128 where
  lhsContracting := [1]
  rhsContracting := [0]
  lhsNonContracting := [0]
  rhsNonContracting := [1]
  lhsBatch := []
  rhsBatch := []
  wf := dot_S65536x1000_S1000x128_S65536x128_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x2_S2x64_S65536x64_1_0_0_1_n_n : DotDims S65536x2 S2x64 S65536x64 where
  lhsContracting := [1]
  rhsContracting := [0]
  lhsNonContracting := [0]
  rhsNonContracting := [1]
  lhsBatch := []
  rhsBatch := []
  wf := dot_S65536x2_S2x64_S65536x64_1_0_0_1_n_n_wf
def dot_S65536x384_S384x128_S65536x128_1_0_0_1_n_n : DotDims S65536x384 S384x128 S65536x128 where
  lhsContracting := [1]
  rhsContracting := [0]
  lhsNonContracting := [0]
  rhsNonContracting := [1]
  lhsBatch := []
  rhsBatch := []
  wf := dot_S65536x384_S384x128_S65536x128_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf

class Facts : Prop extends Facts₀ where

variable [Facts]
-- ==== Proof.BitsBody.lean ====
/-
  What the body of `Kernel`'s one kernel stores, as a function of the blocks it loads: the rectangles of its loads (each
  weight, bias and per-row block whole; each predicate block one slot at a time) and the stored 1024 × 2 block as the
  composition of the body's named values.
-/
import proofs.«135069_j84061099917535_2_alg».proof.Proof.Gen.Kernel.Skeleton
import Idealize.ShloMosaic.Lib.Pipeline.FrameBody

set_option maxRecDepth 16384

noncomputable section

namespace Cert.Kernel.Body

open Cert.Kernel Cert.Kernel.Gen
open Idealize.ShloMosaic Idealize.ShloMosaic.TcCoe
open Idealize.SL Idealize.SL.Sem

variable {F : FTy → Type} [FloatOps F]

/-! ## The body's accesses -/

abbrev rw_S1024x128 : Rect S1024x128 := Rect.unit (s := S1024x128) ![0, 0] S1024x128.size inb_S1024x128_S1024x128_0_0
abbrev rw_S1024x1000 : Rect S1024x1000 := Rect.unit (s := S1024x1000) ![0, 0] S1024x1000.size inb_S1024x1000_S1024x1000_0_0
abbrev rw_S64x128 : Rect S64x128 := Rect.unit (s := S64x128) ![0, 0] S64x128.size inb_S64x128_S64x128_0_0
abbrev rw_S128 : Rect S128 := Rect.unit (s := S128) ![0] S128.size inb_S128_S128_0
abbrev rw_S128x128 : Rect S128x128 := Rect.unit (s := S128x128) ![0, 0] S128x128.size inb_S128x128_S128x128_0_0
abbrev rw_S1000x128 : Rect S1000x128 := Rect.unit (s := S1000x128) ![0, 0] S1000x128.size inb_S1000x128_S1000x128_0_0
abbrev rw_S2x64 : Rect S2x64 := Rect.unit (s := S2x64) ![0, 0] S2x64.size inb_S2x64_S2x64_0_0
abbrev rw_S64 : Rect S64 := Rect.unit (s := S64) ![0] S64.size inb_S64_S64_0
abbrev rw_S512x256 : Rect S512x256 := Rect.unit (s := S512x256) ![0, 0] S512x256.size inb_S512x256_S512x256_0_0
abbrev rw_S256 : Rect S256 := Rect.unit (s := S256) ![0] S256.size inb_S256_S256_0
abbrev rw_S384x128 : Rect S384x128 := Rect.unit (s := S384x128) ![0, 0] S384x128.size inb_S384x128_S384x128_0_0
abbrev rw_S128x64 : Rect S128x64 := Rect.unit (s := S128x64) ![0, 0] S128x64.size inb_S128x64_S128x64_0_0
abbrev rw_S64x32 : Rect S64x32 := Rect.unit (s := S64x32) ![0, 0] S64x32.size inb_S64x32_S64x32_0_0
abbrev rw_S32 : Rect S32 := Rect.unit (s := S32) ![0] S32.size inb_S32_S32_0
abbrev rw_S32x1 : Rect S32x1 := Rect.unit (s := S32x1) ![0, 0] S32x1.size inb_S32x1_S32x1_0_0
abbrev rw_S1 : Rect S1 := Rect.unit (s := S1) ![0] S1.size inb_S1_S1_0
abbrev rw_S1024x2 : Rect S1024x2 := Rect.unit (s := S1024x2) ![0, 0] S1024x2.size inb_S1024x2_S1024x2_0_0
abbrev rp_0 : Rect S1024x4x128 := Rect.unit (s := S1024x4x128) ![0, 0, 0] S1024x1x128.size inb_S1024x4x128_S1024x1x128_0_0_0
abbrev rp_1 : Rect S1024x4x128 := Rect.unit (s := S1024x4x128) ![0, 1, 0] S1024x1x128.size inb_S1024x4x128_S1024x1x128_0_1_0
abbrev rp_2 : Rect S1024x4x128 := Rect.unit (s := S1024x4x128) ![0, 2, 0] S1024x1x128.size inb_S1024x4x128_S1024x1x128_0_2_0
abbrev rp_3 : Rect S1024x4x128 := Rect.unit (s := S1024x4x128) ![0, 3, 0] S1024x1x128.size inb_S1024x4x128_S1024x1x128_0_3_0

/-! ## What the body computes -/

/-- The body's stored value from the blocks it loads: the predicate weights and bias (windows 6, 7) against the four
    predicate slots of each predicate block (windows 2, 3), the running minimum over the slots; the packed block
    (window 0) cut into its columns; the embeddings, the node layer, the two column-pair layers, the two mixing
    layers and the two heads. Each name is the value the printed body binds under that name. -/
def s_v1 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S128x128 .bf16 := k0_pay2 (View.ld x6 rw_S128x128)
def s_v31 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay3 (View.ld x6 rw_S128x128) (View.ld x7 rw_S128) (View.ld x2 rp_0) (View.ld x2 rp_1)
def s_v32 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay4 (View.ld x6 rw_S128x128) (View.ld x7 rw_S128) (View.ld x3 rp_0) (View.ld x3 rp_1)
def s_v35 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .bf16 := k0_pay5 (View.ld x2 rp_2)
def s_c18 : FVec F S1024x128 .f32 := constant S1024x128 .f32 0x00000000#32
def s_v63 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay6 (s_v1 x0 x1 x2 x3 x4 x5 x6 x7 x8 x9 x10 x11 x12 x13 x14 x15 x16 x17 x18 x19 x20 x21 x22 x23 x24 x25) (View.ld x7 rw_S128) (s_v31 x0 x1 x2 x3 x4 x5 x6 x7 x8 x9 x10 x11 x12 x13 x14 x15 x16 x17 x18 x19 x20 x21 x22 x23 x24 x25) (s_v35 x0 x1 x2 x3 x4 x5 x6 x7 x8 x9 x10 x11 x12 x13 x14 x15 x16 x17 x18 x19 x20 x21 x22 x23 x24 x25) s_c18 (View.ld x2 rp_3)
def s_v64 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay7 (s_v1 x0 x1 x2 x3 x4 x5 x6 x7 x8 x9 x10 x11 x12 x13 x14 x15 x16 x17 x18 x19 x20 x21 x22 x23 x24 x25) (View.ld x7 rw_S128) (s_v32 x0 x1 x2 x3 x4 x5 x6 x7 x8 x9 x10 x11 x12 x13 x14 x15 x16 x17 x18 x19 x20 x21 x22 x23 x24 x25) (View.ld x3 rp_2) (View.ld x3 rp_3)
def s_v68 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x1 .f32 := k0_pay9 (View.ld x0 rw_S1024x128)
def s_v69 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x2 .f32 := k0_pay10 (View.ld x0 rw_S1024x128)
def s_v70 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x2 .f32 := k0_pay11 (View.ld x0 rw_S1024x128)
def s_v74 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay12 (View.ld x0 rw_S1024x128) (View.ld x4 rw_S64x128)
def s_v77 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay13 (View.ld x5 rw_S128)
def s_v112 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x256 .f32 := k0_pay14 (s_v63 x0 x1 x2 x3 x4 x5 x6 x7 x8 x9 x10 x11 x12 x13 x14 x15 x16 x17 x18 x19 x20 x21 x22 x23 x24 x25) (s_v64 x0 x1 x2 x3 x4 x5 x6 x7 x8 x9 x10 x11 x12 x13 x14 x15 x16 x17 x18 x19 x20 x21 x22 x23 x24 x25) (s_v68 x0 x1 x2 x3 x4 x5 x6 x7 x8 x9 x10 x11 x12 x13 x14 x15 x16 x17 x18 x19 x20 x21 x22 x23 x24 x25) (s_v74 x0 x1 x2 x3 x4 x5 x6 x7 x8 x9 x10 x11 x12 x13 x14 x15 x16 x17 x18 x19 x20 x21 x22 x23 x24 x25) (s_v77 x0 x1 x2 x3 x4 x5 x6 x7 x8 x9 x10 x11 x12 x13 x14 x15 x16 x17 x18 x19 x20 x21 x22 x23 x24 x25) (View.ld x1 rw_S1024x1000) (View.ld x8 rw_S1000x128) (View.ld x9 rw_S128) (View.ld x12 rw_S512x256) (View.ld x13 rw_S256)
def s_v114 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S2x64 .bf16 := k0_pay15 (View.ld x10 rw_S2x64)
def s_v117 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x64 .f32 := k0_pay16 (s_v69 x0 x1 x2 x3 x4 x5 x6 x7 x8 x9 x10 x11 x12 x13 x14 x15 x16 x17 x18 x19 x20 x21 x22 x23 x24 x25) (View.ld x10 rw_S2x64)
def s_v119 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x64 .f32 := k0_pay17 (View.ld x11 rw_S64)
def s_v158 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x64 .f32 := k0_pay18 (s_v70 x0 x1 x2 x3 x4 x5 x6 x7 x8 x9 x10 x11 x12 x13 x14 x15 x16 x17 x18 x19 x20 x21 x22 x23 x24 x25) (s_v112 x0 x1 x2 x3 x4 x5 x6 x7 x8 x9 x10 x11 x12 x13 x14 x15 x16 x17 x18 x19 x20 x21 x22 x23 x24 x25) (s_v114 x0 x1 x2 x3 x4 x5 x6 x7 x8 x9 x10 x11 x12 x13 x14 x15 x16 x17 x18 x19 x20 x21 x22 x23 x24 x25) (View.ld x11 rw_S64) (s_v117 x0 x1 x2 x3 x4 x5 x6 x7 x8 x9 x10 x11 x12 x13 x14 x15 x16 x17 x18 x19 x20 x21 x22 x23 x24 x25) (s_v119 x0 x1 x2 x3 x4 x5 x6 x7 x8 x9 x10 x11 x12 x13 x14 x15 x16 x17 x18 x19 x20 x21 x22 x23 x24 x25) (View.ld x14 rw_S384x128) (View.ld x15 rw_S128) (View.ld x16 rw_S128x64) (View.ld x17 rw_S64)
def s_v159 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x64 .bf16 := k0_pay19 (s_v70 x0 x1 x2 x3 x4 x5 x6 x7 x8 x9 x10 x11 x12 x13 x14 x15 x16 x17 x18 x19 x20 x21 x22 x23 x24 x25) (s_v112 x0 x1 x2 x3 x4 x5 x6 x7 x8 x9 x10 x11 x12 x13 x14 x15 x16 x17 x18 x19 x20 x21 x22 x23 x24 x25) (s_v114 x0 x1 x2 x3 x4 x5 x6 x7 x8 x9 x10 x11 x12 x13 x14 x15 x16 x17 x18 x19 x20 x21 x22 x23 x24 x25) (View.ld x11 rw_S64) (s_v117 x0 x1 x2 x3 x4 x5 x6 x7 x8 x9 x10 x11 x12 x13 x14 x15 x16 x17 x18 x19 x20 x21 x22 x23 x24 x25) (s_v119 x0 x1 x2 x3 x4 x5 x6 x7 x8 x9 x10 x11 x12 x13 x14 x15 x16 x17 x18 x19 x20 x21 x22 x23 x24 x25) (View.ld x14 rw_S384x128) (View.ld x15 rw_S128) (View.ld x16 rw_S128x64) (View.ld x17 rw_S64)
def s_v161 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S64x32 .bf16 := k0_pay20 (View.ld x18 rw_S64x32)
def s_c71 : FVec F S1024x32 .f32 := constant S1024x32 .f32 0x00000000#32
/-- The stored 1024 × 2 block. -/
def s_out (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x2 .f32 :=
  k0_pay1 (s_v158 x0 x1 x2 x3 x4 x5 x6 x7 x8 x9 x10 x11 x12 x13 x14 x15 x16 x17 x18 x19 x20 x21 x22 x23 x24 x25) (s_v159 x0 x1 x2 x3 x4 x5 x6 x7 x8 x9 x10 x11 x12 x13 x14 x15 x16 x17 x18 x19 x20 x21 x22 x23 x24 x25) (s_v161 x0 x1 x2 x3 x4 x5 x6 x7 x8 x9 x10 x11 x12 x13 x14 x15 x16 x17 x18 x19 x20 x21 x22 x23 x24 x25) s_c71 (View.ld x19 rw_S32) (View.ld x20 rw_S32x1) (View.ld x21 rw_S1) (View.ld x22 rw_S64x32) (View.ld x23 rw_S32) (View.ld x24 rw_S32x1) (View.ld x25 rw_S1)

/-- Window 26's staging buffer after the body: its one store, which fills the buffer. -/
def out0_26 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : Vec F S1024x2 .f32 :=
  View.canon [⟨rw_S1024x2, s_out x0 x1 x2 x3 x4 x5 x6 x7 x8 x9 x10 x11 x12 x13 x14 x15 x16 x17 x18 x19 x20 x21 x22 x23 x24 x25⟩]

/-- The store's rectangle is the whole buffer. -/
theorem cover0_26 (p0 : Vec F S1024x2 .f32) (y : S1024x2.Idx) :
    ∃ pc ∈ ([⟨rw_S1024x2, p0⟩] : List (View.Piece (Elt F) S1024x2 .f32)), y ∈ pc.1.set :=
  View.cover_of_tiled [⟨rw_S1024x2, p0⟩] S1024x2.size (by rfl) y

end Cert.Kernel.Body

end
-- ==== Proof.BitsFrame.lean ====
/-
  The frame of `Kernel`: @main is a concatenation and a zero-padding on the host (the five narrow per-row inputs laid side
  by side into 69 columns, padded to 128), then ONE region over a grid of 64 points. At point t the region hands the
  body rows 1024·t … 1024·t + 1023 of the packed array, of the bitmap and of the two predicate arrays, and the 22 weight
  and bias arrays whole; the body loads them (the predicate blocks one predicate slot at a time), computes, and stores one
  1024 × 2 block, which is written back to rows 1024·t … of the result. Nothing else is written: no scratch, no
  semaphore of the body's own. So the run terminates, faults nowhere, leaves every argument array as launched, and
  leaves the result array assembled from the blocks the body stored.
-/
import proofs.«135069_j84061099917535_2_alg».proof.Proof.Gen.Kernel.Launch
import proofs.«135069_j84061099917535_2_alg».proof.Proof.Gen.Kernel.Skeleton
import proofs.«135069_j84061099917535_2_alg».proof.Proof.Gen.Kernel.Points
import proofs.«135069_j84061099917535_2_alg».proof.Proof.BitsBody
import Idealize.ShloMosaic.Lib.Pipeline.FrameBody
import Idealize.ShloMosaic.Lib.Ring
import Idealize.ShloMosaic.Lib.Tactic
import Idealize.ShloMosaic.Lib.StableHlo.Run

set_option maxRecDepth 16384

noncomputable section

namespace Cert.Kernel.Frame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What each buffer of core `c` holds when the region is entered: the launch contents after the host's four
    operations (the concatenation, the integer zero, its conversion to a float, the padding). -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The host operations write four buffers of their own and no argument: the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg8` as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg9` as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg10` as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg11` as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg12` as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg13` as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg14` as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg15` as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg16` as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg17` as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg18` as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg19` as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg20` as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg21` as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg22` as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg23` as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg24` as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg25` as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg26` as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg27` as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg28` as launched. -/
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg29` as launched. -/
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or the block
    index has not moved since it was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or the block
    index has not moved since it was fetched. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or the block
    index has not moved since it was fetched. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or the block
    index has not moved since it was fetched. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or the block
    index has not moved since it was fetched. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or the block
    index has not moved since it was fetched. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetches it or the block
    index has not moved since it was fetched. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the point fetches it or the block
    index has not moved since it was fetched. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether the point fetches it or the block
    index has not moved since it was fetched. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether the point fetches it or the block
    index has not moved since it was fetched. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether the point fetches it or the block
    index has not moved since it was fetched. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, whether the point fetches it or the block
    index has not moved since it was fetched. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, whether the point fetches it or the block
    index has not moved since it was fetched. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, whether the point fetches it or the block
    index has not moved since it was fetched. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, whether the point fetches it or the block
    index has not moved since it was fetched. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, whether the point fetches it or the block
    index has not moved since it was fetched. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, whether the point fetches it or the block
    index has not moved since it was fetched. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, whether the point fetches it or the block
    index has not moved since it was fetched. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, whether the point fetches it or the block
    index has not moved since it was fetched. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, whether the point fetches it or the block
    index has not moved since it was fetched. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, whether the point fetches it or the block
    index has not moved since it was fetched. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, whether the point fetches it or the block
    index has not moved since it was fetched. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, whether the point fetches it or the block
    index has not moved since it was fetched. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, whether the point fetches it or the block
    index has not moved since it was fetched. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, whether the point fetches it or the block
    index has not moved since it was fetched. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, whether the point fetches it or the block
    index has not moved since it was fetched. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

set_option maxHeartbeats 8000000 in
/-- From a run that ends with every window's array at what the proof data says and every other unscoped buffer as the
    region found it: an argument a window stages is an input window's array, which ends as the region found it; an
    argument no window stages (the five narrow inputs, read only by the host's concatenation) is among the others; and
    the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).2 main_arg0 (by decide)).trans (V_main_arg0 m c),
      ((h c).2 main_arg1 (by decide)).trans (V_main_arg1 m c),
      ((h c).1 1).trans (((dats 0 c).arrAt_in 1 rfl _).trans ((hA c 1).trans (V_main_arg2 m c))),
      ((h c).2 main_arg3 (by decide)).trans (V_main_arg3 m c),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).2 main_arg6 (by decide)).trans (V_main_arg6 m c),
      ((h c).2 main_arg7 (by decide)).trans (V_main_arg7 m c),
      ((h c).1 4).trans (((dats 0 c).arrAt_in 4 rfl _).trans ((hA c 4).trans (V_main_arg8 m c))),
      ((h c).1 5).trans (((dats 0 c).arrAt_in 5 rfl _).trans ((hA c 5).trans (V_main_arg9 m c))),
      ((h c).1 6).trans (((dats 0 c).arrAt_in 6 rfl _).trans ((hA c 6).trans (V_main_arg10 m c))),
      ((h c).1 7).trans (((dats 0 c).arrAt_in 7 rfl _).trans ((hA c 7).trans (V_main_arg11 m c))),
      ((h c).1 8).trans (((dats 0 c).arrAt_in 8 rfl _).trans ((hA c 8).trans (V_main_arg12 m c))),
      ((h c).1 9).trans (((dats 0 c).arrAt_in 9 rfl _).trans ((hA c 9).trans (V_main_arg13 m c))),
      ((h c).1 10).trans (((dats 0 c).arrAt_in 10 rfl _).trans ((hA c 10).trans (V_main_arg14 m c))),
      ((h c).1 11).trans (((dats 0 c).arrAt_in 11 rfl _).trans ((hA c 11).trans (V_main_arg15 m c))),
      ((h c).1 12).trans (((dats 0 c).arrAt_in 12 rfl _).trans ((hA c 12).trans (V_main_arg16 m c))),
      ((h c).1 13).trans (((dats 0 c).arrAt_in 13 rfl _).trans ((hA c 13).trans (V_main_arg17 m c))),
      ((h c).1 14).trans (((dats 0 c).arrAt_in 14 rfl _).trans ((hA c 14).trans (V_main_arg18 m c))),
      ((h c).1 15).trans (((dats 0 c).arrAt_in 15 rfl _).trans ((hA c 15).trans (V_main_arg19 m c))),
      ((h c).1 16).trans (((dats 0 c).arrAt_in 16 rfl _).trans ((hA c 16).trans (V_main_arg20 m c))),
      ((h c).1 17).trans (((dats 0 c).arrAt_in 17 rfl _).trans ((hA c 17).trans (V_main_arg21 m c))),
      ((h c).1 18).trans (((dats 0 c).arrAt_in 18 rfl _).trans ((hA c 18).trans (V_main_arg22 m c))),
      ((h c).1 19).trans (((dats 0 c).arrAt_in 19 rfl _).trans ((hA c 19).trans (V_main_arg23 m c))),
      ((h c).1 20).trans (((dats 0 c).arrAt_in 20 rfl _).trans ((hA c 20).trans (V_main_arg24 m c))),
      ((h c).1 21).trans (((dats 0 c).arrAt_in 21 rfl _).trans ((hA c 21).trans (V_main_arg25 m c))),
      ((h c).1 22).trans (((dats 0 c).arrAt_in 22 rfl _).trans ((hA c 22).trans (V_main_arg26 m c))),
      ((h c).1 23).trans (((dats 0 c).arrAt_in 23 rfl _).trans ((hA c 23).trans (V_main_arg27 m c))),
      ((h c).1 24).trans (((dats 0 c).arrAt_in 24 rfl _).trans ((hA c 24).trans (V_main_arg28 m c))),
      ((h c).1 25).trans (((dats 0 c).arrAt_in 25 rfl _).trans ((hA c 25).trans (V_main_arg29 m c)))⟩) h

/-! ## The body's triple -/

set_option maxHeartbeats 4000000 in
/-- The body on whole staging memrefs, the 26 inputs' at contents `x0 … x25` and the output's at anything, runs to the
    continuation with the inputs' as they were and the output's at `out0_26` of them. -/
theorem sound_kernel (c : Dev nD) (E : Set ℕ) (i : grid0.Coords) (arg1 : Memref sig .tc .vmem S1024x128 .f32) (harg1 : arg1.IsWhole) (arg2 : Memref sig .tc .vmem S1024x1000 .f32) (harg2 : arg2.IsWhole) (arg3 : Memref sig .tc .vmem S1024x4x128 .f32) (harg3 : arg3.IsWhole) (arg4 : Memref sig .tc .vmem S1024x4x128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1000x128 .f32) (harg9 : arg9.IsWhole) (arg10 : Memref sig .tc .vmem S128 .f32) (harg10 : arg10.IsWhole) (arg11 : Memref sig .tc .vmem S2x64 .f32) (harg11 : arg11.IsWhole) (arg12 : Memref sig .tc .vmem S64 .f32) (harg12 : arg12.IsWhole) (arg13 : Memref sig .tc .vmem S512x256 .f32) (harg13 : arg13.IsWhole) (arg14 : Memref sig .tc .vmem S256 .f32) (harg14 : arg14.IsWhole) (arg15 : Memref sig .tc .vmem S384x128 .f32) (harg15 : arg15.IsWhole) (arg16 : Memref sig .tc .vmem S128 .f32) (harg16 : arg16.IsWhole) (arg17 : Memref sig .tc .vmem S128x64 .f32) (harg17 : arg17.IsWhole) (arg18 : Memref sig .tc .vmem S64 .f32) (harg18 : arg18.IsWhole) (arg19 : Memref sig .tc .vmem S64x32 .f32) (harg19 : arg19.IsWhole) (arg20 : Memref sig .tc .vmem S32 .f32) (harg20 : arg20.IsWhole) (arg21 : Memref sig .tc .vmem S32x1 .f32) (harg21 : arg21.IsWhole) (arg22 : Memref sig .tc .vmem S1 .f32) (harg22 : arg22.IsWhole) (arg23 : Memref sig .tc .vmem S64x32 .f32) (harg23 : arg23.IsWhole) (arg24 : Memref sig .tc .vmem S32 .f32) (harg24 : arg24.IsWhole) (arg25 : Memref sig .tc .vmem S32x1 .f32) (harg25 : arg25.IsWhole) (arg26 : Memref sig .tc .vmem S1 .f32) (harg26 : arg26.IsWhole) (arg27 : Memref sig .tc .vmem S1024x2 .f32) (harg27 : arg27.IsWhole)
    (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare (out0_26 x0 x1 x2 x3 x4 x5 x6 x7 x8 x9 x10 x11 x12 x13 x14 x15 x16 x17 x18 x19 x20 x21 x22 x23 x24 x25)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  exact View.read_writes_eq_canon _ _ _ (cover0_26 _)

/-! ## The proof data -/

/-- On core `c`: the arrays as the region finds them; after the body at point `t` each input's buffer still at its block
    and the output's at `out0_26` of the input blocks; no invariant beyond the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨n + 27, h⟩ => absurd h (Nat.not_lt.2 (Nat.le_add_left 27 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 2000000 in
/-- The body at any point: each input's memref holds its block, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of m ρ (dats m) (A_eq m) (run_main m ρ)

end Cert.Kernel.Frame

end
-- ==== Proof.IdealBody.lean ====
/-
  What the body of `KernelIdeal`'s one kernel stores, as a function of the blocks it loads: the rectangles of its loads (each
  weight, bias and per-row block whole; each predicate block one slot at a time) and the stored 1024 × 2 block as the
  composition of the body's named values.
-/
import proofs.«135069_j84061099917535_2_alg».proof.Proof.Gen.KernelIdeal.Skeleton
import Idealize.ShloMosaic.Lib.Pipeline.FrameBody

set_option maxRecDepth 16384

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

/-! ## The body's accesses -/

abbrev rw_S1024x128 : Rect S1024x128 := Rect.unit (s := S1024x128) ![0, 0] S1024x128.size inb_S1024x128_S1024x128_0_0
abbrev rw_S1024x1000 : Rect S1024x1000 := Rect.unit (s := S1024x1000) ![0, 0] S1024x1000.size inb_S1024x1000_S1024x1000_0_0
abbrev rw_S64x128 : Rect S64x128 := Rect.unit (s := S64x128) ![0, 0] S64x128.size inb_S64x128_S64x128_0_0
abbrev rw_S128 : Rect S128 := Rect.unit (s := S128) ![0] S128.size inb_S128_S128_0
abbrev rw_S128x128 : Rect S128x128 := Rect.unit (s := S128x128) ![0, 0] S128x128.size inb_S128x128_S128x128_0_0
abbrev rw_S1000x128 : Rect S1000x128 := Rect.unit (s := S1000x128) ![0, 0] S1000x128.size inb_S1000x128_S1000x128_0_0
abbrev rw_S2x64 : Rect S2x64 := Rect.unit (s := S2x64) ![0, 0] S2x64.size inb_S2x64_S2x64_0_0
abbrev rw_S64 : Rect S64 := Rect.unit (s := S64) ![0] S64.size inb_S64_S64_0
abbrev rw_S512x256 : Rect S512x256 := Rect.unit (s := S512x256) ![0, 0] S512x256.size inb_S512x256_S512x256_0_0
abbrev rw_S256 : Rect S256 := Rect.unit (s := S256) ![0] S256.size inb_S256_S256_0
abbrev rw_S384x128 : Rect S384x128 := Rect.unit (s := S384x128) ![0, 0] S384x128.size inb_S384x128_S384x128_0_0
abbrev rw_S128x64 : Rect S128x64 := Rect.unit (s := S128x64) ![0, 0] S128x64.size inb_S128x64_S128x64_0_0
abbrev rw_S64x32 : Rect S64x32 := Rect.unit (s := S64x32) ![0, 0] S64x32.size inb_S64x32_S64x32_0_0
abbrev rw_S32 : Rect S32 := Rect.unit (s := S32) ![0] S32.size inb_S32_S32_0
abbrev rw_S32x1 : Rect S32x1 := Rect.unit (s := S32x1) ![0, 0] S32x1.size inb_S32x1_S32x1_0_0
abbrev rw_S1 : Rect S1 := Rect.unit (s := S1) ![0] S1.size inb_S1_S1_0
abbrev rw_S1024x2 : Rect S1024x2 := Rect.unit (s := S1024x2) ![0, 0] S1024x2.size inb_S1024x2_S1024x2_0_0
abbrev rp_0 : Rect S1024x4x128 := Rect.unit (s := S1024x4x128) ![0, 0, 0] S1024x1x128.size inb_S1024x4x128_S1024x1x128_0_0_0
abbrev rp_1 : Rect S1024x4x128 := Rect.unit (s := S1024x4x128) ![0, 1, 0] S1024x1x128.size inb_S1024x4x128_S1024x1x128_0_1_0
abbrev rp_2 : Rect S1024x4x128 := Rect.unit (s := S1024x4x128) ![0, 2, 0] S1024x1x128.size inb_S1024x4x128_S1024x1x128_0_2_0
abbrev rp_3 : Rect S1024x4x128 := Rect.unit (s := S1024x4x128) ![0, 3, 0] S1024x1x128.size inb_S1024x4x128_S1024x1x128_0_3_0

/-! ## What the body computes -/

/-- The body's stored value from the blocks it loads: the predicate weights and bias (windows 6, 7) against the four
    predicate slots of each predicate block (windows 2, 3), the running minimum over the slots; the packed block
    (window 0) cut into its columns; the embeddings, the node layer, the two column-pair layers, the two mixing
    layers and the two heads. Each name is the value the printed body binds under that name. -/
def s_v1 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S128x128 .bf16 := k0_pay2 (View.ld x6 rw_S128x128)
def s_v31 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay3 (View.ld x6 rw_S128x128) (View.ld x7 rw_S128) (View.ld x2 rp_0) (View.ld x2 rp_1)
def s_v32 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay4 (View.ld x6 rw_S128x128) (View.ld x7 rw_S128) (View.ld x3 rp_0) (View.ld x3 rp_1)
def s_v35 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .bf16 := k0_pay5 (View.ld x2 rp_2)
def s_c18 : FVec F S1024x128 .f32 := constant S1024x128 .f32 0x00000000#32
def s_v63 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay6 (s_v1 x0 x1 x2 x3 x4 x5 x6 x7 x8 x9 x10 x11 x12 x13 x14 x15 x16 x17 x18 x19 x20 x21 x22 x23 x24 x25) (View.ld x7 rw_S128) (s_v31 x0 x1 x2 x3 x4 x5 x6 x7 x8 x9 x10 x11 x12 x13 x14 x15 x16 x17 x18 x19 x20 x21 x22 x23 x24 x25) (s_v35 x0 x1 x2 x3 x4 x5 x6 x7 x8 x9 x10 x11 x12 x13 x14 x15 x16 x17 x18 x19 x20 x21 x22 x23 x24 x25) s_c18 (View.ld x2 rp_3)
def s_v64 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay7 (s_v1 x0 x1 x2 x3 x4 x5 x6 x7 x8 x9 x10 x11 x12 x13 x14 x15 x16 x17 x18 x19 x20 x21 x22 x23 x24 x25) (View.ld x7 rw_S128) (s_v32 x0 x1 x2 x3 x4 x5 x6 x7 x8 x9 x10 x11 x12 x13 x14 x15 x16 x17 x18 x19 x20 x21 x22 x23 x24 x25) (View.ld x3 rp_2) (View.ld x3 rp_3)
def s_v68 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x1 .f32 := k0_pay9 (View.ld x0 rw_S1024x128)
def s_v69 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x2 .f32 := k0_pay10 (View.ld x0 rw_S1024x128)
def s_v70 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x2 .f32 := k0_pay11 (View.ld x0 rw_S1024x128)
def s_v74 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay12 (View.ld x0 rw_S1024x128) (View.ld x4 rw_S64x128)
def s_v77 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x128 .f32 := k0_pay13 (View.ld x5 rw_S128)
def s_v112 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x256 .f32 := k0_pay14 (s_v63 x0 x1 x2 x3 x4 x5 x6 x7 x8 x9 x10 x11 x12 x13 x14 x15 x16 x17 x18 x19 x20 x21 x22 x23 x24 x25) (s_v64 x0 x1 x2 x3 x4 x5 x6 x7 x8 x9 x10 x11 x12 x13 x14 x15 x16 x17 x18 x19 x20 x21 x22 x23 x24 x25) (s_v68 x0 x1 x2 x3 x4 x5 x6 x7 x8 x9 x10 x11 x12 x13 x14 x15 x16 x17 x18 x19 x20 x21 x22 x23 x24 x25) (s_v74 x0 x1 x2 x3 x4 x5 x6 x7 x8 x9 x10 x11 x12 x13 x14 x15 x16 x17 x18 x19 x20 x21 x22 x23 x24 x25) (s_v77 x0 x1 x2 x3 x4 x5 x6 x7 x8 x9 x10 x11 x12 x13 x14 x15 x16 x17 x18 x19 x20 x21 x22 x23 x24 x25) (View.ld x1 rw_S1024x1000) (View.ld x8 rw_S1000x128) (View.ld x9 rw_S128) (View.ld x12 rw_S512x256) (View.ld x13 rw_S256)
def s_v114 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S2x64 .bf16 := k0_pay15 (View.ld x10 rw_S2x64)
def s_v117 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x64 .f32 := k0_pay16 (s_v69 x0 x1 x2 x3 x4 x5 x6 x7 x8 x9 x10 x11 x12 x13 x14 x15 x16 x17 x18 x19 x20 x21 x22 x23 x24 x25) (View.ld x10 rw_S2x64)
def s_v119 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x64 .f32 := k0_pay17 (View.ld x11 rw_S64)
def s_v158 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x64 .f32 := k0_pay18 (s_v70 x0 x1 x2 x3 x4 x5 x6 x7 x8 x9 x10 x11 x12 x13 x14 x15 x16 x17 x18 x19 x20 x21 x22 x23 x24 x25) (s_v112 x0 x1 x2 x3 x4 x5 x6 x7 x8 x9 x10 x11 x12 x13 x14 x15 x16 x17 x18 x19 x20 x21 x22 x23 x24 x25) (s_v114 x0 x1 x2 x3 x4 x5 x6 x7 x8 x9 x10 x11 x12 x13 x14 x15 x16 x17 x18 x19 x20 x21 x22 x23 x24 x25) (View.ld x11 rw_S64) (s_v117 x0 x1 x2 x3 x4 x5 x6 x7 x8 x9 x10 x11 x12 x13 x14 x15 x16 x17 x18 x19 x20 x21 x22 x23 x24 x25) (s_v119 x0 x1 x2 x3 x4 x5 x6 x7 x8 x9 x10 x11 x12 x13 x14 x15 x16 x17 x18 x19 x20 x21 x22 x23 x24 x25) (View.ld x14 rw_S384x128) (View.ld x15 rw_S128) (View.ld x16 rw_S128x64) (View.ld x17 rw_S64)
def s_v159 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x64 .bf16 := k0_pay19 (s_v70 x0 x1 x2 x3 x4 x5 x6 x7 x8 x9 x10 x11 x12 x13 x14 x15 x16 x17 x18 x19 x20 x21 x22 x23 x24 x25) (s_v112 x0 x1 x2 x3 x4 x5 x6 x7 x8 x9 x10 x11 x12 x13 x14 x15 x16 x17 x18 x19 x20 x21 x22 x23 x24 x25) (s_v114 x0 x1 x2 x3 x4 x5 x6 x7 x8 x9 x10 x11 x12 x13 x14 x15 x16 x17 x18 x19 x20 x21 x22 x23 x24 x25) (View.ld x11 rw_S64) (s_v117 x0 x1 x2 x3 x4 x5 x6 x7 x8 x9 x10 x11 x12 x13 x14 x15 x16 x17 x18 x19 x20 x21 x22 x23 x24 x25) (s_v119 x0 x1 x2 x3 x4 x5 x6 x7 x8 x9 x10 x11 x12 x13 x14 x15 x16 x17 x18 x19 x20 x21 x22 x23 x24 x25) (View.ld x14 rw_S384x128) (View.ld x15 rw_S128) (View.ld x16 rw_S128x64) (View.ld x17 rw_S64)
def s_v161 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S64x32 .bf16 := k0_pay20 (View.ld x18 rw_S64x32)
def s_c71 : FVec F S1024x32 .f32 := constant S1024x32 .f32 0x00000000#32
/-- The stored 1024 × 2 block. -/
def s_out (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : FVec F S1024x2 .f32 :=
  k0_pay1 (s_v158 x0 x1 x2 x3 x4 x5 x6 x7 x8 x9 x10 x11 x12 x13 x14 x15 x16 x17 x18 x19 x20 x21 x22 x23 x24 x25) (s_v159 x0 x1 x2 x3 x4 x5 x6 x7 x8 x9 x10 x11 x12 x13 x14 x15 x16 x17 x18 x19 x20 x21 x22 x23 x24 x25) (s_v161 x0 x1 x2 x3 x4 x5 x6 x7 x8 x9 x10 x11 x12 x13 x14 x15 x16 x17 x18 x19 x20 x21 x22 x23 x24 x25) s_c71 (View.ld x19 rw_S32) (View.ld x20 rw_S32x1) (View.ld x21 rw_S1) (View.ld x22 rw_S64x32) (View.ld x23 rw_S32) (View.ld x24 rw_S32x1) (View.ld x25 rw_S1)

/-- Window 26's staging buffer after the body: its one store, which fills the buffer. -/
def out0_26 (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) : Vec F S1024x2 .f32 :=
  View.canon [⟨rw_S1024x2, s_out x0 x1 x2 x3 x4 x5 x6 x7 x8 x9 x10 x11 x12 x13 x14 x15 x16 x17 x18 x19 x20 x21 x22 x23 x24 x25⟩]

/-- The store's rectangle is the whole buffer. -/
theorem cover0_26 (p0 : Vec F S1024x2 .f32) (y : S1024x2.Idx) :
    ∃ pc ∈ ([⟨rw_S1024x2, p0⟩] : List (View.Piece (Elt F) S1024x2 .f32)), y ∈ pc.1.set :=
  View.cover_of_tiled [⟨rw_S1024x2, p0⟩] S1024x2.size (by rfl) y

end Cert.KernelIdeal.Body

end
-- ==== Proof.IdealFrame.lean ====
/-
  The frame of `KernelIdeal`: @main is a concatenation and a zero-padding on the host (the five narrow per-row inputs laid side
  by side into 69 columns, padded to 128), then ONE region over a grid of 64 points. At point t the region hands the
  body rows 1024·t … 1024·t + 1023 of the packed array, of the bitmap and of the two predicate arrays, and the 22 weight
  and bias arrays whole; the body loads them (the predicate blocks one predicate slot at a time), computes, and stores one
  1024 × 2 block, which is written back to rows 1024·t … of the result. Nothing else is written: no scratch, no
  semaphore of the body's own. So the run terminates, faults nowhere, leaves every argument array as launched, and
  leaves the result array assembled from the blocks the body stored.
-/
import proofs.«135069_j84061099917535_2_alg».proof.Proof.Gen.KernelIdeal.Launch
import proofs.«135069_j84061099917535_2_alg».proof.Proof.Gen.KernelIdeal.Skeleton
import proofs.«135069_j84061099917535_2_alg».proof.Proof.Gen.KernelIdeal.Points
import proofs.«135069_j84061099917535_2_alg».proof.Proof.IdealBody
import Idealize.ShloMosaic.Lib.Pipeline.FrameBody
import Idealize.ShloMosaic.Lib.Ring
import Idealize.ShloMosaic.Lib.Tactic
import Idealize.ShloMosaic.Lib.StableHlo.Run

set_option maxRecDepth 16384

noncomputable section

namespace Cert.KernelIdeal.Frame

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What each buffer of core `c` holds when the region is entered: the launch contents after the host's four
    operations (the concatenation, the integer zero, its conversion to a float, the padding). -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The host operations write four buffers of their own and no argument: the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg8` as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg9` as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg10` as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg11` as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg12` as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg13` as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg14` as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg15` as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg16` as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg17` as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg18` as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg19` as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg20` as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg21` as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg22` as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg23` as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg24` as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg25` as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg26` as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg27` as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg28` as launched. -/
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))
/-- The host operations write four buffers of their own and no argument: the region finds `main_arg29` as launched. -/
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, hostOps0_1, List.flatten_cons, List.flatten_nil, List.append_nil, List.cons_append,
      List.nil_append, List.Forall, StableHlo.nary_writes, StableHlo.nullary_writes, StableHlo.unary_writes, StableHlo.binary_writes, StableHlo.TRef.unary, StableHlo.TRef.binary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or the block
    index has not moved since it was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or the block
    index has not moved since it was fetched. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or the block
    index has not moved since it was fetched. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or the block
    index has not moved since it was fetched. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or the block
    index has not moved since it was fetched. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or the block
    index has not moved since it was fetched. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetches it or the block
    index has not moved since it was fetched. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the point fetches it or the block
    index has not moved since it was fetched. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether the point fetches it or the block
    index has not moved since it was fetched. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether the point fetches it or the block
    index has not moved since it was fetched. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether the point fetches it or the block
    index has not moved since it was fetched. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, whether the point fetches it or the block
    index has not moved since it was fetched. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, whether the point fetches it or the block
    index has not moved since it was fetched. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, whether the point fetches it or the block
    index has not moved since it was fetched. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, whether the point fetches it or the block
    index has not moved since it was fetched. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, whether the point fetches it or the block
    index has not moved since it was fetched. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, whether the point fetches it or the block
    index has not moved since it was fetched. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, whether the point fetches it or the block
    index has not moved since it was fetched. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, whether the point fetches it or the block
    index has not moved since it was fetched. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, whether the point fetches it or the block
    index has not moved since it was fetched. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, whether the point fetches it or the block
    index has not moved since it was fetched. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, whether the point fetches it or the block
    index has not moved since it was fetched. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, whether the point fetches it or the block
    index has not moved since it was fetched. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, whether the point fetches it or the block
    index has not moved since it was fetched. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, whether the point fetches it or the block
    index has not moved since it was fetched. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, whether the point fetches it or the block
    index has not moved since it was fetched. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

set_option maxHeartbeats 8000000 in
/-- From a run that ends with every window's array at what the proof data says and every other unscoped buffer as the
    region found it: an argument a window stages is an input window's array, which ends as the region found it; an
    argument no window stages (the five narrow inputs, read only by the host's concatenation) is among the others; and
    the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).2 main_arg0 (by decide)).trans (V_main_arg0 m c),
      ((h c).2 main_arg1 (by decide)).trans (V_main_arg1 m c),
      ((h c).1 1).trans (((dats 0 c).arrAt_in 1 rfl _).trans ((hA c 1).trans (V_main_arg2 m c))),
      ((h c).2 main_arg3 (by decide)).trans (V_main_arg3 m c),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).2 main_arg6 (by decide)).trans (V_main_arg6 m c),
      ((h c).2 main_arg7 (by decide)).trans (V_main_arg7 m c),
      ((h c).1 4).trans (((dats 0 c).arrAt_in 4 rfl _).trans ((hA c 4).trans (V_main_arg8 m c))),
      ((h c).1 5).trans (((dats 0 c).arrAt_in 5 rfl _).trans ((hA c 5).trans (V_main_arg9 m c))),
      ((h c).1 6).trans (((dats 0 c).arrAt_in 6 rfl _).trans ((hA c 6).trans (V_main_arg10 m c))),
      ((h c).1 7).trans (((dats 0 c).arrAt_in 7 rfl _).trans ((hA c 7).trans (V_main_arg11 m c))),
      ((h c).1 8).trans (((dats 0 c).arrAt_in 8 rfl _).trans ((hA c 8).trans (V_main_arg12 m c))),
      ((h c).1 9).trans (((dats 0 c).arrAt_in 9 rfl _).trans ((hA c 9).trans (V_main_arg13 m c))),
      ((h c).1 10).trans (((dats 0 c).arrAt_in 10 rfl _).trans ((hA c 10).trans (V_main_arg14 m c))),
      ((h c).1 11).trans (((dats 0 c).arrAt_in 11 rfl _).trans ((hA c 11).trans (V_main_arg15 m c))),
      ((h c).1 12).trans (((dats 0 c).arrAt_in 12 rfl _).trans ((hA c 12).trans (V_main_arg16 m c))),
      ((h c).1 13).trans (((dats 0 c).arrAt_in 13 rfl _).trans ((hA c 13).trans (V_main_arg17 m c))),
      ((h c).1 14).trans (((dats 0 c).arrAt_in 14 rfl _).trans ((hA c 14).trans (V_main_arg18 m c))),
      ((h c).1 15).trans (((dats 0 c).arrAt_in 15 rfl _).trans ((hA c 15).trans (V_main_arg19 m c))),
      ((h c).1 16).trans (((dats 0 c).arrAt_in 16 rfl _).trans ((hA c 16).trans (V_main_arg20 m c))),
      ((h c).1 17).trans (((dats 0 c).arrAt_in 17 rfl _).trans ((hA c 17).trans (V_main_arg21 m c))),
      ((h c).1 18).trans (((dats 0 c).arrAt_in 18 rfl _).trans ((hA c 18).trans (V_main_arg22 m c))),
      ((h c).1 19).trans (((dats 0 c).arrAt_in 19 rfl _).trans ((hA c 19).trans (V_main_arg23 m c))),
      ((h c).1 20).trans (((dats 0 c).arrAt_in 20 rfl _).trans ((hA c 20).trans (V_main_arg24 m c))),
      ((h c).1 21).trans (((dats 0 c).arrAt_in 21 rfl _).trans ((hA c 21).trans (V_main_arg25 m c))),
      ((h c).1 22).trans (((dats 0 c).arrAt_in 22 rfl _).trans ((hA c 22).trans (V_main_arg26 m c))),
      ((h c).1 23).trans (((dats 0 c).arrAt_in 23 rfl _).trans ((hA c 23).trans (V_main_arg27 m c))),
      ((h c).1 24).trans (((dats 0 c).arrAt_in 24 rfl _).trans ((hA c 24).trans (V_main_arg28 m c))),
      ((h c).1 25).trans (((dats 0 c).arrAt_in 25 rfl _).trans ((hA c 25).trans (V_main_arg29 m c)))⟩) h

/-! ## The body's triple -/

set_option maxHeartbeats 4000000 in
/-- The body on whole staging memrefs, the 26 inputs' at contents `x0 … x25` and the output's at anything, runs to the
    continuation with the inputs' as they were and the output's at `out0_26` of them. -/
theorem sound_kernel (c : Dev nD) (E : Set ℕ) (i : grid0.Coords) (arg1 : Memref sig .tc .vmem S1024x128 .f32) (harg1 : arg1.IsWhole) (arg2 : Memref sig .tc .vmem S1024x1000 .f32) (harg2 : arg2.IsWhole) (arg3 : Memref sig .tc .vmem S1024x4x128 .f32) (harg3 : arg3.IsWhole) (arg4 : Memref sig .tc .vmem S1024x4x128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1000x128 .f32) (harg9 : arg9.IsWhole) (arg10 : Memref sig .tc .vmem S128 .f32) (harg10 : arg10.IsWhole) (arg11 : Memref sig .tc .vmem S2x64 .f32) (harg11 : arg11.IsWhole) (arg12 : Memref sig .tc .vmem S64 .f32) (harg12 : arg12.IsWhole) (arg13 : Memref sig .tc .vmem S512x256 .f32) (harg13 : arg13.IsWhole) (arg14 : Memref sig .tc .vmem S256 .f32) (harg14 : arg14.IsWhole) (arg15 : Memref sig .tc .vmem S384x128 .f32) (harg15 : arg15.IsWhole) (arg16 : Memref sig .tc .vmem S128 .f32) (harg16 : arg16.IsWhole) (arg17 : Memref sig .tc .vmem S128x64 .f32) (harg17 : arg17.IsWhole) (arg18 : Memref sig .tc .vmem S64 .f32) (harg18 : arg18.IsWhole) (arg19 : Memref sig .tc .vmem S64x32 .f32) (harg19 : arg19.IsWhole) (arg20 : Memref sig .tc .vmem S32 .f32) (harg20 : arg20.IsWhole) (arg21 : Memref sig .tc .vmem S32x1 .f32) (harg21 : arg21.IsWhole) (arg22 : Memref sig .tc .vmem S1 .f32) (harg22 : arg22.IsWhole) (arg23 : Memref sig .tc .vmem S64x32 .f32) (harg23 : arg23.IsWhole) (arg24 : Memref sig .tc .vmem S32 .f32) (harg24 : arg24.IsWhole) (arg25 : Memref sig .tc .vmem S32x1 .f32) (harg25 : arg25.IsWhole) (arg26 : Memref sig .tc .vmem S1 .f32) (harg26 : arg26.IsWhole) (arg27 : Memref sig .tc .vmem S1024x2 .f32) (harg27 : arg27.IsWhole)
    (x0 : Vec F S1024x128 .f32) (x1 : Vec F S1024x1000 .f32) (x2 : Vec F S1024x4x128 .f32) (x3 : Vec F S1024x4x128 .f32) (x4 : Vec F S64x128 .f32) (x5 : Vec F S128 .f32) (x6 : Vec F S128x128 .f32) (x7 : Vec F S128 .f32) (x8 : Vec F S1000x128 .f32) (x9 : Vec F S128 .f32) (x10 : Vec F S2x64 .f32) (x11 : Vec F S64 .f32) (x12 : Vec F S512x256 .f32) (x13 : Vec F S256 .f32) (x14 : Vec F S384x128 .f32) (x15 : Vec F S128 .f32) (x16 : Vec F S128x64 .f32) (x17 : Vec F S64 .f32) (x18 : Vec F S64x32 .f32) (x19 : Vec F S32 .f32) (x20 : Vec F S32x1 .f32) (x21 : Vec F S1 .f32) (x22 : Vec F S64x32 .f32) (x23 : Vec F S32 .f32) (x24 : Vec F S32x1 .f32) (x25 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare (out0_26 x0 x1 x2 x3 x4 x5 x6 x7 x8 x9 x10 x11 x12 x13 x14 x15 x16 x17 x18 x19 x20 x21 x22 x23 x24 x25)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  exact View.read_writes_eq_canon _ _ _ (cover0_26 _)

/-! ## The proof data -/

/-- On core `c`: the arrays as the region finds them; after the body at point `t` each input's buffer still at its block
    and the output's at `out0_26` of the input blocks; no invariant beyond the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨n + 27, h⟩ => absurd h (Nat.not_lt.2 (Nat.le_add_left 27 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 2000000 in
/-- The body at any point: each input's memref holds its block, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of m ρ (dats m) (A_eq m) (run_main m ρ)

end Cert.KernelIdeal.Frame

end
-- ==== Proof.Spec.lean ====
/-
  The function both programs compute, one row of the batch at a time.

  A row has: 64 operator features (32 + 32 laid side by side), a flag, two pairs of column statistics, 1000 bitmap entries and
  two groups of four 128-wide predicate vectors. Every layer is "row times weight matrix plus bias", written `lin`; a
  predicate group is reduced by the minimum over its four slots of `lin` of each slot; the bitmap embedding is scaled by
  the flag; the node layer and the first mixing layer act on rows laid side by side (512 = 4 · 128 and 384 = 256 + 64 + 64
  entries); every hidden layer is clamped below at zero; the two heads end in the logistic function. The row's result is
  the pair (cost, cardinality).

  The node layer and the first mixing layer are stated twice: over the rows laid side by side (`nodeCat`, `mixCat`) and as
  a sum of partial products, one per piece, against the matching band of rows of the weight matrix (`nodeSplit`, `mixSplit`).
  The two agree because a sum over 512 (or 384) indices is the sum of its consecutive sub-ranges: addition of extended
  reals is associative and commutative, so no finiteness is needed (`sum_split4`, `sum_split3`).
-/
import Idealize.ShloMosaic.Lib.ValueIdx
import Idealize.ShloMosaic.PureOps.Ideal.Laws

noncomputable section

namespace Cert.Spec

open Idealize.ShloMosaic Idealize.ShloMosaic.ValueIdx

/-- A K × N weight array. -/
abbrev Mat (K N : ℕ) := (⟨2, ![K, N]⟩ : Shape).Idx → EReal
/-- An N-entry bias array. -/
abbrev Bias (N : ℕ) := (⟨1, ![N]⟩ : Shape).Idx → EReal

/-- The value of the all-zero float word. -/
def zero32 : EReal := Ideal.ofBits .f32 0x00000000#32

/-- Clamp below at zero. -/
def relu (v : EReal) : EReal := max v zero32

/-- Row times rows `off, …, off + K − 1` of a weight matrix, at column `j`. -/
def dotAt {K R N : ℕ} (off : ℕ) (h : off + K ≤ R) (x : Fin K → EReal) (W : Mat R N) (j : Fin N) : EReal :=
  ∑ k : Fin K, x k * W (ix2 (n0 := R) (n1 := N) ⟨off + k.val, by have := k.isLt; omega⟩ j)

/-- Row times weight matrix, at column `j`. -/
def dot {K N : ℕ} (x : Fin K → EReal) (W : Mat K N) (j : Fin N) : EReal :=
  ∑ k : Fin K, x k * W (ix2 (n0 := K) (n1 := N) k j)

/-- Row times weight matrix plus bias, at column `j`. -/
def lin {K N : ℕ} (x : Fin K → EReal) (W : Mat K N) (b : Bias N) (j : Fin N) : EReal :=
  dot x W j + b (ix1 (n := N) j)

theorem dotAt_zero {K N : ℕ} (x : Fin K → EReal) (W : Mat K N) (j : Fin N) :
    dotAt 0 (by omega) x W j = dot x W j := by
  unfold dotAt dot
  refine Finset.sum_congr rfl fun k _ => ?_
  congr 2
  exact congrArg (fun i => ix2 (n0 := K) (n1 := N) i j) (Fin.ext (Nat.zero_add _))

/-! ## Consecutive sub-ranges of a sum -/

theorem sum_split2 (a b : ℕ) (f : Fin (a + b) → EReal) :
    ∑ k : Fin (a + b), f k
      = ∑ k : Fin a, f ⟨k.val, by have := k.isLt; omega⟩ + ∑ k : Fin b, f ⟨a + k.val, by have := k.isLt; omega⟩ := by
  rw [Fin.sum_univ_add]; rfl

/-- Two rows laid side by side. -/
def cat2 {a b : ℕ} (u : Fin a → EReal) (v : Fin b → EReal) (k : Fin (a + b)) : EReal :=
  if h : k.val < a then u ⟨k.val, h⟩ else v ⟨k.val - a, by have := k.isLt; omega⟩

theorem cat2_left {a b : ℕ} (u : Fin a → EReal) (v : Fin b → EReal) (k : Fin a) (h : k.val < a + b) :
    cat2 u v ⟨k.val, h⟩ = u k := by
  unfold cat2; rw [dif_pos (show (⟨k.val, h⟩ : Fin (a + b)).val < a from k.isLt)]

theorem cat2_right {a b : ℕ} (u : Fin a → EReal) (v : Fin b → EReal) (k : Fin b) (h : a + k.val < a + b) :
    cat2 u v ⟨a + k.val, h⟩ = v k := by
  unfold cat2
  rw [dif_neg (show ¬ (⟨a + k.val, h⟩ : Fin (a + b)).val < a from by show ¬ a + k.val < a; omega)]
  exact congrArg v (Fin.ext (by show a + k.val - a = k.val; omega))

/-- A row laid side by side from two pieces, against rows `off, …` of a weight matrix: the first piece against the rows from
    `off` plus the second piece against the rows after them. -/
theorem dotAt_cat2 {a b R N : ℕ} (off : ℕ) (h : off + (a + b) ≤ R) (u : Fin a → EReal) (v : Fin b → EReal) (W : Mat R N) (j : Fin N) :
    dotAt off h (cat2 u v) W j = dotAt off (by omega) u W j + dotAt (off + a) (by omega) v W j := by
  unfold dotAt
  rw [sum_split2 a b (fun k => cat2 u v k * W (ix2 (n0 := R) (n1 := N) ⟨off + k.val, by have := k.isLt; omega⟩ j))]
  refine congrArg₂ (· + ·) (Finset.sum_congr rfl fun k _ => ?_) (Finset.sum_congr rfl fun k _ => ?_)
  · show cat2 u v ⟨k.val, _⟩ * _ = _
    rw [cat2_left]
  · show cat2 u v ⟨a + k.val, _⟩ * _ = _
    rw [cat2_right]
    congr 2
    exact congrArg (fun i => ix2 (n0 := R) (n1 := N) i j) (Fin.ext (Nat.add_assoc off a k.val).symm)

/-! ## The layers -/

/-- A predicate group: the minimum over the four slots of `lin` of each slot. -/
def cond (P : Fin 4 → Fin 128 → EReal) (W : Mat 128 128) (b : Bias 128) (h : Fin 128) : EReal :=
  min (min (min (lin (P 0) W b h) (lin (P 1) W b h)) (lin (P 2) W b h)) (lin (P 3) W b h)

/-- The bitmap embedding scaled by the flag. -/
def bmEmb (bm : Fin 1000 → EReal) (hc : EReal) (W : Mat 1000 128) (b : Bias 128) (h : Fin 128) : EReal :=
  lin bm W b h * hc

/-- The node layer before its clamp, over the four 128-wide pieces laid side by side. -/
def nodeCat (e c1 c2 g : Fin 128 → EReal) (W : Mat 512 256) (b : Bias 256) (j : Fin 256) : EReal :=
  lin (K := 128 + (128 + (128 + 128))) (cat2 e (cat2 c1 (cat2 c2 g))) W b j

/-- The same as a sum of four partial products against bands of 128 rows of the weights. -/
def nodeSplit (e c1 c2 g : Fin 128 → EReal) (W : Mat 512 256) (b : Bias 256) (j : Fin 256) : EReal :=
  (((dotAt 0 (by omega) e W j + dotAt 128 (by omega) c1 W j) + dotAt 256 (by omega) c2 W j) + dotAt 384 (by omega) g W j)
    + b (ix1 (n := 256) j)

/-- The first mixing layer before its clamp, over the 256 + 64 + 64 entries laid side by side. -/
def mixCat (nd : Fin 256 → EReal) (l r : Fin 64 → EReal) (W : Mat 384 128) (b : Bias 128) (j : Fin 128) : EReal :=
  lin (K := 256 + (64 + 64)) (cat2 nd (cat2 l r)) W b j

/-- The same as a sum of three partial products. -/
def mixSplit (nd : Fin 256 → EReal) (l r : Fin 64 → EReal) (W : Mat 384 128) (b : Bias 128) (j : Fin 128) : EReal :=
  ((dotAt 0 (by omega) nd W j + dotAt 256 (by omega) l W j) + dotAt 320 (by omega) r W j) + b (ix1 (n := 128) j)

/-- The two statements of the node layer agree. -/
theorem nodeCat_eq_split (e c1 c2 g : Fin 128 → EReal) (W : Mat 512 256) (b : Bias 256) (j : Fin 256) :
    nodeCat e c1 c2 g W b j = nodeSplit e c1 c2 g W b j := by
  unfold nodeCat nodeSplit lin
  rw [← dotAt_zero, dotAt_cat2 0 (by omega) e (cat2 c1 (cat2 c2 g)) W j, dotAt_cat2 (0 + 128) (by omega) c1 (cat2 c2 g) W j,
    dotAt_cat2 (0 + 128 + 128) (by omega) c2 g W j, ← add_assoc, ← add_assoc]

/-- The two statements of the first mixing layer agree. -/
theorem mixCat_eq_split (nd : Fin 256 → EReal) (l r : Fin 64 → EReal) (W : Mat 384 128) (b : Bias 128) (j : Fin 128) :
    mixCat nd l r W b j = mixSplit nd l r W b j := by
  unfold mixCat mixSplit lin
  rw [← dotAt_zero, dotAt_cat2 0 (by omega) nd (cat2 l r) W j, dotAt_cat2 (0 + 256) (by omega) l r W j, ← add_assoc]

/-! ## A row, the weights, the result -/

/-- The 22 weight and bias arrays. -/
structure Params where
  W_op : Mat 64 128
  b_op : Bias 128
  W_pred : Mat 128 128
  b_pred : Bias 128
  W_bm : Mat 1000 128
  b_bm : Bias 128
  W_cc : Mat 2 64
  b_cc : Bias 64
  W_node : Mat 512 256
  b_node : Bias 256
  W_m1 : Mat 384 128
  b_m1 : Bias 128
  W_m2 : Mat 128 64
  b_m2 : Bias 64
  W_c1 : Mat 64 32
  b_c1 : Bias 32
  W_c2 : Mat 32 1
  b_c2 : Bias 1
  W_k1 : Mat 64 32
  b_k1 : Bias 32
  W_k2 : Mat 32 1
  b_k2 : Bias 1

/-- One row of the batch. -/
structure Row where
  opcat : Fin 64 → EReal
  hc : EReal
  lcc : Fin 2 → EReal
  rcc : Fin 2 → EReal
  bm : Fin 1000 → EReal
  p1 : Fin 4 → Fin 128 → EReal
  p2 : Fin 4 → Fin 128 → EReal

def opEmb (θ : Params) (r : Row) (h : Fin 128) : EReal := lin r.opcat θ.W_op θ.b_op h
def cond1 (θ : Params) (r : Row) (h : Fin 128) : EReal := cond r.p1 θ.W_pred θ.b_pred h
def cond2 (θ : Params) (r : Row) (h : Fin 128) : EReal := cond r.p2 θ.W_pred θ.b_pred h
def bmE (θ : Params) (r : Row) (h : Fin 128) : EReal := bmEmb r.bm r.hc θ.W_bm θ.b_bm h
def node (θ : Params) (r : Row) (j : Fin 256) : EReal :=
  relu (nodeSplit (opEmb θ r) (cond1 θ r) (cond2 θ r) (bmE θ r) θ.W_node θ.b_node j)
def ccL (θ : Params) (r : Row) (j : Fin 64) : EReal := relu (lin r.lcc θ.W_cc θ.b_cc j)
def ccR (θ : Params) (r : Row) (j : Fin 64) : EReal := relu (lin r.rcc θ.W_cc θ.b_cc j)
def mix1 (θ : Params) (r : Row) (j : Fin 128) : EReal :=
  relu (mixSplit (node θ r) (ccL θ r) (ccR θ r) θ.W_m1 θ.b_m1 j)
def mix2 (θ : Params) (r : Row) (j : Fin 64) : EReal := relu (lin (mix1 θ r) θ.W_m2 θ.b_m2 j)
/-- A head: a clamped 32-wide hidden layer, one output, the logistic function. -/
def head (W1 : Mat 64 32) (b1 : Bias 32) (W2 : Mat 32 1) (b2 : Bias 1) (x : Fin 64 → EReal) : EReal :=
  Ideal.logistic (lin (fun k => relu (lin x W1 b1 k)) W2 b2 (0 : Fin 1))
def cost (θ : Params) (r : Row) : EReal := head θ.W_c1 θ.b_c1 θ.W_c2 θ.b_c2 (mix2 θ r)
def card (θ : Params) (r : Row) : EReal := head θ.W_k1 θ.b_k1 θ.W_k2 θ.b_k2 (mix2 θ r)
/-- The row's result: (cost, cardinality). -/
def rowOut (θ : Params) (r : Row) (q : Fin 2) : EReal := if q.val = 0 then cost θ r else card θ r

theorem node_cat (θ : Params) (r : Row) (j : Fin 256) :
    node θ r j = relu (nodeCat (opEmb θ r) (cond1 θ r) (cond2 θ r) (bmE θ r) θ.W_node θ.b_node j) := by
  unfold node; rw [nodeCat_eq_split]
theorem mix1_cat (θ : Params) (r : Row) (j : Fin 128) :
    mix1 θ r j = relu (mixCat (node θ r) (ccL θ r) (ccR θ r) θ.W_m1 θ.b_m1 j) := by
  unfold mix1; rw [mixCat_eq_split]

/-! ## Rows of arrays -/

/-- Row `n` of the eight per-row argument arrays (any number `M` of rows). -/
def rowOfArgs {M : ℕ} (opv ext : (⟨2, ![M, 32]⟩ : Shape).Idx → EReal) (bm : (⟨2, ![M, 1000]⟩ : Shape).Idx → EReal)
    (hc : (⟨2, ![M, 1]⟩ : Shape).Idx → EReal) (p1 p2 : (⟨3, ![M, 4, 128]⟩ : Shape).Idx → EReal)
    (lcc rcc : (⟨2, ![M, 2]⟩ : Shape).Idx → EReal) (n : Fin M) : Row where
  opcat := cat2 (a := 32) (b := 32) (fun k => opv (ix2 n k)) (fun k => ext (ix2 n k))
  hc := hc (ix2 n (0 : Fin 1))
  lcc := fun k => lcc (ix2 n k)
  rcc := fun k => rcc (ix2 n k)
  bm := fun k => bm (ix2 n k)
  p1 := fun s d => p1 (ix3 n s d)
  p2 := fun s d => p2 (ix3 n s d)

/-- Row `p` read off the packed 128-column array (columns 0–63 the operator features, 64 the flag, 65–66 and 67–68 the two
    column pairs; the rest unused), the bitmap and the two predicate arrays. -/
def rowOfPacked {M : ℕ} (pk : (⟨2, ![M, 128]⟩ : Shape).Idx → EReal) (bm : (⟨2, ![M, 1000]⟩ : Shape).Idx → EReal)
    (p1 p2 : (⟨3, ![M, 4, 128]⟩ : Shape).Idx → EReal) (p : Fin M) : Row where
  opcat := fun k => pk (ix2 p ⟨k.val, by have := k.isLt; omega⟩)
  hc := pk (ix2 p (64 : Fin 128))
  lcc := fun k => pk (ix2 p ⟨65 + k.val, by have := k.isLt; omega⟩)
  rcc := fun k => pk (ix2 p ⟨67 + k.val, by have := k.isLt; omega⟩)
  bm := fun k => bm (ix2 p k)
  p1 := fun s d => p1 (ix3 p s d)
  p2 := fun s d => p2 (ix3 p s d)

/-- The whole result array from the argument arrays: entry (n, q) is the result of row n. -/
def G (θ : Params) (opv ext : (⟨2, ![65536, 32]⟩ : Shape).Idx → EReal) (bm : (⟨2, ![65536, 1000]⟩ : Shape).Idx → EReal)
    (hc : (⟨2, ![65536, 1]⟩ : Shape).Idx → EReal) (p1 p2 : (⟨3, ![65536, 4, 128]⟩ : Shape).Idx → EReal)
    (lcc rcc : (⟨2, ![65536, 2]⟩ : Shape).Idx → EReal) : (⟨2, ![65536, 2]⟩ : Shape).Idx → EReal :=
  fun i => rowOut θ (rowOfArgs opv ext bm hc p1 p2 lcc rcc (i 0)) (i 1)

end Cert.Spec

end
-- ==== Proof.IdealValue.lean ====
/-
  The result array of `KernelIdeal` after its run, as ONE function of the argument arrays.

  Grid point t hands the body rows 1024·t … 1024·t + 1023 of the packed array, of the bitmap and of the two predicate
  arrays, and every weight and bias array whole; the body's stored block holds, at (p, q), the row function `rowOut` of row
  p of those blocks (the hypothesis `PayloadIsRow`, proved where the body's arithmetic is read); and the block is written
  back to rows 1024·t … of the result. The packed array is the host's: the five narrow inputs laid side by side in
  columns 0–31, 32–63, 64, 65–66, 67–68, zero-padded to 128 columns; so row p of the packed block is row 1024·t + p of the
  arguments. The 64 blocks tile the 65536 rows, so the result array is `Spec.G` of the arguments everywhere.
-/
import proofs.«135069_j84061099917535_2_alg».proof.Proof.IdealFrame
import proofs.«135069_j84061099917535_2_alg».proof.Proof.Spec
import Idealize.ShloMosaic.Lib.Pipeline.Value
import Idealize.ShloMosaic.Lib.KernelVsHost
import Idealize.ShloMosaic.Lib.StableHlo.Run

set_option maxRecDepth 16384

noncomputable section

namespace Cert.KernelIdeal.HandValue

open Cert.KernelIdeal Cert.KernelIdeal.Gen Cert.KernelIdeal.Body Cert.KernelIdeal.Frame
open Idealize.ShloMosaic Idealize.ShloMosaic.TcCoe Idealize.ShloMosaic.ValueIdx Idealize.SL.Sem Idealize.ShloMosaic.StableHlo
open Idealize.ShloMosaic.Pipeline (Dat)

/-- The body's stored block at (p, q) is the row function of row p of the loaded blocks, the weights the loaded weight
    blocks. -/
def PayloadIsRow : Prop :=
  ∀ (x0 : Vec Ideal S1024x128 .f32) (x1 : Vec Ideal S1024x1000 .f32) (x2 : Vec Ideal S1024x4x128 .f32) (x3 : Vec Ideal S1024x4x128 .f32) (x4 : Vec Ideal S64x128 .f32) (x5 : Vec Ideal S128 .f32) (x6 : Vec Ideal S128x128 .f32) (x7 : Vec Ideal S128 .f32) (x8 : Vec Ideal S1000x128 .f32) (x9 : Vec Ideal S128 .f32) (x10 : Vec Ideal S2x64 .f32) (x11 : Vec Ideal S64 .f32) (x12 : Vec Ideal S512x256 .f32) (x13 : Vec Ideal S256 .f32) (x14 : Vec Ideal S384x128 .f32) (x15 : Vec Ideal S128 .f32) (x16 : Vec Ideal S128x64 .f32) (x17 : Vec Ideal S64 .f32) (x18 : Vec Ideal S64x32 .f32) (x19 : Vec Ideal S32 .f32) (x20 : Vec Ideal S32x1 .f32) (x21 : Vec Ideal S1 .f32) (x22 : Vec Ideal S64x32 .f32) (x23 : Vec Ideal S32 .f32) (x24 : Vec Ideal S32x1 .f32) (x25 : Vec Ideal S1 .f32) (p : Fin 1024) (q : Fin 2),
    s_out (F := Ideal) x0 x1 x2 x3 x4 x5 x6 x7 x8 x9 x10 x11 x12 x13 x14 x15 x16 x17 x18 x19 x20 x21 x22 x23 x24 x25 (ix2 p q)
      = Cert.Spec.rowOut ⟨x4, x5, x6, x7, x8, x9, x10, x11, x12, x13, x14, x15, x16, x17, x18, x19, x20, x21, x22, x23, x24, x25⟩ (Cert.Spec.rowOfPacked x0 x1 x2 x3 p) q

variable (m : (ℓ : Loc nD τ sig) → Buf (Elt Ideal) ℓ) (ρ : Dev nD → PrngReg)

/-- The weights as launched. -/
def θ (c : Dev nD) : Cert.Spec.Params :=
  ⟨(m ((c : Thread nD τ).loc main_arg8)), (m ((c : Thread nD τ).loc main_arg9)), (m ((c : Thread nD τ).loc main_arg10)), (m ((c : Thread nD τ).loc main_arg11)), (m ((c : Thread nD τ).loc main_arg12)), (m ((c : Thread nD τ).loc main_arg13)), (m ((c : Thread nD τ).loc main_arg14)), (m ((c : Thread nD τ).loc main_arg15)), (m ((c : Thread nD τ).loc main_arg16)), (m ((c : Thread nD τ).loc main_arg17)), (m ((c : Thread nD τ).loc main_arg18)), (m ((c : Thread nD τ).loc main_arg19)), (m ((c : Thread nD τ).loc main_arg20)), (m ((c : Thread nD τ).loc main_arg21)), (m ((c : Thread nD τ).loc main_arg22)), (m ((c : Thread nD τ).loc main_arg23)), (m ((c : Thread nD τ).loc main_arg24)), (m ((c : Thread nD τ).loc main_arg25)), (m ((c : Thread nD τ).loc main_arg26)), (m ((c : Thread nD τ).loc main_arg27)), (m ((c : Thread nD τ).loc main_arg28)), (m ((c : Thread nD τ).loc main_arg29))⟩

/-- The result array as a function of the arguments as launched. -/
def Gm (c : Dev nD) : S65536x2.Idx → EReal :=
  Cert.Spec.G (θ m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## The packed array -/

/-- What the region finds in the packed array: the padding of the concatenation of the five narrow inputs as launched. -/
theorem V_packed (c : Dev nD) :
    (V m c main_v1 : S65536x128.Idx → EReal)
      = pad S65536x128 ![0, 0] ![0, 59] ![0, 0]
          (concatenate S65536x69 1 [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1)
          (sitofp (F := Ideal) .f32 (constantI S_ 32 0#32)) pads_S65536x69_S65536x128_000_0590 h_S_ := by
  dsimp only [V]
  simp only [hostOps0, hostOps0_1, List.flatten_cons, List.flatten_nil, List.append_nil, List.cons_append, List.nil_append]
  after_results
  rfl

/-- An entry of the packed array in one of the first 69 columns is the concatenation's entry there. -/
theorem packed_at (c : Dev nD) (n : Fin 65536) (col : Fin 128) (h : col.val < 69) :
    V m c main_v1 (ix2 n col)
      = concatenate S65536x69 1 [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨col.val, h⟩ : Fin 69)) := by
  rw [V_packed]
  refine pad_apply_of_inside ![0, 0] ![0, 59] ![0, 0] _ _ pads_S65536x69_S65536x128_000_0590 h_S_ (ix2 n col) (ix2 n (⟨col.val, h⟩ : Fin 69)) fun a => ?_
  match a with
  | ⟨0, _⟩ => show n.val = 0 + n.val * (0 + 1); omega
  | ⟨1, _⟩ => show col.val = 0 + col.val * (0 + 1); omega

/-- Columns 0–31 of the concatenation are the first operator features. -/
theorem cat_opv (c : Dev nD) (n : Fin 65536) (k : Fin 32) (hk : 0 + k.val < 69) :
    concatenate S65536x69 1 [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨0 + k.val, hk⟩ : Fin 69))
      = (m ((c : Thread nD τ).loc main_arg0)) (ix2 n k) :=
  concatenate_apply_piece (t := S65536x69) (1 : Fin 2) [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨0 + k.val, hk⟩ : Fin 69))
    0 (by simp) S65536x32 (m ((c : Thread nD τ).loc main_arg0)) rfl rfl 0 rfl (ix2 n k)
    (fun b => match b with
      | ⟨0, _⟩ => fun _ => rfl
      | ⟨1, _⟩ => fun hb => absurd rfl hb)
    rfl

/-- Columns 32–63 are the second operator features. -/
theorem cat_ext (c : Dev nD) (n : Fin 65536) (k : Fin 32) (hk : 32 + k.val < 69) :
    concatenate S65536x69 1 [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨32 + k.val, hk⟩ : Fin 69))
      = (m ((c : Thread nD τ).loc main_arg1)) (ix2 n k) :=
  concatenate_apply_piece (t := S65536x69) (1 : Fin 2) [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨32 + k.val, hk⟩ : Fin 69))
    1 (by simp) S65536x32 (m ((c : Thread nD τ).loc main_arg1)) rfl rfl 32 rfl (ix2 n k)
    (fun b => match b with
      | ⟨0, _⟩ => fun _ => rfl
      | ⟨1, _⟩ => fun hb => absurd rfl hb)
    rfl

/-- Column 64 is the flag. -/
theorem cat_hc (c : Dev nD) (n : Fin 65536) (k : Fin 1) (hk : 64 + k.val < 69) :
    concatenate S65536x69 1 [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨64 + k.val, hk⟩ : Fin 69))
      = (m ((c : Thread nD τ).loc main_arg3)) (ix2 n k) :=
  concatenate_apply_piece (t := S65536x69) (1 : Fin 2) [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨64 + k.val, hk⟩ : Fin 69))
    2 (by simp) S65536x1 (m ((c : Thread nD τ).loc main_arg3)) rfl rfl 64 rfl (ix2 n k)
    (fun b => match b with
      | ⟨0, _⟩ => fun _ => rfl
      | ⟨1, _⟩ => fun hb => absurd rfl hb)
    rfl

/-- Columns 65–66 are the left column pair. -/
theorem cat_lcc (c : Dev nD) (n : Fin 65536) (k : Fin 2) (hk : 65 + k.val < 69) :
    concatenate S65536x69 1 [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨65 + k.val, hk⟩ : Fin 69))
      = (m ((c : Thread nD τ).loc main_arg6)) (ix2 n k) :=
  concatenate_apply_piece (t := S65536x69) (1 : Fin 2) [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨65 + k.val, hk⟩ : Fin 69))
    3 (by simp) S65536x2 (m ((c : Thread nD τ).loc main_arg6)) rfl rfl 65 rfl (ix2 n k)
    (fun b => match b with
      | ⟨0, _⟩ => fun _ => rfl
      | ⟨1, _⟩ => fun hb => absurd rfl hb)
    rfl

/-- Columns 67–68 are the right column pair. -/
theorem cat_rcc (c : Dev nD) (n : Fin 65536) (k : Fin 2) (hk : 67 + k.val < 69) :
    concatenate S65536x69 1 [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨67 + k.val, hk⟩ : Fin 69))
      = (m ((c : Thread nD τ).loc main_arg7)) (ix2 n k) :=
  concatenate_apply_piece (t := S65536x69) (1 : Fin 2) [⟨S65536x32, (m ((c : Thread nD τ).loc main_arg0))⟩, ⟨S65536x32, (m ((c : Thread nD τ).loc main_arg1))⟩, ⟨S65536x1, (m ((c : Thread nD τ).loc main_arg3))⟩, ⟨S65536x2, (m ((c : Thread nD τ).loc main_arg6))⟩, ⟨S65536x2, (m ((c : Thread nD τ).loc main_arg7))⟩] concatenates_S65536x32_S65536x32_S65536x1_S65536x2_S65536x2_S65536x69_d1 (ix2 n (⟨67 + k.val, hk⟩ : Fin 69))
    4 (by simp) S65536x2 (m ((c : Thread nD τ).loc main_arg7)) rfl rfl 67 rfl (ix2 n k)
    (fun b => match b with
      | ⟨0, _⟩ => fun _ => rfl
      | ⟨1, _⟩ => fun hb => absurd rfl hb)
    rfl

/-! ## The index maps, decided over the 64 grid points -/

/-- The per-row windows (packed, bitmap, the two predicate arrays, the result) step one block of 1024 rows per point. -/
theorem rfacts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 3) = t.val
    ∧ win0_2.index t (1 : Fin 3) = 0
    ∧ win0_2.index t (2 : Fin 3) = 0
    ∧ win0_3.index t (0 : Fin 3) = t.val
    ∧ win0_3.index t (1 : Fin 3) = 0
    ∧ win0_3.index t (2 : Fin 3) = 0
    ∧ win0_26.index t (0 : Fin 2) = t.val
    ∧ win0_26.index t (1 : Fin 2) = 0 :=
  (by decide +kernel : ∀ t : Fin grid0.N, _)

/-- The weight and bias windows stay at block 0. -/
theorem wfacts : ∀ t : Fin cfg0.N, win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0
    ∧ win0_13.index t (0 : Fin 1) = 0
    ∧ win0_14.index t (0 : Fin 2) = 0
    ∧ win0_14.index t (1 : Fin 2) = 0
    ∧ win0_15.index t (0 : Fin 1) = 0
    ∧ win0_16.index t (0 : Fin 2) = 0
    ∧ win0_16.index t (1 : Fin 2) = 0
    ∧ win0_17.index t (0 : Fin 1) = 0
    ∧ win0_18.index t (0 : Fin 2) = 0
    ∧ win0_18.index t (1 : Fin 2) = 0
    ∧ win0_19.index t (0 : Fin 1) = 0
    ∧ win0_20.index t (0 : Fin 2) = 0
    ∧ win0_20.index t (1 : Fin 2) = 0
    ∧ win0_21.index t (0 : Fin 1) = 0
    ∧ win0_22.index t (0 : Fin 2) = 0
    ∧ win0_22.index t (1 : Fin 2) = 0
    ∧ win0_23.index t (0 : Fin 1) = 0
    ∧ win0_24.index t (0 : Fin 2) = 0
    ∧ win0_24.index t (1 : Fin 2) = 0
    ∧ win0_25.index t (0 : Fin 1) = 0 :=
  (by decide +kernel : ∀ t : Fin grid0.N, _)

/-! ## Each window's block at an index -/

/-- Window 4's block is its whole array, which the region finds as launched. -/
theorem wblk_4 (c : Dev nD) (t : Fin cfg0.N) : iblk m c 4 t = m ((c : Thread nD τ).loc main_arg8) := by
  funext y
  show V m c main_arg8 (((cfg0.win 4).blk t).view.emb y) = _
  rw [V_main_arg8]
  refine congrArg (m ((c : Thread nD τ).loc main_arg8)) (funext fun a => Fin.ext ?_)
  match a with
    | ⟨0, _⟩ => show win0_4.index t (0 : Fin 2) * 64 + 1 * (y 0).val = (y 0).val; have := (wfacts t).1; omega
    | ⟨1, _⟩ => show win0_4.index t (1 : Fin 2) * 128 + 1 * (y 1).val = (y 1).val; have := (wfacts t).2.1; omega
/-- Window 5's block is its whole array, which the region finds as launched. -/
theorem wblk_5 (c : Dev nD) (t : Fin cfg0.N) : iblk m c 5 t = m ((c : Thread nD τ).loc main_arg9) := by
  funext y
  show V m c main_arg9 (((cfg0.win 5).blk t).view.emb y) = _
  rw [V_main_arg9]
  refine congrArg (m ((c : Thread nD τ).loc main_arg9)) (funext fun a => Fin.ext ?_)
  match a with
    | ⟨0, _⟩ => show win0_5.index t (0 : Fin 1) * 128 + 1 * (y 0).val = (y 0).val; have := (wfacts t).2.2.1; omega
/-- Window 6's block is its whole array, which the region finds as launched. -/
theorem wblk_6 (c : Dev nD) (t : Fin cfg0.N) : iblk m c 6 t = m ((c : Thread nD τ).loc main_arg10) := by
  funext y
  show V m c main_arg10 (((cfg0.win 6).blk t).view.emb y) = _
  rw [V_main_arg10]
  refine congrArg (m ((c : Thread nD τ).loc main_arg10)) (funext fun a => Fin.ext ?_)
  match a with
    | ⟨0, _⟩ => show win0_6.index t (0 : Fin 2) * 128 + 1 * (y 0).val = (y 0).val; have := (wfacts t).2.2.2.1; omega
    | ⟨1, _⟩ => show win0_6.index t (1 : Fin 2) * 128 + 1 * (y 1).val = (y 1).val; have := (wfacts t).2.2.2.2.1; omega
/-- Window 7's block is its whole array, which the region finds as launched. -/
theorem wblk_7 (c : Dev nD) (t : Fin cfg0.N) : iblk m c 7 t = m ((c : Thread nD τ).loc main_arg11) := by
  funext y
  show V m c main_arg11 (((cfg0.win 7).blk t).view.emb y) = _
  rw [V_main_arg11]
  refine congrArg (m ((c : Thread nD τ).loc main_arg11)) (funext fun a => Fin.ext ?_)
  match a with
    | ⟨0, _⟩ => show win0_7.index t (0 : Fin 1) * 128 + 1 * (y 0).val = (y 0).val; have := (wfacts t).2.2.2.2.2.1; omega
/-- Window 8's block is its whole array, which the region finds as launched. -/
theorem wblk_8 (c : Dev nD) (t : Fin cfg0.N) : iblk m c 8 t = m ((c : Thread nD τ).loc main_arg12) := by
  funext y
  show V m c main_arg12 (((cfg0.win 8).blk t).view.emb y) = _
  rw [V_main_arg12]
  refine congrArg (m ((c : Thread nD τ).loc main_arg12)) (funext fun a => Fin.ext ?_)
  match a with
    | ⟨0, _⟩ => show win0_8.index t (0 : Fin 2) * 1000 + 1 * (y 0).val = (y 0).val; have := (wfacts t).2.2.2.2.2.2.1; omega
    | ⟨1, _⟩ => show win0_8.index t (1 : Fin 2) * 128 + 1 * (y 1).val = (y 1).val; have := (wfacts t).2.2.2.2.2.2.2.1; omega
/-- Window 9's block is its whole array, which the region finds as launched. -/
theorem wblk_9 (c : Dev nD) (t : Fin cfg0.N) : iblk m c 9 t = m ((c : Thread nD τ).loc main_arg13) := by
  funext y
  show V m c main_arg13 (((cfg0.win 9).blk t).view.emb y) = _
  rw [V_main_arg13]
  refine congrArg (m ((c : Thread nD τ).loc main_arg13)) (funext fun a => Fin.ext ?_)
  match a with
    | ⟨0, _⟩ => show win0_9.index t (0 : Fin 1) * 128 + 1 * (y 0).val = (y 0).val; have := (wfacts t).2.2.2.2.2.2.2.2.1; omega
/-- Window 10's block is its whole array, which the region finds as launched. -/
theorem wblk_10 (c : Dev nD) (t : Fin cfg0.N) : iblk m c 10 t = m ((c : Thread nD τ).loc main_arg14) := by
  funext y
  show V m c main_arg14 (((cfg0.win 10).blk t).view.emb y) = _
  rw [V_main_arg14]
  refine congrArg (m ((c : Thread nD τ).loc main_arg14)) (funext fun a => Fin.ext ?_)
  match a with
    | ⟨0, _⟩ => show win0_10.index t (0 : Fin 2) * 2 + 1 * (y 0).val = (y 0).val; have := (wfacts t).2.2.2.2.2.2.2.2.2.1; omega
    | ⟨1, _⟩ => show win0_10.index t (1 : Fin 2) * 64 + 1 * (y 1).val = (y 1).val; have := (wfacts t).2.2.2.2.2.2.2.2.2.2.1; omega
/-- Window 11's block is its whole array, which the region finds as launched. -/
theorem wblk_11 (c : Dev nD) (t : Fin cfg0.N) : iblk m c 11 t = m ((c : Thread nD τ).loc main_arg15) := by
  funext y
  show V m c main_arg15 (((cfg0.win 11).blk t).view.emb y) = _
  rw [V_main_arg15]
  refine congrArg (m ((c : Thread nD τ).loc main_arg15)) (funext fun a => Fin.ext ?_)
  match a with
    | ⟨0, _⟩ => show win0_11.index t (0 : Fin 1) * 64 + 1 * (y 0).val = (y 0).val; have := (wfacts t).2.2.2.2.2.2.2.2.2.2.2.1; omega
/-- Window 12's block is its whole array, which the region finds as launched. -/
theorem wblk_12 (c : Dev nD) (t : Fin cfg0.N) : iblk m c 12 t = m ((c : Thread nD τ).loc main_arg16) := by
  funext y
  show V m c main_arg16 (((cfg0.win 12).blk t).view.emb y) = _
  rw [V_main_arg16]
  refine congrArg (m ((c : Thread nD τ).loc main_arg16)) (funext fun a => Fin.ext ?_)
  match a with
    | ⟨0, _⟩ => show win0_12.index t (0 : Fin 2) * 512 + 1 * (y 0).val = (y 0).val; have := (wfacts t).2.2.2.2.2.2.2.2.2.2.2.2.1; omega
    | ⟨1, _⟩ => show win0_12.index t (1 : Fin 2) * 256 + 1 * (y 1).val = (y 1).val; have := (wfacts t).2.2.2.2.2.2.2.2.2.2.2.2.2.1; omega
/-- Window 13's block is its whole array, which the region finds as launched. -/
theorem wblk_13 (c : Dev nD) (t : Fin cfg0.N) : iblk m c 13 t = m ((c : Thread nD τ).loc main_arg17) := by
  funext y
  show V m c main_arg17 (((cfg0.win 13).blk t).view.emb y) = _
  rw [V_main_arg17]
  refine congrArg (m ((c : Thread nD τ).loc main_arg17)) (funext fun a => Fin.ext ?_)
  match a with
    | ⟨0, _⟩ => show win0_13.index t (0 : Fin 1) * 256 + 1 * (y 0).val = (y 0).val; have := (wfacts t).2.2.2.2.2.2.2.2.2.2.2.2.2.2.1; omega
/-- Window 14's block is its whole array, which the region finds as launched. -/
theorem wblk_14 (c : Dev nD) (t : Fin cfg0.N) : iblk m c 14 t = m ((c : Thread nD τ).loc main_arg18) := by
  funext y
  show V m c main_arg18 (((cfg0.win 14).blk t).view.emb y) = _
  rw [V_main_arg18]
  refine congrArg (m ((c : Thread nD τ).loc main_arg18)) (funext fun a => Fin.ext ?_)
  match a with
    | ⟨0, _⟩ => show win0_14.index t (0 : Fin 2) * 384 + 1 * (y 0).val = (y 0).val; have := (wfacts t).2.2.2.2.2.2.2.2.2.2.2.2.2.2.2.1; omega
    | ⟨1, _⟩ => show win0_14.index t (1 : Fin 2) * 128 + 1 * (y 1).val = (y 1).val; have := (wfacts t).2.2.2.2.2.2.2.2.2.2.2.2.2.2.2.2.1; omega
/-- Window 15's block is its whole array, which the region finds as launched. -/
theorem wblk_15 (c : Dev nD) (t : Fin cfg0.N) : iblk m c 15 t = m ((c : Thread nD τ).loc main_arg19) := by
  funext y
  show V m c main_arg19 (((cfg0.win 15).blk t).view.emb y) = _
  rw [V_main_arg19]
  refine congrArg (m ((c : Thread nD τ).loc main_arg19)) (funext fun a => Fin.ext ?_)
  match a with
    | ⟨0, _⟩ => show win0_15.index t (0 : Fin 1) * 128 + 1 * (y 0).val = (y 0).val; have := (wfacts t).2.2.2.2.2.2.2.2.2.2.2.2.2.2.2.2.2.1; omega
/-- Window 16's block is its whole array, which the region finds as launched. -/
theorem wblk_16 (c : Dev nD) (t : Fin cfg0.N) : iblk m c 16 t = m ((c : Thread nD τ).loc main_arg20) := by
  funext y
  show V m c main_arg20 (((cfg0.win 16).blk t).view.emb y) = _
  rw [V_main_arg20]
  refine congrArg (m ((c : Thread nD τ).loc main_arg20)) (funext fun a => Fin.ext ?_)
  match a with
    | ⟨0, _⟩ => show win0_16.index t (0 : Fin 2) * 128 + 1 * (y 0).val = (y 0).val; have := (wfacts t).2.2.2.2.2.2.2.2.2.2.2.2.2.2.2.2.2.2.1; omega
    | ⟨1, _⟩ => show win0_16.index t (1 : Fin 2) * 64 + 1 * (y 1).val = (y 1).val; have := (wfacts t).2.2.2.2.2.2.2.2.2.2.2.2.2.2.2.2.2.2.2.1; omega
/-- Window 17's block is its whole array, which the region finds as launched. -/
theorem wblk_17 (c : Dev nD) (t : Fin cfg0.N) : iblk m c 17 t = m ((c : Thread nD τ).loc main_arg21) := by
  funext y
  show V m c main_arg21 (((cfg0.win 17).blk t).view.emb y) = _
  rw [V_main_arg21]
  refine congrArg (m ((c : Thread nD τ).loc main_arg21)) (funext fun a => Fin.ext ?_)
  match a with
    | ⟨0, _⟩ => show win0_17.index t (0 : Fin 1) * 64 + 1 * (y 0).val = (y 0).val; have := (wfacts t).2.2.2.2.2.2.2.2.2.2.2.2.2.2.2.2.2.2.2.2.1; omega
/-- Window 18's block is its whole array, which the region finds as launched. -/
theorem wblk_18 (c : Dev nD) (t : Fin cfg0.N) : iblk m c 18 t = m ((c : Thread nD τ).loc main_arg22) := by
  funext y
  show V m c main_arg22 (((cfg0.win 18).blk t).view.emb y) = _
  rw [V_main_arg22]
  refine congrArg (m ((c : Thread nD τ).loc main_arg22)) (funext fun a => Fin.ext ?_)
  match a with
    | ⟨0, _⟩ => show win0_18.index t (0 : Fin 2) * 64 + 1 * (y 0).val = (y 0).val; have := (wfacts t).2.2.2.2.2.2.2.2.2.2.2.2.2.2.2.2.2.2.2.2.2.1; omega
    | ⟨1, _⟩ => show win0_18.index t (1 : Fin 2) * 32 + 1 * (y 1).val = (y 1).val; have := (wfacts t).2.2.2.2.2.2.2.2.2.2.2.2.2.2.2.2.2.2.2.2.2.2.1; omega
/-- Window 19's block is its whole array, which the region finds as launched. -/
theorem wblk_19 (c : Dev nD) (t : Fin cfg0.N) : iblk m c 19 t = m ((c : Thread nD τ).loc main_arg23) := by
  funext y
  show V m c main_arg23 (((cfg0.win 19).blk t).view.emb y) = _
  rw [V_main_arg23]
  refine congrArg (m ((c : Thread nD τ).loc main_arg23)) (funext fun a => Fin.ext ?_)
  match a with
    | ⟨0, _⟩ => show win0_19.index t (0 : Fin 1) * 32 + 1 * (y 0).val = (y 0).val; have := (wfacts t).2.2.2.2.2.2.2.2.2.2.2.2.2.2.2.2.2.2.2.2.2.2.2.1; omega
/-- Window 20's block is its whole array, which the region finds as launched. -/
theorem wblk_20 (c : Dev nD) (t : Fin cfg0.N) : iblk m c 20 t = m ((c : Thread nD τ).loc main_arg24) := by
  funext y
  show V m c main_arg24 (((cfg0.win 20).blk t).view.emb y) = _
  rw [V_main_arg24]
  refine congrArg (m ((c : Thread nD τ).loc main_arg24)) (funext fun a => Fin.ext ?_)
  match a with
    | ⟨0, _⟩ => show win0_20.index t (0 : Fin 2) * 32 + 1 * (y 0).val = (y 0).val; have := (wfacts t).2.2.2.2.2.2.2.2.2.2.2.2.2.2.2.2.2.2.2.2.2.2.2.2.1; omega
    | ⟨1, _⟩ => show win0_20.index t (1 : Fin 2) * 1 + 1 * (y 1).val = (y 1).val; have := (wfacts t).2.2.2.2.2.2.2.2.2.2.2.2.2.2.2.2.2.2.2.2.2.2.2.2.2.1; omega
/-- Window 21's block is its whole array, which the region finds as launched. -/
theorem wblk_21 (c : Dev nD) (t : Fin cfg0.N) : iblk m c 21 t = m ((c : Thread nD τ).loc main_arg25) := by
  funext y
  show V m c main_arg25 (((cfg0.win 21).blk t).view.emb y) = _
  rw [V_main_arg25]
  refine congrArg (m ((c : Thread nD τ).loc main_arg25)) (funext fun a => Fin.ext ?_)
  match a with
    | ⟨0, _⟩ => show win0_21.index t (0 : Fin 1) * 1 + 1 * (y 0).val = (y 0).val; have := (wfacts t).2.2.2.2.2.2.2.2.2.2.2.2.2.2.2.2.2.2.2.2.2.2.2.2.2.2.1; omega
/-- Window 22's block is its whole array, which the region finds as launched. -/
theorem wblk_22 (c : Dev nD) (t : Fin cfg0.N) : iblk m c 22 t = m ((c : Thread nD τ).loc main_arg26) := by
  funext y
  show V m c main_arg26 (((cfg0.win 22).blk t).view.emb y) = _
  rw [V_main_arg26]
  refine congrArg (m ((c : Thread nD τ).loc main_arg26)) (funext fun a => Fin.ext ?_)
  match a with
    | ⟨0, _⟩ => show win0_22.index t (0 : Fin 2) * 64 + 1 * (y 0).val = (y 0).val; have := (wfacts t).2.2.2.2.2.2.2.2.2.2.2.2.2.2.2.2.2.2.2.2.2.2.2.2.2.2.2.1; omega
    | ⟨1, _⟩ => show win0_22.index t (1 : Fin 2) * 32 + 1 * (y 1).val = (y 1).val; have := (wfacts t).2.2.2.2.2.2.2.2.2.2.2.2.2.2.2.2.2.2.2.2.2.2.2.2.2.2.2.2.1; omega
/-- Window 23's block is its whole array, which the region finds as launched. -/
theorem wblk_23 (c : Dev nD) (t : Fin cfg0.N) : iblk m c 23 t = m ((c : Thread nD τ).loc main_arg27) := by
  funext y
  show V m c main_arg27 (((cfg0.win 23).blk t).view.emb y) = _
  rw [V_main_arg27]
  refine congrArg (m ((c : Thread nD τ).loc main_arg27)) (funext fun a => Fin.ext ?_)
  match a with
    | ⟨0, _⟩ => show win0_23.index t (0 : Fin 1) * 32 + 1 * (y 0).val = (y 0).val; have := (wfacts t).2.2.2.2.2.2.2.2.2.2.2.2.2.2.2.2.2.2.2.2.2.2.2.2.2.2.2.2.2.1; omega
/-- Window 24's block is its whole array, which the region finds as launched. -/
theorem wblk_24 (c : Dev nD) (t : Fin cfg0.N) : iblk m c 24 t = m ((c : Thread nD τ).loc main_arg28) := by
  funext y
  show V m c main_arg28 (((cfg0.win 24).blk t).view.emb y) = _
  rw [V_main_arg28]
  refine congrArg (m ((c : Thread nD τ).loc main_arg28)) (funext fun a => Fin.ext ?_)
  match a with
    | ⟨0, _⟩ => show win0_24.index t (0 : Fin 2) * 32 + 1 * (y 0).val = (y 0).val; have := (wfacts t).2.2.2.2.2.2.2.2.2.2.2.2.2.2.2.2.2.2.2.2.2.2.2.2.2.2.2.2.2.2.1; omega
    | ⟨1, _⟩ => show win0_24.index t (1 : Fin 2) * 1 + 1 * (y 1).val = (y 1).val; have := (wfacts t).2.2.2.2.2.2.2.2.2.2.2.2.2.2.2.2.2.2.2.2.2.2.2.2.2.2.2.2.2.2.2.1; omega
/-- Window 25's block is its whole array, which the region finds as launched. -/
theorem wblk_25 (c : Dev nD) (t : Fin cfg0.N) : iblk m c 25 t = m ((c : Thread nD τ).loc main_arg29) := by
  funext y
  show V m c main_arg29 (((cfg0.win 25).blk t).view.emb y) = _
  rw [V_main_arg29]
  refine congrArg (m ((c : Thread nD τ).loc main_arg29)) (funext fun a => Fin.ext ?_)
  match a with
    | ⟨0, _⟩ => show win0_25.index t (0 : Fin 1) * 1 + 1 * (y 0).val = (y 0).val; have := (wfacts t).2.2.2.2.2.2.2.2.2.2.2.2.2.2.2.2.2.2.2.2.2.2.2.2.2.2.2.2.2.2.2.2; omega

/-- The packed block at (p, k) is the packed array at (1024·t + p, k). -/
theorem blk0_apply (c : Dev nD) (t : Fin cfg0.N) (p : Fin 1024) (k : Fin 128) (hn : 1024 * t.val + p.val < 65536) :
    iblk m c 0 t (ix2 p k) = V m c main_v1 (ix2 (⟨1024 * t.val + p.val, hn⟩ : Fin 65536) k) := by
  show V m c main_v1 (((cfg0.win 0).blk t).view.emb (ix2 p k)) = _
  refine congrArg (V m c main_v1) (funext fun a => Fin.ext ?_)
  match a with
  | ⟨0, _⟩ => show win0_0.index t (0 : Fin 2) * 1024 + 1 * p.val = 1024 * t.val + p.val; have := (rfacts t).1; omega
  | ⟨1, _⟩ => show win0_0.index t (1 : Fin 2) * 128 + 1 * k.val = k.val; have := (rfacts t).2.1; omega

/-- The bitmap block at (p, k) is the bitmap at (1024·t + p, k). -/
theorem blk1_apply (c : Dev nD) (t : Fin cfg0.N) (p : Fin 1024) (k : Fin 1000) (hn : 1024 * t.val + p.val < 65536) :
    iblk m c 1 t (ix2 p k) = (m ((c : Thread nD τ).loc main_arg2)) (ix2 (⟨1024 * t.val + p.val, hn⟩ : Fin 65536) k) := by
  show V m c main_arg2 (((cfg0.win 1).blk t).view.emb (ix2 p k)) = _
  rw [V_main_arg2]
  refine congrArg (m ((c : Thread nD τ).loc main_arg2)) (funext fun a => Fin.ext ?_)
  match a with
  | ⟨0, _⟩ => show win0_1.index t (0 : Fin 2) * 1024 + 1 * p.val = 1024 * t.val + p.val; have := (rfacts t).2.2.1; omega
  | ⟨1, _⟩ => show win0_1.index t (1 : Fin 2) * 1000 + 1 * k.val = k.val; have := (rfacts t).2.2.2.1; omega

/-- A predicate block at (p, s, d) is the predicate array at (1024·t + p, s, d). -/
theorem blk2_apply (c : Dev nD) (t : Fin cfg0.N) (p : Fin 1024) (s : Fin 4) (d : Fin 128) (hn : 1024 * t.val + p.val < 65536) :
    iblk m c 2 t (ix3 p s d) = (m ((c : Thread nD τ).loc main_arg4)) (ix3 (⟨1024 * t.val + p.val, hn⟩ : Fin 65536) s d) := by
  show V m c main_arg4 (((cfg0.win 2).blk t).view.emb (ix3 p s d)) = _
  rw [V_main_arg4]
  refine congrArg (m ((c : Thread nD τ).loc main_arg4)) (funext fun a => Fin.ext ?_)
  match a with
  | ⟨0, _⟩ => show win0_2.index t (0 : Fin 3) * 1024 + 1 * p.val = 1024 * t.val + p.val; have := (rfacts t).2.2.2.2.1; omega
  | ⟨1, _⟩ => show win0_2.index t (1 : Fin 3) * 4 + 1 * s.val = s.val; have := (rfacts t).2.2.2.2.2.1; omega
  | ⟨2, _⟩ => show win0_2.index t (2 : Fin 3) * 128 + 1 * d.val = d.val; have := (rfacts t).2.2.2.2.2.2.1; omega

theorem blk3_apply (c : Dev nD) (t : Fin cfg0.N) (p : Fin 1024) (s : Fin 4) (d : Fin 128) (hn : 1024 * t.val + p.val < 65536) :
    iblk m c 3 t (ix3 p s d) = (m ((c : Thread nD τ).loc main_arg5)) (ix3 (⟨1024 * t.val + p.val, hn⟩ : Fin 65536) s d) := by
  show V m c main_arg5 (((cfg0.win 3).blk t).view.emb (ix3 p s d)) = _
  rw [V_main_arg5]
  refine congrArg (m ((c : Thread nD τ).loc main_arg5)) (funext fun a => Fin.ext ?_)
  match a with
  | ⟨0, _⟩ => show win0_3.index t (0 : Fin 3) * 1024 + 1 * p.val = 1024 * t.val + p.val; have := (rfacts t).2.2.2.2.2.2.2.1; omega
  | ⟨1, _⟩ => show win0_3.index t (1 : Fin 3) * 4 + 1 * s.val = s.val; have := (rfacts t).2.2.2.2.2.2.2.2.1; omega
  | ⟨2, _⟩ => show win0_3.index t (2 : Fin 3) * 128 + 1 * d.val = d.val; have := (rfacts t).2.2.2.2.2.2.2.2.2.1; omega

/-! ## Row p of the blocks at point t is row 1024·t + p of the arguments -/

theorem row_eq (c : Dev nD) (t : Fin cfg0.N) (p : Fin 1024) (hn : 1024 * t.val + p.val < 65536) :
    Cert.Spec.rowOfPacked (iblk m c 0 t) (iblk m c 1 t) (iblk m c 2 t) (iblk m c 3 t) p
      = Cert.Spec.rowOfArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (⟨1024 * t.val + p.val, hn⟩ : Fin 65536) := by
  unfold Cert.Spec.rowOfPacked Cert.Spec.rowOfArgs
  congr 1
  · -- the 64 operator features
    funext k
    rw [blk0_apply m c t p _ hn, packed_at m c _ _ (by show k.val < 69; have := k.isLt; omega)]
    unfold Cert.Spec.cat2
    by_cases hk : k.val < 32
    · rw [dif_pos hk]
      have := cat_opv m c (⟨1024 * t.val + p.val, hn⟩ : Fin 65536) ⟨k.val, hk⟩ (by show 0 + k.val < 69; omega)
      have e : (⟨0 + k.val, by omega⟩ : Fin 69) = ⟨k.val, by have := k.isLt; omega⟩ := Fin.ext (by show 0 + k.val = k.val; omega)
      rw [e] at this
      exact this
    · rw [dif_neg hk]
      have h2 : k.val - 32 < 32 := by have := k.isLt; omega
      have := cat_ext m c (⟨1024 * t.val + p.val, hn⟩ : Fin 65536) ⟨k.val - 32, h2⟩ (by show 32 + (k.val - 32) < 69; omega)
      have e : (⟨32 + (k.val - 32), by omega⟩ : Fin 69) = ⟨k.val, by have := k.isLt; omega⟩ := Fin.ext (by show 32 + (k.val - 32) = k.val; omega)
      rw [e] at this
      exact this
  · -- the flag
    rw [blk0_apply m c t p _ hn, packed_at m c _ _ (by decide)]
    exact cat_hc m c (⟨1024 * t.val + p.val, hn⟩ : Fin 65536) (0 : Fin 1) (by decide)
  · funext k
    rw [blk0_apply m c t p _ hn, packed_at m c _ _ (by show 65 + k.val < 69; have := k.isLt; omega)]
    exact cat_lcc m c (⟨1024 * t.val + p.val, hn⟩ : Fin 65536) k (by have := k.isLt; omega)
  · funext k
    rw [blk0_apply m c t p _ hn, packed_at m c _ _ (by show 67 + k.val < 69; have := k.isLt; omega)]
    exact cat_rcc m c (⟨1024 * t.val + p.val, hn⟩ : Fin 65536) k (by have := k.isLt; omega)
  · funext k
    exact blk1_apply m c t p k hn
  · funext s d
    exact blk2_apply m c t p s d hn
  · funext s d
    exact blk3_apply m c t p s d hn

/-! ## What each point writes back, the cover, the whole array -/

theorem hz2 : (![0, 0] : Fin 2 → Nat) = fun _ => 0 := funext fun a => by fin_cases a <;> rfl

/-- Point t writes back block t of `Gm`. -/
theorem flushed26_eq (hpay : PayloadIsRow) (c : Dev nD) (t : Fin cfg0.N) :
    (dats m 0 c).flushed 26 t = ((cfg0.win 26).blk t).view.read (Elt Ideal) (Gm m c) := by
  show (cfg0.win 26).cut (grid0.coords t) ((dats m 0 c).after 26 t) = _
  rw [after0_26]
  unfold out0_26
  rw [View.canon_unit_zero hz2]
  funext j
  obtain ⟨p, q, rfl⟩ : ∃ (p : Fin 1024) (q : Fin 2), j = ix2 p q := ⟨j 0, j 1, eq_ix2 j⟩
  have ht : t.val < 64 := t.isLt
  have hn : 1024 * t.val + p.val < 65536 := by have := p.isLt; omega
  have he : ((cfg0.win 26).blk t).view.emb (ix2 p q) = ix2 (⟨1024 * t.val + p.val, hn⟩ : Fin 65536) q := by
    funext a; apply Fin.ext
    match a with
    | ⟨0, _⟩ => show win0_26.index t (0 : Fin 2) * 1024 + 1 * p.val = 1024 * t.val + p.val; have := (rfacts t).2.2.2.2.2.2.2.2.2.2.1; omega
    | ⟨1, _⟩ => show win0_26.index t (1 : Fin 2) * 2 + 1 * q.val = q.val; have := (rfacts t).2.2.2.2.2.2.2.2.2.2.2; omega
  show s_out (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (ix2 p q) = Gm m c (((cfg0.win 26).blk t).view.emb (ix2 p q))
  rw [hpay, he, row_eq m c t p hn, wblk_4 m c t, wblk_5 m c t, wblk_6 m c t, wblk_7 m c t, wblk_8 m c t, wblk_9 m c t, wblk_10 m c t, wblk_11 m c t, wblk_12 m c t, wblk_13 m c t, wblk_14 m c t, wblk_15 m c t, wblk_16 m c t, wblk_17 m c t, wblk_18 m c t, wblk_19 m c t, wblk_20 m c t, wblk_21 m c t, wblk_22 m c t, wblk_23 m c t, wblk_24 m c t, wblk_25 m c t]
  rfl

/-- An index of the result is in point t's block iff each coordinate is in the block's range on its axis. -/
theorem mem_blk26 (t : Fin cfg0.N) (i : S65536x2.Idx) :
    i ∈ ((cfg0.win 26).blk t).view.set ↔ ∀ a : Fin 2, win0_26.index t a * S1024x2.size a ≤ (i a).val ∧ (i a).val < win0_26.index t a * S1024x2.size a + S1024x2.size a := by
  show i ∈ ((View.whole main_v2).slice (win0_26.rect t)).set ↔ _
  rw [View.set_slice_whole, Rect.mem_set_unit]
  exact Iff.rfl

/-- Every row of the result is in the block of the point its row number divided by 1024 names. -/
theorem cover26 (i : S65536x2.Idx) :
    ∃ t : Fin cfg0.N, (cfg0.win 26).flush t = true ∧ i ∈ ((cfg0.win 26).blk t).view.set := by
  have hi0 : (i 0).val < 65536 := (i 0).isLt
  have hi1 : (i 1).val < 2 := (i 1).isLt
  have ht : (i 0).val / 1024 < 64 := by omega
  refine ⟨⟨(i 0).val / 1024, ht⟩, flush0_26 _, ?_⟩
  rw [mem_blk26]
  have f0 := (rfacts ⟨(i 0).val / 1024, ht⟩).2.2.2.2.2.2.2.2.2.2.1
  have f1 := (rfacts ⟨(i 0).val / 1024, ht⟩).2.2.2.2.2.2.2.2.2.2.2
  have e : (⟨(i 0).val / 1024, ht⟩ : Fin cfg0.N).val = (i 0).val / 1024 := rfl
  intro a
  match a with
  | ⟨0, _⟩ =>
    show win0_26.index ⟨(i 0).val / 1024, ht⟩ (0 : Fin 2) * 1024 ≤ (i 0).val ∧ (i 0).val < win0_26.index ⟨(i 0).val / 1024, ht⟩ (0 : Fin 2) * 1024 + 1024
    omega
  | ⟨1, _⟩ =>
    show win0_26.index ⟨(i 0).val / 1024, ht⟩ (1 : Fin 2) * 2 ≤ (i 1).val ∧ (i 1).val < win0_26.index ⟨(i 0).val / 1024, ht⟩ (1 : Fin 2) * 2 + 2
    omega

/-- The result array after the run is `Gm`. -/
theorem final26 (hpay : PayloadIsRow) (c : Dev nD) : (dats m 0 c).arrAt 26 cfg0.N = Gm m c :=
  (dats m 0 c).arrAt_eq_of_cover 26 (Gm m c) (fun t _ => flushed26_eq m hpay c t) cover26

set_option maxHeartbeats 8000000 in
/-- After the frame run every argument array is as launched: a staged one is an input window's array, the five narrow
    inputs are among the buffers the region leaves alone. -/
theorem kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  ⟨((h c).2 main_arg0 (by decide)).trans (V_main_arg0 m c),
    ((h c).2 main_arg1 (by decide)).trans (V_main_arg1 m c),
    ((h c).1 1).trans (((dats m 0 c).arrAt_in 1 rfl _).trans ((A_eq m c 1).trans (V_main_arg2 m c))),
    ((h c).2 main_arg3 (by decide)).trans (V_main_arg3 m c),
    ((h c).1 2).trans (((dats m 0 c).arrAt_in 2 rfl _).trans ((A_eq m c 2).trans (V_main_arg4 m c))),
    ((h c).1 3).trans (((dats m 0 c).arrAt_in 3 rfl _).trans ((A_eq m c 3).trans (V_main_arg5 m c))),
    ((h c).2 main_arg6 (by decide)).trans (V_main_arg6 m c),
    ((h c).2 main_arg7 (by decide)).trans (V_main_arg7 m c),
    ((h c).1 4).trans (((dats m 0 c).arrAt_in 4 rfl _).trans ((A_eq m c 4).trans (V_main_arg8 m c))),
    ((h c).1 5).trans (((dats m 0 c).arrAt_in 5 rfl _).trans ((A_eq m c 5).trans (V_main_arg9 m c))),
    ((h c).1 6).trans (((dats m 0 c).arrAt_in 6 rfl _).trans ((A_eq m c 6).trans (V_main_arg10 m c))),
    ((h c).1 7).trans (((dats m 0 c).arrAt_in 7 rfl _).trans ((A_eq m c 7).trans (V_main_arg11 m c))),
    ((h c).1 8).trans (((dats m 0 c).arrAt_in 8 rfl _).trans ((A_eq m c 8).trans (V_main_arg12 m c))),
    ((h c).1 9).trans (((dats m 0 c).arrAt_in 9 rfl _).trans ((A_eq m c 9).trans (V_main_arg13 m c))),
    ((h c).1 10).trans (((dats m 0 c).arrAt_in 10 rfl _).trans ((A_eq m c 10).trans (V_main_arg14 m c))),
    ((h c).1 11).trans (((dats m 0 c).arrAt_in 11 rfl _).trans ((A_eq m c 11).trans (V_main_arg15 m c))),
    ((h c).1 12).trans (((dats m 0 c).arrAt_in 12 rfl _).trans ((A_eq m c 12).trans (V_main_arg16 m c))),
    ((h c).1 13).trans (((dats m 0 c).arrAt_in 13 rfl _).trans ((A_eq m c 13).trans (V_main_arg17 m c))),
    ((h c).1 14).trans (((dats m 0 c).arrAt_in 14 rfl _).trans ((A_eq m c 14).trans (V_main_arg18 m c))),
    ((h c).1 15).trans (((dats m 0 c).arrAt_in 15 rfl _).trans ((A_eq m c 15).trans (V_main_arg19 m c))),
    ((h c).1 16).trans (((dats m 0 c).arrAt_in 16 rfl _).trans ((A_eq m c 16).trans (V_main_arg20 m c))),
    ((h c).1 17).trans (((dats m 0 c).arrAt_in 17 rfl _).trans ((A_eq m c 17).trans (V_main_arg21 m c))),
    ((h c).1 18).trans (((dats m 0 c).arrAt_in 18 rfl _).trans ((A_eq m c 18).trans (V_main_arg22 m c))),
    ((h c).1 19).trans (((dats m 0 c).arrAt_in 19 rfl _).trans ((A_eq m c 19).trans (V_main_arg23 m c))),
    ((h c).1 20).trans (((dats m 0 c).arrAt_in 20 rfl _).trans ((A_eq m c 20).trans (V_main_arg24 m c))),
    ((h c).1 21).trans (((dats m 0 c).arrAt_in 21 rfl _).trans ((A_eq m c 21).trans (V_main_arg25 m c))),
    ((h c).1 22).trans (((dats m 0 c).arrAt_in 22 rfl _).trans ((A_eq m c 22).trans (V_main_arg26 m c))),
    ((h c).1 23).trans (((dats m 0 c).arrAt_in 23 rfl _).trans ((A_eq m c 23).trans (V_main_arg27 m c))),
    ((h c).1 24).trans (((dats m 0 c).arrAt_in 24 rfl _).trans ((A_eq m c 24).trans (V_main_arg28 m c))),
    ((h c).1 25).trans (((dats m 0 c).arrAt_in 25 rfl _).trans ((A_eq m c 25).trans (V_main_arg29 m c)))⟩

/-- The run: the result array at `Gm`, the arguments unchanged. -/
theorem run (hpay : PayloadIsRow) : θ_run defs (onTc (τ := τ) (main (F := Ideal))) ⟨m, fun _ => 0, ρ⟩ (fun r => ∀ c : Dev nD,
      r.2.mem ((c.tc : Thread nD τ).loc main_v2) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨((h c).1 26).trans (final26 m hpay c), kept m r h c⟩) (run_main m ρ)

end Cert.KernelIdeal.HandValue

end
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibRowScale.lean ====
/-
  A matrix scaled row by row: entry (p, q) of `rowScale x s` is x (p, q) · s (p, 0), where s is a one-column matrix.
  Two spellings of it: a vector unit's product of x with the column repeated along the rows, and a host product of x
  with the column broadcast along the rows. A band of consecutive rows of a row-scaled matrix is the band of x scaled
  by the band of s. Also: a vector viewed as one column by a reshape is the vector broadcast into one column, and a
  vector viewed as one row by a reshape is the vector broadcast into one row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowScale

open Idealize.ShloMosaic Idealize.ShloMosaic.ValueIdx

/-- Entry (p, q) of x scaled row by row by the one-column s: x (p, q) · s (p, 0). -/
def rowScale {M N : ℕ} (x : FVec Ideal ⟨2, ![M, N]⟩ .f32) (s : FVec Ideal ⟨2, ![M, 1]⟩ .f32) : FVec Ideal ⟨2, ![M, N]⟩ .f32 :=
  fun i => x i * s (ix2 (n0 := M) (n1 := 1) (i 0) (0 : Fin 1))

theorem rowScale_apply {M N : ℕ} (x : FVec Ideal ⟨2, ![M, N]⟩ .f32) (s : FVec Ideal ⟨2, ![M, 1]⟩ .f32) (p : Fin M) (q : Fin N) :
    rowScale x s (ix2 p q) = x (ix2 p q) * s (ix2 p (0 : Fin 1)) := rfl

/-- A one-column matrix repeated along the rows reads, at (p, c), its entry (p, 0). -/
theorem broadcastTo_col_apply {M N : ℕ} (v : FVec Ideal ⟨2, ![M, 1]⟩ .f32) (h : (⟨2, ![M, 1]⟩ : Shape).Broadcasts ⟨2, ![M, N]⟩)
    (p : Fin M) (c : Fin N) : broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- A one-column matrix broadcast along the rows by the host reads, at (p, c), its entry (p, 0). -/
theorem broadcastInDim_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The vector unit's spelling: x and s each through an identity re-lay, s repeated along the rows, the product. -/
theorem mul_broadcastTo_eq {M N : ℕ} (x : FVec Ideal ⟨2, ![M, N]⟩ .f32) (s : FVec Ideal ⟨2, ![M, 1]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩) :
    mulf (shapeCast ⟨2, ![M, N]⟩ x h1) (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, shapeCast_self, mulf_apply, broadcastTo_col_apply, rowScale_apply]

/-- The host's spelling: the product of x with s broadcast along the rows. -/
theorem mul_broadcastInDim_eq {M N : ℕ} (x : FVec Ideal ⟨2, ![M, N]⟩ .f32) (s : FVec Ideal ⟨2, ![M, 1]⟩ .f32)
    (hb : (⟨2, ![M, 1]⟩ : Shape).BroadcastsInDim ⟨2, ![M, N]⟩ ![0, 1]) :
    mulf x (broadcastInDim ⟨2, ![M, N]⟩ ![0, 1] hb s) = rowScale x s := by
  funext j
  obtain ⟨p, q, rfl⟩ : ∃ (p : Fin M) (q : Fin N), j = ix2 p q := ⟨j 0, j 1, eq_ix2 j⟩
  rw [mulf_apply, broadcastInDim_col_apply, rowScale_apply]

/-- Rows r, …, r + T − 1 of a row-scaled matrix: when x holds those rows of X and s those rows of S, the entry of
    `rowScale x s` at y is the entry of `rowScale X S` at the index whose row is r plus y's row and whose column is y's. -/
theorem rowScale_rows {M N T : ℕ} (X : FVec Ideal ⟨2, ![M, N]⟩ .f32) (S : FVec Ideal ⟨2, ![M, 1]⟩ .f32)
    (x : FVec Ideal ⟨2, ![T, N]⟩ .f32) (s : FVec Ideal ⟨2, ![T, 1]⟩ .f32) (r : ℕ)
    (hx : ∀ (p : Fin T) (q : Fin N) (hp : r + p.val < M), x (ix2 p q) = X (ix2 ⟨r + p.val, hp⟩ q))
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    rowScale x s y = rowScale X S i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [rowScale_apply, rowScale_apply, hx p q' (h0 ▸ p'.isLt), hs p (h0 ▸ p'.isLt), ← hp']

/-- A vector re-laid as one column is the vector broadcast into one column. -/
theorem col_cast_eq_bcast {a : ℕ} {α : Type} (v : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨i, u, rfl⟩ : ∃ (i : Fin a) (u : Fin 1), j = ix2 i u := ⟨j 0, j 1, eq_ix2 j⟩
  have e1 : shapeCast ⟨2, ![a, 1]⟩ v hc (ix2 i u) = v (ix1 i) :=
    shapeCast_apply v hc _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hb v (ix2 i u) = v (ix1 i) :=
    broadcastInDim_apply _ hb v _ (ix1 i) (fun ax => match ax with
      | ⟨0, _⟩ => by
        show i.val = if a = 1 then 0 else i.val
        split
        · have := i.isLt; omega
        · rfl)
  rw [e1, e2]

/-- A vector re-laid as one row is the vector broadcast into one row. -/
theorem row_cast_eq_bcast {a : ℕ} {α : Type} (v : (⟨1, ![a]⟩ : Shape).Idx → α) (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  have e1 : shapeCast ⟨2, ![1, a]⟩ v hc (ix2 u i) = v (ix1 i) :=
    shapeCast_apply v hc _ _ (by
      have hu : u.val = 0 := by omega
      rw [Shape.rowMajor_val_two, Shape.rowMajor_val_one]
      show i.val = u.val * a + i.val
      rw [hu, Nat.zero_mul, Nat.zero_add])
  have e2 : broadcastInDim ⟨2, ![1, a]⟩ ![1] hb v (ix2 u i) = v (ix1 i) :=
    broadcastInDim_apply _ hb v _ (ix1 i) (fun ax => match ax with
      | ⟨0, _⟩ => by
        show i.val = if a = 1 then 0 else i.val
        split
        · have := i.isLt; omega
        · rfl)
  rw [e1, e2]

end Cert.LibRowScale

end
-- ==== Proof.BodyIsSpec.lean ====
/-
  The block the kernel body stores is, row by row, the specification's per-row function.

  Each named value of the body is a matrix with one row per batch row. Row p of every one of them is the matching
  function of the specification applied to row p of the loaded blocks: a product into the zero accumulator plus a
  bias row is `lin` of the row; a product against a band of rows of a weight matrix is `dotAt` at the band's first row;
  a maximum against the zero splat is the clamp; the running minimum over the four predicate slots is `cond`; the
  bitmap embedding times the flag column repeated along the rows is `bmEmb`; the last value lays the two heads'
  outputs side by side. Narrowing to bf16 changes nothing at exact values. The kernel's arrangement of the node layer
  and of the first mixing layer as sums of partial products is the specification's `nodeSplit` and `mixSplit`, so
  nothing beyond reading each operation at an index is needed.
-/
import proofs.«135069_j84061099917535_2_alg».proof.Proof.IdealBody
import proofs.«135069_j84061099917535_2_alg».proof.Proof.Spec
import proofs.«135069_j84061099917535_2_alg».proof.Proof.LibDense
import proofs.«135069_j84061099917535_2_alg».proof.Proof.LibRowScale

set_option maxRecDepth 16384

noncomputable section

namespace Cert.BodyIsSpec

open Idealize.ShloMosaic Idealize.ShloMosaic.ValueIdx
open Cert.KernelIdeal Cert.KernelIdeal.Gen Cert.KernelIdeal.Body
open Cert Cert.LibDense

/-! ## One operation at an index, over matrices of any extents -/

section General
variable {M K N R : ℕ} {φ₁ φ₂ : FTy}

/-- A product into the zero accumulator plus a bias re-laid as one row and repeated down the rows, at (p, j): `lin` of
    row p of the left operand. -/
theorem layer_apply (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (lhs : FVec Ideal ⟨2, ![M, K]⟩ φ₁) (rhs : FVec Ideal ⟨2, ![K, N]⟩ φ₂) (b : FVec Ideal ⟨1, ![N]⟩ .f32)
    (hc : (⟨1, ![N]⟩ : Shape).ShapeCasts ⟨2, ![1, N]⟩) (hbc : (⟨2, ![1, N]⟩ : Shape).Broadcasts ⟨2, ![M, N]⟩)
    (p : Fin M) (j : Fin N) :
    addf (matmul D none lhs rhs (constant ⟨2, ![M, N]⟩ .f32 0x00000000#32))
        (broadcastTo ⟨2, ![M, N]⟩ (shapeCast ⟨2, ![1, N]⟩ b hc) hbc) (ix2 p j)
      = Spec.lin (fun k => lhs (ix2 p k)) rhs b j := by
  rw [addf_apply, broadcastTo_1b_ab_apply, shapeCast_a_1a_apply, matmul2d_apply D hlc hrc hln hrn hlb hrb]
  rfl

/-- A bias re-laid as one row and repeated down the rows, at (p, j). -/
theorem bias_apply (b : FVec Ideal ⟨1, ![N]⟩ .f32)
    (hc : (⟨1, ![N]⟩ : Shape).ShapeCasts ⟨2, ![1, N]⟩) (hbc : (⟨2, ![1, N]⟩ : Shape).Broadcasts ⟨2, ![M, N]⟩)
    (p : Fin M) (j : Fin N) :
    broadcastTo ⟨2, ![M, N]⟩ (shapeCast ⟨2, ![1, N]⟩ b hc) hbc (ix2 p j) = b (ix1 j) := by
  rw [broadcastTo_1b_ab_apply, shapeCast_a_1a_apply]

/-- A product into the zero accumulator, at (p, j): `dot` of row p of the left operand. -/
theorem prod_apply (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (lhs : FVec Ideal ⟨2, ![M, K]⟩ φ₁) (rhs : FVec Ideal ⟨2, ![K, N]⟩ φ₂) (p : Fin M) (j : Fin N) :
    matmul D none lhs rhs (constant ⟨2, ![M, N]⟩ .f32 0x00000000#32) (ix2 p j)
      = Spec.dot (fun k => lhs (ix2 p k)) rhs j :=
  matmul2d_apply D hlc hrc hln hrn hlb hrb none lhs rhs p j

/-- A product into the zero accumulator against rows `off, …, off + K − 1` of a weight matrix, at (p, j): `dotAt off` of
    row p of the left operand. -/
theorem band_apply (off : ℕ) (hoff : off + K ≤ R) (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (lhs : FVec Ideal ⟨2, ![M, K]⟩ φ₁) (W : FVec Ideal ⟨2, ![R, N]⟩ φ₂)
    (h : (⟨2, ![R, N]⟩ : Shape).Slices ![off, 0] ⟨2, ![K, N]⟩) (p : Fin M) (j : Fin N) :
    matmul D none lhs (extractStridedSlice ⟨2, ![K, N]⟩ ![off, 0] W h) (constant ⟨2, ![M, N]⟩ .f32 0x00000000#32) (ix2 p j)
      = Spec.dotAt off hoff (fun k => lhs (ix2 p k)) W j := by
  refine (matmul2d_apply D hlc hrc hln hrn hlb hrb none lhs _ p j).trans ?_
  unfold Spec.dotAt
  refine Finset.sum_congr rfl fun k _ => ?_
  exact congrArg (lhs (ix2 p k) * ·) (slice2_axis0_apply off W h k j ⟨off + k.val, by have := k.isLt; omega⟩ rfl)

/-- The maximum against the zero splat, at an index: the clamp. -/
theorem relu_apply {s : Shape} (A : FVec Ideal s .f32) (i : s.Idx) :
    maximumf A (broadcast s (Scalar.ofBits (F := Ideal) .f32 0x00000000#32)) i = Spec.relu (A i) := rfl

end General

/-! ## Loads -/

theorem hz1 : (![0] : Fin 1 → Nat) = fun _ => 0 := funext fun a => by match a with | ⟨0, _⟩ => rfl
theorem hz2 : (![0, 0] : Fin 2 → Nat) = fun _ => 0 := funext fun a => by match a with | ⟨0, _⟩ => rfl | ⟨1, _⟩ => rfl

/-- A whole vector loaded. -/
theorem ld1 {n : ℕ} (X : Vec Ideal ⟨1, ![n]⟩ .f32)
    (inb : ∀ a, (![0] : Fin 1 → Nat) a + (⟨1, ![n]⟩ : Shape).size a ≤ (⟨1, ![n]⟩ : Shape).size a) :
    View.ld X (Rect.unit (s := ⟨1, ![n]⟩) ![0] (⟨1, ![n]⟩ : Shape).size inb) = X := View.ld_unit_zero hz1 inb X

/-- A whole matrix loaded. -/
theorem ld2 {a b : ℕ} (X : Vec Ideal ⟨2, ![a, b]⟩ .f32)
    (inb : ∀ c, (![0, 0] : Fin 2 → Nat) c + (⟨2, ![a, b]⟩ : Shape).size c ≤ (⟨2, ![a, b]⟩ : Shape).size c) :
    View.ld X (Rect.unit (s := ⟨2, ![a, b]⟩) ![0, 0] (⟨2, ![a, b]⟩ : Shape).size inb) = X := View.ld_unit_zero hz2 inb X

/-- Slot `o` of a 1024 × 4 × 128 block loaded as a 1024 × 1 × 128 vector and re-laid as 1024 × 128, at (p, d): the block
    at (p, o, d). -/
theorem slot_apply (x : Vec Ideal S1024x4x128 .f32) (o : ℕ) (ho : o < 4)
    (inb : ∀ a, (![0, o, 0] : Fin 3 → Nat) a + S1024x1x128.size a ≤ S1024x4x128.size a)
    (h : S1024x1x128.ShapeCasts S1024x128) (p : Fin 1024) (d : Fin 128) :
    shapeCast S1024x128 (View.ld x (Rect.unit (s := S1024x4x128) ![0, o, 0] S1024x1x128.size inb)) h (ix2 p d)
      = x (ix3 p ⟨o, ho⟩ d) := by
  refine (shapeCast_apply _ h (ix2 p d) (ix3 p (0 : Fin 1) d) ?_).trans ?_
  · rw [Shape.rowMajor_val_two, Shape.rowMajor_val_three]
    show (p.val * 1 + 0) * 128 + d.val = p.val * 128 + d.val
    omega
  · show x _ = x _
    refine congrArg x (funext fun a => Fin.ext ?_)
    match a with
    | ⟨0, _⟩ => show 0 + 1 * p.val = p.val; omega
    | ⟨1, _⟩ => show o + 1 * 0 = o; omega
    | ⟨2, _⟩ => show 0 + 1 * d.val = d.val; omega

/-- One predicate slot through the predicate layer, at (p, d): `lin` of the slot's row. -/
theorem slot_lin (D : DotDims S1024x128 S128x128 S1024x128)
    (hlc : D.lhsContracting = [1]) (hrc : D.rhsContracting = [0]) (hln : D.lhsNonContracting = [0])
    (hrn : D.rhsNonContracting = [1]) (hlb : D.lhsBatch = []) (hrb : D.rhsBatch = [])
    (W : FVec Ideal S128x128 .bf16) (b : Vec Ideal S128 .f32) (x : Vec Ideal S1024x4x128 .f32) (o : ℕ) (ho : o < 4)
    (inb : ∀ a, (![0, o, 0] : Fin 3 → Nat) a + S1024x1x128.size a ≤ S1024x4x128.size a)
    (h : S1024x1x128.ShapeCasts S1024x128) (hb : FTy.bits .bf16 < FTy.bits .f32)
    (hc : S128.ShapeCasts S1x128) (hbc : S1x128.Broadcasts S1024x128) (p : Fin 1024) (d : Fin 128) :
    addf (matmul D none
          (truncf .bf16 (shapeCast S1024x128 (View.ld x (Rect.unit (s := S1024x4x128) ![0, o, 0] S1024x1x128.size inb)) h) hb)
          W (constant S1024x128 .f32 0x00000000#32))
        (broadcastTo S1024x128 (shapeCast S1x128 b hc) hbc) (ix2 p d)
      = Spec.lin (fun k => x (ix3 p ⟨o, ho⟩ k)) W b d := by
  refine (layer_apply D hlc hrc hln hrn hlb hrb _ W b hc hbc p d).trans ?_
  exact congrArg (fun f => Spec.lin f W b d) (funext fun k => slot_apply x o ho inb h p k)

/-! ## The payloads, over any inputs, at row p -/

section Payloads
variable (p : Fin 1024)

theorem pay2_eq (v0 : Vec Ideal S128x128 .f32) : k0_pay2 (F := Ideal) v0 = v0 := rfl
theorem pay15_eq (v : Vec Ideal S2x64 .f32) : k0_pay15 (F := Ideal) v = v := rfl
theorem pay20_eq (v : Vec Ideal S64x32 .f32) : k0_pay20 (F := Ideal) v = v := rfl

/-- Slots 0 and 1 of a predicate block: the minimum of their two layers. -/
theorem pay3_apply (W : Vec Ideal S128x128 .f32) (b : Vec Ideal S128 .f32) (x : Vec Ideal S1024x4x128 .f32) (d : Fin 128) :
    k0_pay3 (F := Ideal) W b (View.ld x rp_0) (View.ld x rp_1) (ix2 p d)
      = min (Spec.lin (fun k => x (ix3 p 0 k)) W b d) (Spec.lin (fun k => x (ix3 p 1 k)) W b d) := by
  unfold k0_pay3
  refine (minimumf_apply _ _ _).trans ?_
  exact congrArg₂ min (slot_lin _ rfl rfl rfl rfl rfl rfl (k0_pay2 W) b x 0 (by omega) _ _ _ _ _ p d)
    (slot_lin _ rfl rfl rfl rfl rfl rfl (k0_pay2 W) b x 1 (by omega) _ _ _ _ _ p d)

theorem pay4_apply (W : Vec Ideal S128x128 .f32) (b : Vec Ideal S128 .f32) (x : Vec Ideal S1024x4x128 .f32) (d : Fin 128) :
    k0_pay4 (F := Ideal) W b (View.ld x rp_0) (View.ld x rp_1) (ix2 p d)
      = min (Spec.lin (fun k => x (ix3 p 0 k)) W b d) (Spec.lin (fun k => x (ix3 p 1 k)) W b d) := by
  unfold k0_pay4
  refine (minimumf_apply _ _ _).trans ?_
  exact congrArg₂ min (slot_lin _ rfl rfl rfl rfl rfl rfl (k0_pay2 W) b x 0 (by omega) _ _ _ _ _ p d)
    (slot_lin _ rfl rfl rfl rfl rfl rfl (k0_pay2 W) b x 1 (by omega) _ _ _ _ _ p d)

/-- Slot 2 narrowed: the block at (p, 2, k). -/
theorem pay5_apply (x : Vec Ideal S1024x4x128 .f32) (k : Fin 128) :
    k0_pay5 (F := Ideal) (View.ld x rp_2) (ix2 p k) = x (ix3 p 2 k) := by
  unfold k0_pay5
  exact slot_apply x 2 (by omega) _ _ p k

/-- The running minimum taken over slot 2 (already narrowed) and slot 3. -/
theorem pay6_apply (W : FVec Ideal S128x128 .bf16) (b : Vec Ideal S128 .f32) (v31 : FVec Ideal S1024x128 .f32)
    (v35 : FVec Ideal S1024x128 .bf16) (x : Vec Ideal S1024x4x128 .f32) (d : Fin 128) :
    k0_pay6 (F := Ideal) W b v31 v35 (constant S1024x128 .f32 0x00000000#32) (View.ld x rp_3) (ix2 p d)
      = min (min (v31 (ix2 p d)) (Spec.lin (fun k => v35 (ix2 p k)) W b d)) (Spec.lin (fun k => x (ix3 p 3 k)) W b d) := by
  unfold k0_pay6
  refine (minimumf_apply _ _ _).trans (congrArg₂ min ?_ ?_)
  · refine (minimumf_apply _ _ _).trans (congrArg (min (v31 (ix2 p d))) ?_)
    exact layer_apply _ rfl rfl rfl rfl rfl rfl v35 W b _ _ p d
  · exact slot_lin _ rfl rfl rfl rfl rfl rfl W b x 3 (by omega) _ _ _ _ _ p d

/-- The running minimum taken over slots 2 and 3. -/
theorem pay7_apply (W : FVec Ideal S128x128 .bf16) (b : Vec Ideal S128 .f32) (v32 : FVec Ideal S1024x128 .f32)
    (x : Vec Ideal S1024x4x128 .f32) (d : Fin 128) :
    k0_pay7 (F := Ideal) W b v32 (View.ld x rp_2) (View.ld x rp_3) (ix2 p d)
      = min (min (v32 (ix2 p d)) (Spec.lin (fun k => x (ix3 p 2 k)) W b d)) (Spec.lin (fun k => x (ix3 p 3 k)) W b d) := by
  unfold k0_pay7
  refine (minimumf_apply _ _ _).trans (congrArg₂ min ?_ ?_)
  · refine (minimumf_apply _ _ _).trans (congrArg (min (v32 (ix2 p d))) ?_)
    exact slot_lin _ rfl rfl rfl rfl rfl rfl W b x 2 (by omega) _ _ _ _ _ p d
  · exact slot_lin _ rfl rfl rfl rfl rfl rfl W b x 3 (by omega) _ _ _ _ _ p d

/-- Column 64 of the packed block. -/
theorem pay9_apply (v65 : Vec Ideal S1024x128 .f32) :
    k0_pay9 (F := Ideal) v65 (ix2 p (0 : Fin 1)) = v65 (ix2 p (64 : Fin 128)) := by
  unfold k0_pay9 k0_pay8
  refine (slice2_axis1_apply 64 _ _ p (0 : Fin 1) (64 : Fin 128) rfl).trans ?_
  rw [shapeCast_self]

/-- Columns 65 and 66 of the packed block. -/
theorem pay10_apply (v65 : Vec Ideal S1024x128 .f32) (t : Fin 2) :
    k0_pay10 (F := Ideal) v65 (ix2 p t) = v65 (ix2 p ⟨65 + t.val, by have := t.isLt; omega⟩) := by
  unfold k0_pay10 k0_pay8
  refine (slice2_axis1_apply 65 _ _ p t ⟨65 + t.val, by have := t.isLt; omega⟩ rfl).trans ?_
  rw [shapeCast_self]

/-- Columns 67 and 68 of the packed block. -/
theorem pay11_apply (v65 : Vec Ideal S1024x128 .f32) (t : Fin 2) :
    k0_pay11 (F := Ideal) v65 (ix2 p t) = v65 (ix2 p ⟨67 + t.val, by have := t.isLt; omega⟩) := by
  unfold k0_pay11 k0_pay8
  refine (slice2_axis1_apply 67 _ _ p t ⟨67 + t.val, by have := t.isLt; omega⟩ rfl).trans ?_
  rw [shapeCast_self]

/-- Columns 0–63 of the packed block times the operator weights. -/
theorem pay12_apply (v65 : Vec Ideal S1024x128 .f32) (v72 : Vec Ideal S64x128 .f32) (j : Fin 128) :
    k0_pay12 (F := Ideal) v65 v72 (ix2 p j)
      = Spec.dot (fun k : Fin 64 => v65 (ix2 p ⟨k.val, by have := k.isLt; omega⟩)) v72 j := by
  unfold k0_pay12 k0_pay8
  refine (prod_apply _ rfl rfl rfl rfl rfl rfl _ _ p j).trans ?_
  refine congrArg (fun f => Spec.dot f v72 j) (funext fun k => ?_)
  refine (slice2_axis1_apply 0 (shapeCast S1024x128 v65 shapeCasts_S1024x128_S1024x128) slices_S1024x128_o0_0_S1024x64 p k
    (⟨k.val, by have := k.isLt; omega⟩ : Fin 128) (Nat.zero_add _).symm).trans ?_
  rw [shapeCast_self]

/-- A bias repeated down the rows. -/
theorem pay13_apply (v75 : Vec Ideal S128 .f32) (j : Fin 128) : k0_pay13 (F := Ideal) v75 (ix2 p j) = v75 (ix1 j) := by
  unfold k0_pay13
  exact bias_apply v75 _ _ p j

theorem pay17_apply (v115 : Vec Ideal S64 .f32) (j : Fin 64) : k0_pay17 (F := Ideal) v115 (ix2 p j) = v115 (ix1 j) := by
  unfold k0_pay17
  exact bias_apply v115 _ _ p j

/-- A column pair times the column-pair weights. -/
theorem pay16_apply (v69 : FVec Ideal S1024x2 .f32) (v113 : Vec Ideal S2x64 .f32) (j : Fin 64) :
    k0_pay16 (F := Ideal) v69 v113 (ix2 p j) = Spec.dot (fun t => v69 (ix2 p t)) v113 j := by
  unfold k0_pay16
  exact prod_apply _ rfl rfl rfl rfl rfl rfl _ _ p j

/-- The node layer: four partial products against bands of 128 rows of the weights, the bias, the clamp. -/
theorem pay14_apply (v63 v64 : FVec Ideal S1024x128 .f32) (v68 : FVec Ideal S1024x1 .f32) (v74 v77 : FVec Ideal S1024x128 .f32)
    (v79 : Vec Ideal S1024x1000 .f32) (v81 : Vec Ideal S1000x128 .f32) (v84 : Vec Ideal S128 .f32)
    (v90 : Vec Ideal S512x256 .f32) (v92 : Vec Ideal S256 .f32)
    (e c1 c2 : Fin 128 → EReal) (f : EReal)
    (he : ∀ k, v74 (ix2 p k) + v77 (ix2 p k) = e k) (h1 : ∀ k, v63 (ix2 p k) = c1 k) (h2 : ∀ k, v64 (ix2 p k) = c2 k)
    (hf : v68 (ix2 p (0 : Fin 1)) = f) (j : Fin 256) :
    k0_pay14 (F := Ideal) v63 v64 v68 v74 v77 v79 v81 v84 v90 v92 (ix2 p j)
      = Spec.relu (Spec.nodeSplit e c1 c2 (fun k => Spec.lin (fun t => v79 (ix2 p t)) v81 v84 k * f) v90 v92 j) := by
  unfold k0_pay14
  refine (relu_apply _ _).trans (congrArg Spec.relu ?_)
  unfold Spec.nodeSplit
  refine (addf_apply _ _ _).trans (congrArg₂ (· + ·) ?_ (bias_apply v92 _ _ p j))
  refine (addf_apply _ _ _).trans (congrArg₂ (· + ·) ?_ ?_)
  · refine (addf_apply _ _ _).trans (congrArg₂ (· + ·) ?_ ?_)
    · refine (addf_apply _ _ _).trans (congrArg₂ (· + ·) ?_ ?_)
      · refine (band_apply 0 (by omega) _ rfl rfl rfl rfl rfl rfl _ _ _ p j).trans ?_
        exact congrArg (fun g => Spec.dotAt 0 (by omega) g v90 j) (funext fun k => (addf_apply _ _ _).trans (he k))
      · refine (band_apply 128 (by omega) _ rfl rfl rfl rfl rfl rfl _ _ _ p j).trans ?_
        exact congrArg (fun g => Spec.dotAt 128 (by omega) g v90 j) (funext h1)
    · refine (band_apply 256 (by omega) _ rfl rfl rfl rfl rfl rfl _ _ _ p j).trans ?_
      exact congrArg (fun g => Spec.dotAt 256 (by omega) g v90 j) (funext h2)
  · refine (band_apply 384 (by omega) _ rfl rfl rfl rfl rfl rfl _ _ _ p j).trans ?_
    refine congrArg (fun g => Spec.dotAt 384 (by omega) g v90 j) (funext fun k => ?_)
    refine (mulf_apply _ _ _).trans (congrArg₂ (· * ·) ?_ ?_)
    · exact layer_apply _ rfl rfl rfl rfl rfl rfl _ _ v84 _ _ p k
    · exact (LibRowScale.broadcastTo_col_apply v68 _ p k).trans hf

/-- The two column-pair layers, the first mixing layer as three partial products, the second mixing layer. -/
theorem pay18_apply (v70 : FVec Ideal S1024x2 .f32) (v112 : FVec Ideal S1024x256 .f32) (v114 : FVec Ideal S2x64 .bf16)
    (v115 : Vec Ideal S64 .f32) (v117 v119 : FVec Ideal S1024x64 .f32) (v130 : Vec Ideal S384x128 .f32)
    (v132 : Vec Ideal S128 .f32) (v150 : Vec Ideal S128x64 .f32) (v153 : Vec Ideal S64 .f32)
    (nd : Fin 256 → EReal) (lp : Fin 64 → EReal) (rc : Fin 2 → EReal)
    (hn : ∀ k, v112 (ix2 p k) = nd k) (hl : ∀ k, v117 (ix2 p k) + v119 (ix2 p k) = lp k) (hr : ∀ t, v70 (ix2 p t) = rc t)
    (j : Fin 64) :
    k0_pay18 (F := Ideal) v70 v112 v114 v115 v117 v119 v130 v132 v150 v153 (ix2 p j)
      = Spec.relu (Spec.lin (fun k => Spec.relu (Spec.mixSplit nd (fun k => Spec.relu (lp k))
          (fun k => Spec.relu (Spec.lin rc v114 v115 k)) v130 v132 k)) v150 v153 j) := by
  unfold k0_pay18
  refine (relu_apply _ _).trans (congrArg Spec.relu ?_)
  refine (layer_apply _ rfl rfl rfl rfl rfl rfl _ _ v153 _ _ p j).trans ?_
  refine congrArg (fun g => Spec.lin g v150 v153 j) (funext fun k => ?_)
  refine (relu_apply _ _).trans (congrArg Spec.relu ?_)
  unfold Spec.mixSplit
  refine (addf_apply _ _ _).trans (congrArg₂ (· + ·) ?_ (bias_apply v132 _ _ p k))
  refine (addf_apply _ _ _).trans (congrArg₂ (· + ·) ?_ ?_)
  · refine (addf_apply _ _ _).trans (congrArg₂ (· + ·) ?_ ?_)
    · refine (band_apply 0 (by omega) _ rfl rfl rfl rfl rfl rfl _ _ _ p k).trans ?_
      exact congrArg (fun g => Spec.dotAt 0 (by omega) g v130 k) (funext hn)
    · refine (band_apply 256 (by omega) _ rfl rfl rfl rfl rfl rfl _ _ _ p k).trans ?_
      refine congrArg (fun g => Spec.dotAt 256 (by omega) g v130 k) (funext fun t => ?_)
      exact (relu_apply _ _).trans (congrArg Spec.relu ((addf_apply _ _ _).trans (hl t)))
  · refine (band_apply 320 (by omega) _ rfl rfl rfl rfl rfl rfl _ _ _ p k).trans ?_
    refine congrArg (fun g => Spec.dotAt 320 (by omega) g v130 k) (funext fun t => ?_)
    refine (relu_apply _ _).trans (congrArg Spec.relu ?_)
    refine (layer_apply _ rfl rfl rfl rfl rfl rfl _ v114 v115 _ _ p t).trans ?_
    exact congrArg (fun g => Spec.lin g v114 v115 t) (funext hr)

theorem pay19_apply (v70 : FVec Ideal S1024x2 .f32) (v112 : FVec Ideal S1024x256 .f32) (v114 : FVec Ideal S2x64 .bf16)
    (v115 : Vec Ideal S64 .f32) (v117 v119 : FVec Ideal S1024x64 .f32) (v130 : Vec Ideal S384x128 .f32)
    (v132 : Vec Ideal S128 .f32) (v150 : Vec Ideal S128x64 .f32) (v153 : Vec Ideal S64 .f32) (j : Fin 64) :
    k0_pay19 (F := Ideal) v70 v112 v114 v115 v117 v119 v130 v132 v150 v153 (ix2 p j)
      = k0_pay18 (F := Ideal) v70 v112 v114 v115 v117 v119 v130 v132 v150 v153 (ix2 p j) := rfl

/-- The first head's output: column 0 of the stored block. -/
theorem pay1_left (v158 : FVec Ideal S1024x64 .f32) (v159 : FVec Ideal S1024x64 .bf16) (v161 : FVec Ideal S64x32 .bf16)
    (v163 : Vec Ideal S32 .f32) (v170 : Vec Ideal S32x1 .f32) (v173 : Vec Ideal S1 .f32) (v179 : Vec Ideal S64x32 .f32)
    (v182 : Vec Ideal S32 .f32) (v189 : Vec Ideal S32x1 .f32) (v192 : Vec Ideal S1 .f32)
    (m : Fin 64 → EReal) (h159 : ∀ t, v159 (ix2 p t) = m t) (q : Fin 2) (hq : q.val = 0) :
    k0_pay1 (F := Ideal) v158 v159 v161 (constant S1024x32 .f32 0x00000000#32) v163 v170 v173 v179 v182 v189 v192 (ix2 p q)
      = Spec.head v161 v163 v170 v173 m := by
  unfold k0_pay1 Spec.head
  refine (concatenate_pair_apply_left (t := S1024x2) (s₁ := S1024x1) (s₂ := S1024x1) (1 : Fin 2) _ _ _ (ix2 p q) rfl (ix2 p (0 : Fin 1)) ?_).trans ?_
  · intro b
    match b with
    | ⟨0, _⟩ => rfl
    | ⟨1, _⟩ => exact hq.symm
  · refine (logistic_apply _ _).trans (congrArg Ideal.logistic ?_)
    refine (layer_apply _ rfl rfl rfl rfl rfl rfl _ _ v173 _ _ p (0 : Fin 1)).trans ?_
    refine congrArg (fun g => Spec.lin g v170 v173 (0 : Fin 1)) (funext fun k => ?_)
    refine (relu_apply _ _).trans (congrArg Spec.relu ?_)
    refine (layer_apply _ rfl rfl rfl rfl rfl rfl v159 v161 v163 _ _ p k).trans ?_
    exact congrArg (fun g => Spec.lin g v161 v163 k) (funext h159)

/-- The second head's output: column 1 of the stored block. -/
theorem pay1_right (v158 : FVec Ideal S1024x64 .f32) (v159 : FVec Ideal S1024x64 .bf16) (v161 : FVec Ideal S64x32 .bf16)
    (v163 : Vec Ideal S32 .f32) (v170 : Vec Ideal S32x1 .f32) (v173 : Vec Ideal S1 .f32) (v179 : Vec Ideal S64x32 .f32)
    (v182 : Vec Ideal S32 .f32) (v189 : Vec Ideal S32x1 .f32) (v192 : Vec Ideal S1 .f32)
    (m : Fin 64 → EReal) (h158 : ∀ t, v158 (ix2 p t) = m t) (q : Fin 2) (hq : q.val = 1) :
    k0_pay1 (F := Ideal) v158 v159 v161 (constant S1024x32 .f32 0x00000000#32) v163 v170 v173 v179 v182 v189 v192 (ix2 p q)
      = Spec.head v179 v182 v189 v192 m := by
  unfold k0_pay1 Spec.head
  refine (concatenate_pair_apply_right (t := S1024x2) (s₁ := S1024x1) (s₂ := S1024x1) (1 : Fin 2) _ _ _ (ix2 p q) rfl rfl (ix2 p (0 : Fin 1)) ?_ ?_).trans ?_
  · intro b hb
    match b with
    | ⟨0, _⟩ => rfl
    | ⟨1, _⟩ => exact absurd rfl hb
  · show 0 + 1 = q.val
    omega
  · refine (logistic_apply _ _).trans (congrArg Ideal.logistic ?_)
    refine (layer_apply _ rfl rfl rfl rfl rfl rfl _ _ v192 _ _ p (0 : Fin 1)).trans ?_
    refine congrArg (fun g => Spec.lin g v189 v192 (0 : Fin 1)) (funext fun k => ?_)
    refine (relu_apply _ _).trans (congrArg Spec.relu ?_)
    refine (layer_apply _ rfl rfl rfl rfl rfl rfl _ _ v182 _ _ p k).trans ?_
    exact congrArg (fun g => Spec.lin g v179 v182 k) (funext h158)

end Payloads

/-! ## The body's named values at row p -/

section Body
variable {x0 : Vec Ideal S1024x128 .f32} {x1 : Vec Ideal S1024x1000 .f32} {x2 x3 : Vec Ideal S1024x4x128 .f32}
  {x4 : Vec Ideal S64x128 .f32} {x5 : Vec Ideal S128 .f32} {x6 : Vec Ideal S128x128 .f32} {x7 : Vec Ideal S128 .f32}
  {x8 : Vec Ideal S1000x128 .f32} {x9 : Vec Ideal S128 .f32} {x10 : Vec Ideal S2x64 .f32} {x11 : Vec Ideal S64 .f32}
  {x12 : Vec Ideal S512x256 .f32} {x13 : Vec Ideal S256 .f32} {x14 : Vec Ideal S384x128 .f32} {x15 : Vec Ideal S128 .f32}
  {x16 : Vec Ideal S128x64 .f32} {x17 : Vec Ideal S64 .f32} {x18 : Vec Ideal S64x32 .f32} {x19 : Vec Ideal S32 .f32}
  {x20 : Vec Ideal S32x1 .f32} {x21 : Vec Ideal S1 .f32} {x22 : Vec Ideal S64x32 .f32} {x23 : Vec Ideal S32 .f32}
  {x24 : Vec Ideal S32x1 .f32} {x25 : Vec Ideal S1 .f32} (p : Fin 1024)

/-- The 22 weight and bias blocks as the specification's parameters. -/
local notation "θ" => (Spec.Params.mk x4 x5 x6 x7 x8 x9 x10 x11 x12 x13 x14 x15 x16 x17 x18 x19 x20 x21 x22 x23 x24 x25)
/-- Row p of the four per-row blocks. -/
local notation "ρ" => Spec.rowOfPacked x0 x1 x2 x3 p
local notation:max "⟪" f "⟫" => f (F := Ideal) x0 x1 x2 x3 x4 x5 x6 x7 x8 x9 x10 x11 x12 x13 x14 x15 x16 x17 x18 x19 x20 x21 x22 x23 x24 x25

theorem v1_eq : ⟪s_v1⟫ = x6 := by
  unfold s_v1
  rw [ld2 x6]
  rfl

theorem v114_eq : ⟪s_v114⟫ = x10 := by
  unfold s_v114
  rw [ld2 x10]
  rfl

theorem v161_eq : ⟪s_v161⟫ = x18 := by
  unfold s_v161
  rw [ld2 x18]
  rfl

theorem v31_apply (d : Fin 128) :
    ⟪s_v31⟫ (ix2 p d) = min (Spec.lin (fun k => x2 (ix3 p 0 k)) x6 x7 d) (Spec.lin (fun k => x2 (ix3 p 1 k)) x6 x7 d) := by
  unfold s_v31
  rw [ld2 x6, ld1 x7]
  exact pay3_apply p x6 x7 x2 d

theorem v32_apply (d : Fin 128) :
    ⟪s_v32⟫ (ix2 p d) = min (Spec.lin (fun k => x3 (ix3 p 0 k)) x6 x7 d) (Spec.lin (fun k => x3 (ix3 p 1 k)) x6 x7 d) := by
  unfold s_v32
  rw [ld2 x6, ld1 x7]
  exact pay4_apply p x6 x7 x3 d

theorem v35_apply (k : Fin 128) : ⟪s_v35⟫ (ix2 p k) = x2 (ix3 p 2 k) := by
  unfold s_v35
  exact pay5_apply p x2 k

/-- The first predicate group: the minimum over its four slots. -/
theorem v63_apply (d : Fin 128) : ⟪s_v63⟫ (ix2 p d) = Spec.cond1 θ ρ d := by
  unfold s_v63 s_c18
  rw [ld1 x7, v1_eq]
  refine (pay6_apply p x6 x7 _ _ x2 d).trans ?_
  exact congrArg₂ min (congrArg₂ min (v31_apply p d)
    (congrArg (fun f => Spec.lin f x6 x7 d) (funext fun k => v35_apply p k))) rfl

/-- The second predicate group. -/
theorem v64_apply (d : Fin 128) : ⟪s_v64⟫ (ix2 p d) = Spec.cond2 θ ρ d := by
  unfold s_v64
  rw [ld1 x7, v1_eq]
  refine (pay7_apply p x6 x7 _ x3 d).trans ?_
  exact congrArg₂ min (congrArg₂ min (v32_apply p d) rfl) rfl

/-- The flag. -/
theorem v68_apply : ⟪s_v68⟫ (ix2 p (0 : Fin 1)) = (ρ).hc := by
  unfold s_v68
  rw [ld2 x0]
  exact pay9_apply p x0

/-- The left column pair. -/
theorem v69_apply (t : Fin 2) : ⟪s_v69⟫ (ix2 p t) = (ρ).lcc t := by
  unfold s_v69
  rw [ld2 x0]
  exact pay10_apply p x0 t

/-- The right column pair. -/
theorem v70_apply (t : Fin 2) : ⟪s_v70⟫ (ix2 p t) = (ρ).rcc t := by
  unfold s_v70
  rw [ld2 x0]
  exact pay11_apply p x0 t

/-- The operator embedding: the product plus the bias. -/
theorem opEmb_apply (k : Fin 128) : ⟪s_v74⟫ (ix2 p k) + ⟪s_v77⟫ (ix2 p k) = Spec.opEmb θ ρ k := by
  unfold s_v74 s_v77
  rw [ld2 x0, ld2 x4, ld1 x5]
  exact congrArg₂ (· + ·) (pay12_apply p x0 x4 k) (pay13_apply p x5 k)

/-- The node layer. -/
theorem v112_apply (j : Fin 256) : ⟪s_v112⟫ (ix2 p j) = Spec.node θ ρ j := by
  unfold s_v112
  rw [ld2 x1, ld2 x8, ld1 x9, ld2 x12, ld1 x13]
  exact pay14_apply p _ _ _ _ _ x1 x8 x9 x12 x13 (Spec.opEmb θ ρ) (Spec.cond1 θ ρ) (Spec.cond2 θ ρ) (ρ).hc
    (opEmb_apply p) (v63_apply p) (v64_apply p) (v68_apply p) j

/-- The left column-pair layer before its clamp. -/
theorem lpre_apply (k : Fin 64) : ⟪s_v117⟫ (ix2 p k) + ⟪s_v119⟫ (ix2 p k) = Spec.lin (ρ).lcc x10 x11 k := by
  unfold s_v117 s_v119
  rw [ld2 x10, ld1 x11]
  exact congrArg₂ (· + ·) ((pay16_apply p _ x10 k).trans
    (congrArg (fun f => Spec.dot f x10 k) (funext fun t => v69_apply p t))) (pay17_apply p x11 k)

/-- The second mixing layer. -/
theorem v158_apply (j : Fin 64) : ⟪s_v158⟫ (ix2 p j) = Spec.mix2 θ ρ j := by
  unfold s_v158
  rw [v114_eq, ld1 x11, ld2 x14, ld1 x15, ld2 x16, ld1 x17]
  exact pay18_apply p _ _ x10 x11 _ _ x14 x15 x16 x17 (Spec.node θ ρ) (Spec.lin (ρ).lcc x10 x11) (ρ).rcc
    (v112_apply p) (lpre_apply p) (v70_apply p) j

/-- The same narrowed. -/
theorem v159_apply (j : Fin 64) : ⟪s_v159⟫ (ix2 p j) = Spec.mix2 θ ρ j := by
  have h : ⟪s_v159⟫ (ix2 p j) = ⟪s_v158⟫ (ix2 p j) := rfl
  exact h.trans (v158_apply p j)

/-- The stored block at (p, q): the row's result. -/
theorem out_apply (q : Fin 2) : ⟪s_out⟫ (ix2 p q) = Spec.rowOut θ ρ q := by
  unfold s_out s_c71
  rw [v161_eq, ld1 x19, ld2 x20, ld1 x21, ld2 x22, ld1 x23, ld2 x24, ld1 x25]
  unfold Spec.rowOut
  by_cases hq : q.val = 0
  · rw [if_pos hq]
    exact pay1_left p _ _ x18 x19 x20 x21 x22 x23 x24 x25 (Spec.mix2 θ ρ) (v159_apply p) q hq
  · rw [if_neg hq]
    exact pay1_right p _ _ x18 x19 x20 x21 x22 x23 x24 x25 (Spec.mix2 θ ρ) (v158_apply p) q (by have := q.isLt; omega)

end Body

/-- What the body stores at (p, q) is the result of row p of the loaded blocks, whatever the blocks. -/
theorem s_out_apply (x0 : Vec Ideal S1024x128 .f32) (x1 : Vec Ideal S1024x1000 .f32) (x2 x3 : Vec Ideal S1024x4x128 .f32)
    (x4 : Vec Ideal S64x128 .f32) (x5 : Vec Ideal S128 .f32) (x6 : Vec Ideal S128x128 .f32) (x7 : Vec Ideal S128 .f32)
    (x8 : Vec Ideal S1000x128 .f32) (x9 : Vec Ideal S128 .f32) (x10 : Vec Ideal S2x64 .f32) (x11 : Vec Ideal S64 .f32)
    (x12 : Vec Ideal S512x256 .f32) (x13 : Vec Ideal S256 .f32) (x14 : Vec Ideal S384x128 .f32) (x15 : Vec Ideal S128 .f32)
    (x16 : Vec Ideal S128x64 .f32) (x17 : Vec Ideal S64 .f32) (x18 : Vec Ideal S64x32 .f32) (x19 : Vec Ideal S32 .f32)
    (x20 : Vec Ideal S32x1 .f32) (x21 : Vec Ideal S1 .f32) (x22 : Vec Ideal S64x32 .f32) (x23 : Vec Ideal S32 .f32)
    (x24 : Vec Ideal S32x1 .f32) (x25 : Vec Ideal S1 .f32) (p : Fin 1024) (q : Fin 2) :
    Cert.KernelIdeal.Body.s_out (F := Ideal) x0 x1 x2 x3 x4 x5 x6 x7 x8 x9 x10 x11 x12 x13 x14 x15 x16 x17 x18 x19 x20 x21 x22 x23 x24 x25 (ValueIdx.ix2 p q)
      = Cert.Spec.rowOut ⟨x4, x5, x6, x7, x8, x9, x10, x11, x12, x13, x14, x15, x16, x17, x18, x19, x20, x21, x22, x23, x24, x25⟩ (Cert.Spec.rowOfPacked x0 x1 x2 x3 p) q :=
  out_apply p q

end Cert.BodyIsSpec

end
-- ==== Proof.LibWriteOnce.lean ====
/-
  A straight line of host operations in which every buffer is written at most once.

  When each operation of a list writes exactly one buffer, no buffer is written by two of them, and every operand of an
  operation is either never written or written earlier in the list, the fold of the operations' results over any starting
  contents is a fixed point at every written buffer: what the line leaves in an operation's result buffer is the operation's
  function of what the line leaves in its operands' buffers, and a buffer the line never writes holds what it held. Stated
  per kind of operation (no operand, one, two, n, three, four), with the side conditions `reference ∉ the buffers written from
  position k on`, which are decided on literal lists. This reads a long straight-line program one operation at a time, with
  no term ever holding the whole composition.
-/
import Idealize.ShloMosaic.Lib.StableHlo.Run

noncomputable section

/-! ## A straight line of operations in which every buffer is written at most once

Every operation of the reference's @main writes one buffer, no buffer is written twice, and every operand is written before
it is read. Then what the line leaves in an operation's result buffer is the operation's function of what the line leaves in
its operands' buffers, and a buffer the line never writes holds what it held. -/

namespace Cert.RefSSA

open Idealize.ShloMosaic Idealize.ShloMosaic.StableHlo

variable {τ : Topo} {sig : RefSig} {Val : EltTy → Type}

theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Position by position, the operation writes exactly the listed reference. -/
abbrev Writes (l : List (HloOp τ sig Val)) (wl : List (Ref sig .tc)) : Prop :=
  List.Forall₂ (fun op r => op.writes = {Proc.devRef (τ := τ) .tc r}) l wl

theorem writes_mem {l : List (HloOp τ sig Val)} {wl : List (Ref sig .tc)} (h : Writes l wl) {op : HloOp τ sig Val} (hop : op ∈ l) :
    ∃ r ∈ wl, op.writes = {Proc.devRef (τ := τ) .tc r} := by
  induction h with
  | nil => cases hop
  | @cons o r l' wl' hw _ ih =>
    rcases List.mem_cons.mp hop with rfl | hop
    · exact ⟨r, List.mem_cons.mpr (Or.inl rfl), hw⟩
    · obtain ⟨r', hr', e⟩ := ih hop
      exact ⟨r', List.mem_cons.mpr (Or.inr hr'), e⟩

/-- A reference that is not listed keeps its contents. -/
theorem after_keep {l : List (HloOp τ sig Val)} {wl : List (Ref sig .tc)} (h : Writes l wl) {r : Ref sig .tc} (hr : r ∉ wl)
    (V : Valuation τ sig Val) : after l V (Proc.devRef .tc r) = V (Proc.devRef .tc r) := by
  refine after_of_forall_not_mem l V fun op hop hb => ?_
  obtain ⟨r', hr', e⟩ := writes_mem h hop
  rw [e, Finset.mem_singleton] at hb
  exact hr (by rw [Proc.devRef_injective _ hb]; exact hr')

theorem after_take_drop (l : List (HloOp τ sig Val)) (k : ℕ) (V : Valuation τ sig Val) :
    after l V = after (l.drop k) (after (l.take k) V) := by
  rw [← after_app, List.take_append_drop]

theorem after_at {l : List (HloOp τ sig Val)} {k : ℕ} {op : HloOp τ sig Val} (hop : l[k]? = some op) (V : Valuation τ sig Val) :
    after l V = after (l.drop (k + 1)) (op.result (after (l.take k) V)) := by
  obtain ⟨hk, e⟩ := List.getElem?_eq_some_iff.mp hop
  rw [after_take_drop l k V, List.drop_eq_getElem_cons hk, e, after_cons]

section
variable {l : List (HloOp τ sig Val)} {wl : List (Ref sig .tc)} (h : Writes l wl) (V : Valuation τ sig Val) (k : ℕ)
include h

/-- An operand not written from position k on holds, at the end, what it held before position k. -/
theorem operand_eq {a : Ref sig .tc} (ha : a ∉ wl.drop k) :
    after l V (Proc.devRef .tc a) = after (l.take k) V (Proc.devRef .tc a) := by
  rw [after_take_drop l k V]
  exact after_keep (List.forall₂_drop k h) ha _

/-- The result of the operation at position k, not written afterwards, holds at the end what that operation left. -/
theorem result_eq {op : HloOp τ sig Val} (hop : l[k]? = some op) {y : Ref sig .tc} (hy : y ∉ wl.drop (k + 1)) :
    after l V (Proc.devRef .tc y) = op.result (after (l.take k) V) (Proc.devRef .tc y) := by
  rw [after_at hop V]
  exact after_keep (List.forall₂_drop (k + 1) h) hy _

theorem ssa_nullary {y : Ref sig .tc} {v : y.ty.Contents Val} {hy}
    (hop : l[k]? = some (nullary y v hy)) (hy' : y ∉ wl.drop (k + 1)) :
    after l V (Proc.devRef .tc y) = v := by
  rw [result_eq h V k hop hy', nullary_result]

theorem ssa_unary {x y : Ref sig .tc} {f : x.ty.Contents Val → y.ty.Contents Val} {hx hy}
    (hop : l[k]? = some (unary x y f hx hy)) (hy' : y ∉ wl.drop (k + 1)) (hx' : x ∉ wl.drop k)
    (vx : x.ty.Contents Val) (ex : after l V (Proc.devRef .tc x) = vx) :
    after l V (Proc.devRef .tc y) = f vx := by
  rw [result_eq h V k hop hy', unary_result, ← operand_eq h V k hx', ex]

theorem ssa_binary {a b y : Ref sig .tc} {f : a.ty.Contents Val → b.ty.Contents Val → y.ty.Contents Val} {ha hb hy}
    (hop : l[k]? = some (binary a b y f ha hb hy)) (hy' : y ∉ wl.drop (k + 1)) (ha' : a ∉ wl.drop k) (hb' : b ∉ wl.drop k)
    (va : a.ty.Contents Val) (vb : b.ty.Contents Val)
    (ea : after l V (Proc.devRef .tc a) = va) (eb : after l V (Proc.devRef .tc b) = vb) :
    after l V (Proc.devRef .tc y) = f va vb := by
  rw [result_eq h V k hop hy', binary_result, ← operand_eq h V k ha', ← operand_eq h V k hb', ea, eb]

theorem ssa_nary {n : ℕ} {xs : Fin n → Ref sig .tc} {y : Ref sig .tc}
    {f : ((i : Fin n) → (xs i).ty.Contents Val) → y.ty.Contents Val} {hxs hy}
    (hop : l[k]? = some (nary xs y f hxs hy)) (hy' : y ∉ wl.drop (k + 1)) (hx' : ∀ i, xs i ∉ wl.drop k)
    (vs : (i : Fin n) → (xs i).ty.Contents Val) (es : ∀ i, after l V (Proc.devRef .tc (xs i)) = vs i) :
    after l V (Proc.devRef .tc y) = f vs := by
  rw [result_eq h V k hop hy', nary_result]
  exact congrArg f (funext fun i => by rw [← operand_eq h V k (hx' i), es i])

theorem ssa_nary4 {x0 x1 x2 x3 y : Ref sig .tc}
    {f : ((i : Fin 4) → ((![x0, x1, x2, x3] : Fin 4 → Ref sig .tc) i).ty.Contents Val) → y.ty.Contents Val} {hxs hy}
    (hop : l[k]? = some (nary ![x0, x1, x2, x3] y f hxs hy)) (hy' : y ∉ wl.drop (k + 1))
    (h0 : x0 ∉ wl.drop k) (h1 : x1 ∉ wl.drop k) (h2 : x2 ∉ wl.drop k) (h3 : x3 ∉ wl.drop k)
    (v0 : x0.ty.Contents Val) (v1 : x1.ty.Contents Val) (v2 : x2.ty.Contents Val) (v3 : x3.ty.Contents Val)
    (e0 : after l V (Proc.devRef .tc x0) = v0) (e1 : after l V (Proc.devRef .tc x1) = v1)
    (e2 : after l V (Proc.devRef .tc x2) = v2) (e3 : after l V (Proc.devRef .tc x3) = v3) :
    after l V (Proc.devRef .tc y) = f (Fin.cons v0 (Fin.cons v1 (Fin.cons v2 (Fin.cons v3 (fun i => i.elim0))))) :=
  ssa_nary h V k hop hy' (fun i => by fin_cases i; exacts [h0, h1, h2, h3]) _ (fun i => by fin_cases i; exacts [e0, e1, e2, e3])

theorem ssa_nary3 {x0 x1 x2 y : Ref sig .tc}
    {f : ((i : Fin 3) → ((![x0, x1, x2] : Fin 3 → Ref sig .tc) i).ty.Contents Val) → y.ty.Contents Val} {hxs hy}
    (hop : l[k]? = some (nary ![x0, x1, x2] y f hxs hy)) (hy' : y ∉ wl.drop (k + 1))
    (h0 : x0 ∉ wl.drop k) (h1 : x1 ∉ wl.drop k) (h2 : x2 ∉ wl.drop k)
    (v0 : x0.ty.Contents Val) (v1 : x1.ty.Contents Val) (v2 : x2.ty.Contents Val)
    (e0 : after l V (Proc.devRef .tc x0) = v0) (e1 : after l V (Proc.devRef .tc x1) = v1)
    (e2 : after l V (Proc.devRef .tc x2) = v2) :
    after l V (Proc.devRef .tc y) = f (Fin.cons v0 (Fin.cons v1 (Fin.cons v2 (fun i => i.elim0)))) :=
  ssa_nary h V k hop hy' (fun i => by fin_cases i; exacts [h0, h1, h2]) _ (fun i => by fin_cases i; exacts [e0, e1, e2])

end

end Cert.RefSSA

end
-- ==== Proof.RefRun.lean ====
/-
  The run of the reference program: its @main is a straight line of 99 host operations, each writing one buffer that no
  other operation writes, each reading only arguments and buffers written earlier. So after the line every result buffer
  holds its operation's function of what the operand buffers hold after the line, the arguments are unchanged, and the
  result buffer holds the last stage as a function of the arguments.
-/
import proofs.«135069_j84061099917535_2_alg».proof.Proof.RefRead
import proofs.«135069_j84061099917535_2_alg».proof.Proof.LibWriteOnce

noncomputable section

/-! ## The reference's @main, operation by operation -/

namespace Cert.ReferenceIdeal.Value

open Cert.ReferenceIdeal Cert.ReferenceIdeal.Gen Idealize.ShloMosaic Idealize.ShloMosaic.TcCoe Idealize.SL.Sem Idealize.ShloMosaic.StableHlo
open Cert.RefSSA Cert.ReferenceIdeal.Read

variable {F : FTy → Type} [FloatOps F]

/-- The buffer each of @main's 99 operations writes, in order. -/
abbrev written : List (Ref sig .tc) :=
  [main_v0, main_v1, main_v2, main_v3, main_cst, main_v4, main_v5, main_v6, main_v7, main_v8, main_cst_0, main_v9, main_v10, main_v11, main_v12, main_v13, main_v14, main_v15, main_v16, main_v17, main_v18, main_v19, main_v20, main_v21, main_v22, main_v23, main_v24, main_v25, main_call0_cst, main_call0_v0, main_v26, main_v27, main_v28, main_v29, main_v30, main_call1_cst, main_call1_v0, main_v31, main_v32, main_v33, main_v34, main_v35, main_call2_cst, main_call2_v0, main_v36, main_v37, main_v38, main_v39, main_v40, main_v41, main_call3_cst, main_call3_v0, main_v42, main_v43, main_v44, main_v45, main_v46, main_call4_cst, main_call4_v0, main_v47, main_v48, main_v49, main_v50, main_v51, main_call5_cst, main_call5_v0, main_v52, main_v53, main_v54, main_v55, main_v56, main_v57, main_v58, main_cst_1, main_v59, main_v60, main_cst_2, main_v61, main_v62, main_v63, main_v64, main_v65, main_v66, main_call6_cst, main_call6_v0, main_v67, main_v68, main_v69, main_v70, main_v71, main_v72, main_v73, main_cst_3, main_v74, main_v75, main_cst_4, main_v76, main_v77, main_v78]

theorem ops_writes : Writes (τ := τ) (ops (F := F)) written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))

/-- A four-piece concatenation of equal pieces. -/
theorem concat4_congr {α : Type} {t s0 s1 s2 s3 : Shape} (a : Fin t.rank) {p0 q0 : s0.Idx → α} {p1 q1 : s1.Idx → α}
    {p2 q2 : s2.Idx → α} {p3 q3 : s3.Idx → α} (h : Shape.Concatenates [s0, s1, s2, s3] t a)
    (e0 : p0 = q0) (e1 : p1 = q1) (e2 : p2 = q2) (e3 : p3 = q3) :
    concatenate t a [⟨s0, p0⟩, ⟨s1, p1⟩, ⟨s2, p2⟩, ⟨s3, p3⟩] h = concatenate t a [⟨s0, q0⟩, ⟨s1, q1⟩, ⟨s2, q2⟩, ⟨s3, q3⟩] h := by
  subst e0 e1 e2 e3; rfl

section
variable (m : (ℓ : Loc nD τ sig) → Buf (Elt F) ℓ) (c : Dev nD)

/-! The arguments are never written. -/

theorem a_main_arg0 : after (ops (F := F)) (launchContents m c) (Proc.devRef .tc main_arg0) = m ((c.tc : Thread nD τ).loc main_arg0) :=
  after_keep ops_writes (by decide) _
theorem a_main_arg1 : after (ops (F := F)) (launchContents m c) (Proc.devRef .tc main_arg1) = m ((c.tc : Thread nD τ).loc main_arg1) :=
  after_keep ops_writes (by decide) _
theorem a_main_arg2 : after (ops (F := F)) (launchContents m c) (Proc.devRef .tc main_arg2) = m ((c.tc : Thread nD τ).loc main_arg2) :=
  after_keep ops_writes (by decide) _
theorem a_main_arg3 : after (ops (F := F)) (launchContents m c) (Proc.devRef .tc main_arg3) = m ((c.tc : Thread nD τ).loc main_arg3) :=
  after_keep ops_writes (by decide) _
theorem a_main_arg4 : after (ops (F := F)) (launchContents m c) (Proc.devRef .tc main_arg4) = m ((c.tc : Thread nD τ).loc main_arg4) :=
  after_keep ops_writes (by decide) _
theorem a_main_arg5 : after (ops (F := F)) (launchContents m c) (Proc.devRef .tc main_arg5) = m ((c.tc : Thread nD τ).loc main_arg5) :=
  after_keep ops_writes (by decide) _
theorem a_main_arg6 : after (ops (F := F)) (launchContents m c) (Proc.devRef .tc main_arg6) = m ((c.tc : Thread nD τ).loc main_arg6) :=
  after_keep ops_writes (by decide) _
theorem a_main_arg7 : after (ops (F := F)) (launchContents m c) (Proc.devRef .tc main_arg7) = m ((c.tc : Thread nD τ).loc main_arg7) :=
  after_keep ops_writes (by decide) _
theorem a_main_arg8 : after (ops (F := F)) (launchContents m c) (Proc.devRef .tc main_arg8) = m ((c.tc : Thread nD τ).loc main_arg8) :=
  after_keep ops_writes (by decide) _
theorem a_main_arg9 : after (ops (F := F)) (launchContents m c) (Proc.devRef .tc main_arg9) = m ((c.tc : Thread nD τ).loc main_arg9) :=
  after_keep ops_writes (by decide) _
theorem a_main_arg10 : after (ops (F := F)) (launchContents m c) (Proc.devRef .tc main_arg10) = m ((c.tc : Thread nD τ).loc main_arg10) :=
  after_keep ops_writes (by decide) _
theorem a_main_arg11 : after (ops (F := F)) (launchContents m c) (Proc.devRef .tc main_arg11) = m ((c.tc : Thread nD τ).loc main_arg11) :=
  after_keep ops_writes (by decide) _
theorem a_main_arg12 : after (ops (F := F)) (launchContents m c) (Proc.devRef .tc main_arg12) = m ((c.tc : Thread nD τ).loc main_arg12) :=
  after_keep ops_writes (by decide) _
theorem a_main_arg13 : after (ops (F := F)) (launchContents m c) (Proc.devRef .tc main_arg13) = m ((c.tc : Thread nD τ).loc main_arg13) :=
  after_keep ops_writes (by decide) _
theorem a_main_arg14 : after (ops (F := F)) (launchContents m c) (Proc.devRef .tc main_arg14) = m ((c.tc : Thread nD τ).loc main_arg14) :=
  after_keep ops_writes (by decide) _
theorem a_main_arg15 : after (ops (F := F)) (launchContents m c) (Proc.devRef .tc main_arg15) = m ((c.tc : Thread nD τ).loc main_arg15) :=
  after_keep ops_writes (by decide) _
theorem a_main_arg16 : after (ops (F := F)) (launchContents m c) (Proc.devRef .tc main_arg16) = m ((c.tc : Thread nD τ).loc main_arg16) :=
  after_keep ops_writes (by decide) _
theorem a_main_arg17 : after (ops (F := F)) (launchContents m c) (Proc.devRef .tc main_arg17) = m ((c.tc : Thread nD τ).loc main_arg17) :=
  after_keep ops_writes (by decide) _
theorem a_main_arg18 : after (ops (F := F)) (launchContents m c) (Proc.devRef .tc main_arg18) = m ((c.tc : Thread nD τ).loc main_arg18) :=
  after_keep ops_writes (by decide) _
theorem a_main_arg19 : after (ops (F := F)) (launchContents m c) (Proc.devRef .tc main_arg19) = m ((c.tc : Thread nD τ).loc main_arg19) :=
  after_keep ops_writes (by decide) _
theorem a_main_arg20 : after (ops (F := F)) (launchContents m c) (Proc.devRef .tc main_arg20) = m ((c.tc : Thread nD τ).loc main_arg20) :=
  after_keep ops_writes (by decide) _
theorem a_main_arg21 : after (ops (F := F)) (launchContents m c) (Proc.devRef .tc main_arg21) = m ((c.tc : Thread nD τ).loc main_arg21) :=
  after_keep ops_writes (by decide) _
theorem a_main_arg22 : after (ops (F := F)) (launchContents m c) (Proc.devRef .tc main_arg22) = m ((c.tc : Thread nD τ).loc main_arg22) :=
  after_keep ops_writes (by decide) _
theorem a_main_arg23 : after (ops (F := F)) (launchContents m c) (Proc.devRef .tc main_arg23) = m ((c.tc : Thread nD τ).loc main_arg23) :=
  after_keep ops_writes (by decide) _
theorem a_main_arg24 : after (ops (F := F)) (launchContents m c) (Proc.devRef .tc main_arg24) = m ((c.tc : Thread nD τ).loc main_arg24) :=
  after_keep ops_writes (by decide) _
theorem a_main_arg25 : after (ops (F := F)) (launchContents m c) (Proc.devRef .tc main_arg25) = m ((c.tc : Thread nD τ).loc main_arg25) :=
  after_keep ops_writes (by decide) _
theorem a_main_arg26 : after (ops (F := F)) (launchContents m c) (Proc.devRef .tc main_arg26) = m ((c.tc : Thread nD τ).loc main_arg26) :=
  after_keep ops_writes (by decide) _
theorem a_main_arg27 : after (ops (F := F)) (launchContents m c) (Proc.devRef .tc main_arg27) = m ((c.tc : Thread nD τ).loc main_arg27) :=
  after_keep ops_writes (by decide) _
theorem a_main_arg28 : after (ops (F := F)) (launchContents m c) (Proc.devRef .tc main_arg28) = m ((c.tc : Thread nD τ).loc main_arg28) :=
  after_keep ops_writes (by decide) _
theorem a_main_arg29 : after (ops (F := F)) (launchContents m c) (Proc.devRef .tc main_arg29) = m ((c.tc : Thread nD τ).loc main_arg29) :=
  after_keep ops_writes (by decide) _

/-! Each operation's result buffer holds, at the end, the stage of the same name. -/

theorem s_main_v0 : after (ops (F := F)) (launchContents m c) (Proc.devRef .tc main_v0) = val_main_v0 (F := F) (m ((c.tc : Thread nD τ).loc main_arg4)) (m ((c.tc : Thread nD τ).loc main_arg10)) :=
  (ssa_binary ops_writes (launchContents m c) 0 (a := main_arg4) (b := main_arg10) (y := main_v0) rfl (by decide) (by decide) (by decide) _ _ (a_main_arg4 m c) (a_main_arg10 m c)).trans rfl
theorem s_main_v1 : after (ops (F := F)) (launchContents m c) (Proc.devRef .tc main_v1) = val_main_v1 (F := F) (m ((c.tc : Thread nD τ).loc main_arg11)) :=
  (ssa_unary ops_writes (launchContents m c) 1 (x := main_arg11) (y := main_v1) rfl (by decide) (by decide) _ (a_main_arg11 m c)).trans rfl
theorem s_main_v2 : after (ops (F := F)) (launchContents m c) (Proc.devRef .tc main_v2) = val_main_v2 (F := F) (m ((c.tc : Thread nD τ).loc main_arg11)) :=
  (ssa_unary ops_writes (launchContents m c) 2 (x := main_v1) (y := main_v2) rfl (by decide) (by decide) _ (s_main_v1 m c)).trans rfl
theorem s_main_v3 : after (ops (F := F)) (launchContents m c) (Proc.devRef .tc main_v3) = val_main_v3 (F := F) (m ((c.tc : Thread nD τ).loc main_arg4)) (m ((c.tc : Thread nD τ).loc main_arg10)) (m ((c.tc : Thread nD τ).loc main_arg11)) :=
  (ssa_binary ops_writes (launchContents m c) 3 (a := main_v0) (b := main_v2) (y := main_v3) rfl (by decide) (by decide) (by decide) _ _ (s_main_v0 m c) (s_main_v2 m c)).trans rfl
theorem s_main_cst : after (ops (F := F)) (launchContents m c) (Proc.devRef .tc main_cst) = val_main_cst (F := F) :=
  (ssa_nullary ops_writes (launchContents m c) 4 (y := main_cst) rfl (by decide)).trans rfl
theorem s_main_v4 : after (ops (F := F)) (launchContents m c) (Proc.devRef .tc main_v4) = val_main_v4 (F := F) (m ((c.tc : Thread nD τ).loc main_arg4)) (m ((c.tc : Thread nD τ).loc main_arg10)) (m ((c.tc : Thread nD τ).loc main_arg11)) :=
  (ssa_binary ops_writes (launchContents m c) 5 (a := main_v3) (b := main_cst) (y := main_v4) rfl (by decide) (by decide) (by decide) _ _ (s_main_v3 m c) (s_main_cst m c)).trans rfl
theorem s_main_v5 : after (ops (F := F)) (launchContents m c) (Proc.devRef .tc main_v5) = val_main_v5 (F := F) (m ((c.tc : Thread nD τ).loc main_arg5)) (m ((c.tc : Thread nD τ).loc main_arg10)) :=
  (ssa_binary ops_writes (launchContents m c) 6 (a := main_arg5) (b := main_arg10) (y := main_v5) rfl (by decide) (by decide) (by decide) _ _ (a_main_arg5 m c) (a_main_arg10 m c)).trans rfl
theorem s_main_v6 : after (ops (F := F)) (launchContents m c) (Proc.devRef .tc main_v6) = val_main_v6 (F := F) (m ((c.tc : Thread nD τ).loc main_arg11)) :=
  (ssa_unary ops_writes (launchContents m c) 7 (x := main_arg11) (y := main_v6) rfl (by decide) (by decide) _ (a_main_arg11 m c)).trans rfl
theorem s_main_v7 : after (ops (F := F)) (launchContents m c) (Proc.devRef .tc main_v7) = val_main_v7 (F := F) (m ((c.tc : Thread nD τ).loc main_arg11)) :=
  (ssa_unary ops_writes (launchContents m c) 8 (x := main_v6) (y := main_v7) rfl (by decide) (by decide) _ (s_main_v6 m c)).trans rfl
theorem s_main_v8 : after (ops (F := F)) (launchContents m c) (Proc.devRef .tc main_v8) = val_main_v8 (F := F) (m ((c.tc : Thread nD τ).loc main_arg5)) (m ((c.tc : Thread nD τ).loc main_arg10)) (m ((c.tc : Thread nD τ).loc main_arg11)) :=
  (ssa_binary ops_writes (launchContents m c) 9 (a := main_v5) (b := main_v7) (y := main_v8) rfl (by decide) (by decide) (by decide) _ _ (s_main_v5 m c) (s_main_v7 m c)).trans rfl
theorem s_main_cst_0 : after (ops (F := F)) (launchContents m c) (Proc.devRef .tc main_cst_0) = val_main_cst_0 (F := F) :=
  (ssa_nullary ops_writes (launchContents m c) 10 (y := main_cst_0) rfl (by decide)).trans rfl
theorem s_main_v9 : after (ops (F := F)) (launchContents m c) (Proc.devRef .tc main_v9) = val_main_v9 (F := F) (m ((c.tc : Thread nD τ).loc main_arg5)) (m ((c.tc : Thread nD τ).loc main_arg10)) (m ((c.tc : Thread nD τ).loc main_arg11)) :=
  (ssa_binary ops_writes (launchContents m c) 11 (a := main_v8) (b := main_cst_0) (y := main_v9) rfl (by decide) (by decide) (by decide) _ _ (s_main_v8 m c) (s_main_cst_0 m c)).trans rfl
theorem s_main_v10 : after (ops (F := F)) (launchContents m c) (Proc.devRef .tc main_v10) = val_main_v10 (F := F) (m ((c.tc : Thread nD τ).loc main_arg0)) (m ((c.tc : Thread nD τ).loc main_arg1)) :=
  (ssa_binary ops_writes (launchContents m c) 12 (a := main_arg0) (b := main_arg1) (y := main_v10) rfl (by decide) (by decide) (by decide) _ _ (a_main_arg0 m c) (a_main_arg1 m c)).trans rfl
theorem s_main_v11 : after (ops (F := F)) (launchContents m c) (Proc.devRef .tc main_v11) = val_main_v11 (F := F) (m ((c.tc : Thread nD τ).loc main_arg0)) (m ((c.tc : Thread nD τ).loc main_arg1)) (m ((c.tc : Thread nD τ).loc main_arg8)) :=
  (ssa_binary ops_writes (launchContents m c) 13 (a := main_v10) (b := main_arg8) (y := main_v11) rfl (by decide) (by decide) (by decide) _ _ (s_main_v10 m c) (a_main_arg8 m c)).trans rfl
theorem s_main_v12 : after (ops (F := F)) (launchContents m c) (Proc.devRef .tc main_v12) = val_main_v12 (F := F) (m ((c.tc : Thread nD τ).loc main_arg9)) :=
  (ssa_unary ops_writes (launchContents m c) 14 (x := main_arg9) (y := main_v12) rfl (by decide) (by decide) _ (a_main_arg9 m c)).trans rfl
theorem s_main_v13 : after (ops (F := F)) (launchContents m c) (Proc.devRef .tc main_v13) = val_main_v13 (F := F) (m ((c.tc : Thread nD τ).loc main_arg9)) :=
  (ssa_unary ops_writes (launchContents m c) 15 (x := main_v12) (y := main_v13) rfl (by decide) (by decide) _ (s_main_v12 m c)).trans rfl
theorem s_main_v14 : after (ops (F := F)) (launchContents m c) (Proc.devRef .tc main_v14) = val_main_v14 (F := F) (m ((c.tc : Thread nD τ).loc main_arg0)) (m ((c.tc : Thread nD τ).loc main_arg1)) (m ((c.tc : Thread nD τ).loc main_arg8)) (m ((c.tc : Thread nD τ).loc main_arg9)) :=
  (ssa_binary ops_writes (launchContents m c) 16 (a := main_v11) (b := main_v13) (y := main_v14) rfl (by decide) (by decide) (by decide) _ _ (s_main_v11 m c) (s_main_v13 m c)).trans rfl
theorem s_main_v15 : after (ops (F := F)) (launchContents m c) (Proc.devRef .tc main_v15) = val_main_v15 (F := F) (m ((c.tc : Thread nD τ).loc main_arg2)) (m ((c.tc : Thread nD τ).loc main_arg12)) :=
  (ssa_binary ops_writes (launchContents m c) 17 (a := main_arg2) (b := main_arg12) (y := main_v15) rfl (by decide) (by decide) (by decide) _ _ (a_main_arg2 m c) (a_main_arg12 m c)).trans rfl
theorem s_main_v16 : after (ops (F := F)) (launchContents m c) (Proc.devRef .tc main_v16) = val_main_v16 (F := F) (m ((c.tc : Thread nD τ).loc main_arg13)) :=
  (ssa_unary ops_writes (launchContents m c) 18 (x := main_arg13) (y := main_v16) rfl (by decide) (by decide) _ (a_main_arg13 m c)).trans rfl
theorem s_main_v17 : after (ops (F := F)) (launchContents m c) (Proc.devRef .tc main_v17) = val_main_v17 (F := F) (m ((c.tc : Thread nD τ).loc main_arg13)) :=
  (ssa_unary ops_writes (launchContents m c) 19 (x := main_v16) (y := main_v17) rfl (by decide) (by decide) _ (s_main_v16 m c)).trans rfl
theorem s_main_v18 : after (ops (F := F)) (launchContents m c) (Proc.devRef .tc main_v18) = val_main_v18 (F := F) (m ((c.tc : Thread nD τ).loc main_arg2)) (m ((c.tc : Thread nD τ).loc main_arg12)) (m ((c.tc : Thread nD τ).loc main_arg13)) :=
  (ssa_binary ops_writes (launchContents m c) 20 (a := main_v15) (b := main_v17) (y := main_v18) rfl (by decide) (by decide) (by decide) _ _ (s_main_v15 m c) (s_main_v17 m c)).trans rfl
theorem s_main_v19 : after (ops (F := F)) (launchContents m c) (Proc.devRef .tc main_v19) = val_main_v19 (F := F) (m ((c.tc : Thread nD τ).loc main_arg3)) :=
  (ssa_unary ops_writes (launchContents m c) 21 (x := main_arg3) (y := main_v19) rfl (by decide) (by decide) _ (a_main_arg3 m c)).trans rfl
theorem s_main_v20 : after (ops (F := F)) (launchContents m c) (Proc.devRef .tc main_v20) = val_main_v20 (F := F) (m ((c.tc : Thread nD τ).loc main_arg2)) (m ((c.tc : Thread nD τ).loc main_arg3)) (m ((c.tc : Thread nD τ).loc main_arg12)) (m ((c.tc : Thread nD τ).loc main_arg13)) :=
  (ssa_binary ops_writes (launchContents m c) 22 (a := main_v18) (b := main_v19) (y := main_v20) rfl (by decide) (by decide) (by decide) _ _ (s_main_v18 m c) (s_main_v19 m c)).trans rfl
theorem s_main_v21 : after (ops (F := F)) (launchContents m c) (Proc.devRef .tc main_v21) = val_main_v21 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (ssa_nary ops_writes (launchContents m c) 23 (xs := ![main_v14, main_v4, main_v9, main_v20]) (y := main_v21) rfl (by decide)
    (by decide) _ (fun _ => rfl)).trans ?_
  unfold val_main_v21
  exact concat4_congr 1 concatenates_S65536x128_S65536x128_S65536x128_S65536x128_S65536x512_d1
    (s_main_v14 m c) (s_main_v4 m c) (s_main_v9 m c) (s_main_v20 m c)
theorem s_main_v22 : after (ops (F := F)) (launchContents m c) (Proc.devRef .tc main_v22) = val_main_v22 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) :=
  (ssa_binary ops_writes (launchContents m c) 24 (a := main_v21) (b := main_arg16) (y := main_v22) rfl (by decide) (by decide) (by decide) _ _ (s_main_v21 m c) (a_main_arg16 m c)).trans rfl
theorem s_main_v23 : after (ops (F := F)) (launchContents m c) (Proc.devRef .tc main_v23) = val_main_v23 (F := F) (m ((c.tc : Thread nD τ).loc main_arg17)) :=
  (ssa_unary ops_writes (launchContents m c) 25 (x := main_arg17) (y := main_v23) rfl (by decide) (by decide) _ (a_main_arg17 m c)).trans rfl
theorem s_main_v24 : after (ops (F := F)) (launchContents m c) (Proc.devRef .tc main_v24) = val_main_v24 (F := F) (m ((c.tc : Thread nD τ).loc main_arg17)) :=
  (ssa_unary ops_writes (launchContents m c) 26 (x := main_v23) (y := main_v24) rfl (by decide) (by decide) _ (s_main_v23 m c)).trans rfl
theorem s_main_v25 : after (ops (F := F)) (launchContents m c) (Proc.devRef .tc main_v25) = val_main_v25 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) :=
  (ssa_binary ops_writes (launchContents m c) 27 (a := main_v22) (b := main_v24) (y := main_v25) rfl (by decide) (by decide) (by decide) _ _ (s_main_v22 m c) (s_main_v24 m c)).trans rfl
theorem s_main_call0_cst : after (ops (F := F)) (launchContents m c) (Proc.devRef .tc main_call0_cst) = val_main_call0_cst (F := F) :=
  (ssa_nullary ops_writes (launchContents m c) 28 (y := main_call0_cst) rfl (by decide)).trans rfl
theorem s_main_call0_v0 : after (ops (F := F)) (launchContents m c) (Proc.devRef .tc main_call0_v0) = val_main_call0_v0 (F := F) :=
  (ssa_unary ops_writes (launchContents m c) 29 (x := main_call0_cst) (y := main_call0_v0) rfl (by decide) (by decide) _ (s_main_call0_cst m c)).trans rfl
theorem s_main_v26 : after (ops (F := F)) (launchContents m c) (Proc.devRef .tc main_v26) = val_main_v26 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) :=
  (ssa_binary ops_writes (launchContents m c) 30 (a := main_v25) (b := main_call0_v0) (y := main_v26) rfl (by decide) (by decide) (by decide) _ _ (s_main_v25 m c) (s_main_call0_v0 m c)).trans rfl
theorem s_main_v27 : after (ops (F := F)) (launchContents m c) (Proc.devRef .tc main_v27) = val_main_v27 (F := F) (m ((c.tc : Thread nD τ).loc main_arg6)) (m ((c.tc : Thread nD τ).loc main_arg14)) :=
  (ssa_binary ops_writes (launchContents m c) 31 (a := main_arg6) (b := main_arg14) (y := main_v27) rfl (by decide) (by decide) (by decide) _ _ (a_main_arg6 m c) (a_main_arg14 m c)).trans rfl
theorem s_main_v28 : after (ops (F := F)) (launchContents m c) (Proc.devRef .tc main_v28) = val_main_v28 (F := F) (m ((c.tc : Thread nD τ).loc main_arg15)) :=
  (ssa_unary ops_writes (launchContents m c) 32 (x := main_arg15) (y := main_v28) rfl (by decide) (by decide) _ (a_main_arg15 m c)).trans rfl
theorem s_main_v29 : after (ops (F := F)) (launchContents m c) (Proc.devRef .tc main_v29) = val_main_v29 (F := F) (m ((c.tc : Thread nD τ).loc main_arg15)) :=
  (ssa_unary ops_writes (launchContents m c) 33 (x := main_v28) (y := main_v29) rfl (by decide) (by decide) _ (s_main_v28 m c)).trans rfl
theorem s_main_v30 : after (ops (F := F)) (launchContents m c) (Proc.devRef .tc main_v30) = val_main_v30 (F := F) (m ((c.tc : Thread nD τ).loc main_arg6)) (m ((c.tc : Thread nD τ).loc main_arg14)) (m ((c.tc : Thread nD τ).loc main_arg15)) :=
  (ssa_binary ops_writes (launchContents m c) 34 (a := main_v27) (b := main_v29) (y := main_v30) rfl (by decide) (by decide) (by decide) _ _ (s_main_v27 m c) (s_main_v29 m c)).trans rfl
theorem s_main_call1_cst : after (ops (F := F)) (launchContents m c) (Proc.devRef .tc main_call1_cst) = val_main_call1_cst (F := F) :=
  (ssa_nullary ops_writes (launchContents m c) 35 (y := main_call1_cst) rfl (by decide)).trans rfl
theorem s_main_call1_v0 : after (ops (F := F)) (launchContents m c) (Proc.devRef .tc main_call1_v0) = val_main_call1_v0 (F := F) :=
  (ssa_unary ops_writes (launchContents m c) 36 (x := main_call1_cst) (y := main_call1_v0) rfl (by decide) (by decide) _ (s_main_call1_cst m c)).trans rfl
theorem s_main_v31 : after (ops (F := F)) (launchContents m c) (Proc.devRef .tc main_v31) = val_main_v31 (F := F) (m ((c.tc : Thread nD τ).loc main_arg6)) (m ((c.tc : Thread nD τ).loc main_arg14)) (m ((c.tc : Thread nD τ).loc main_arg15)) :=
  (ssa_binary ops_writes (launchContents m c) 37 (a := main_v30) (b := main_call1_v0) (y := main_v31) rfl (by decide) (by decide) (by decide) _ _ (s_main_v30 m c) (s_main_call1_v0 m c)).trans rfl
theorem s_main_v32 : after (ops (F := F)) (launchContents m c) (Proc.devRef .tc main_v32) = val_main_v32 (F := F) (m ((c.tc : Thread nD τ).loc main_arg7)) (m ((c.tc : Thread nD τ).loc main_arg14)) :=
  (ssa_binary ops_writes (launchContents m c) 38 (a := main_arg7) (b := main_arg14) (y := main_v32) rfl (by decide) (by decide) (by decide) _ _ (a_main_arg7 m c) (a_main_arg14 m c)).trans rfl
theorem s_main_v33 : after (ops (F := F)) (launchContents m c) (Proc.devRef .tc main_v33) = val_main_v33 (F := F) (m ((c.tc : Thread nD τ).loc main_arg15)) :=
  (ssa_unary ops_writes (launchContents m c) 39 (x := main_arg15) (y := main_v33) rfl (by decide) (by decide) _ (a_main_arg15 m c)).trans rfl
theorem s_main_v34 : after (ops (F := F)) (launchContents m c) (Proc.devRef .tc main_v34) = val_main_v34 (F := F) (m ((c.tc : Thread nD τ).loc main_arg15)) :=
  (ssa_unary ops_writes (launchContents m c) 40 (x := main_v33) (y := main_v34) rfl (by decide) (by decide) _ (s_main_v33 m c)).trans rfl
theorem s_main_v35 : after (ops (F := F)) (launchContents m c) (Proc.devRef .tc main_v35) = val_main_v35 (F := F) (m ((c.tc : Thread nD τ).loc main_arg7)) (m ((c.tc : Thread nD τ).loc main_arg14)) (m ((c.tc : Thread nD τ).loc main_arg15)) :=
  (ssa_binary ops_writes (launchContents m c) 41 (a := main_v32) (b := main_v34) (y := main_v35) rfl (by decide) (by decide) (by decide) _ _ (s_main_v32 m c) (s_main_v34 m c)).trans rfl
theorem s_main_call2_cst : after (ops (F := F)) (launchContents m c) (Proc.devRef .tc main_call2_cst) = val_main_call2_cst (F := F) :=
  (ssa_nullary ops_writes (launchContents m c) 42 (y := main_call2_cst) rfl (by decide)).trans rfl
theorem s_main_call2_v0 : after (ops (F := F)) (launchContents m c) (Proc.devRef .tc main_call2_v0) = val_main_call2_v0 (F := F) :=
  (ssa_unary ops_writes (launchContents m c) 43 (x := main_call2_cst) (y := main_call2_v0) rfl (by decide) (by decide) _ (s_main_call2_cst m c)).trans rfl
theorem s_main_v36 : after (ops (F := F)) (launchContents m c) (Proc.devRef .tc main_v36) = val_main_v36 (F := F) (m ((c.tc : Thread nD τ).loc main_arg7)) (m ((c.tc : Thread nD τ).loc main_arg14)) (m ((c.tc : Thread nD τ).loc main_arg15)) :=
  (ssa_binary ops_writes (launchContents m c) 44 (a := main_v35) (b := main_call2_v0) (y := main_v36) rfl (by decide) (by decide) (by decide) _ _ (s_main_v35 m c) (s_main_call2_v0 m c)).trans rfl
theorem s_main_v37 : after (ops (F := F)) (launchContents m c) (Proc.devRef .tc main_v37) = val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (ssa_nary3 ops_writes (launchContents m c) 45 (x0 := main_v26) (x1 := main_v31) (x2 := main_v36) (y := main_v37) rfl (by decide) (by decide) (by decide) (by decide) _ _ _ (s_main_v26 m c) (s_main_v31 m c) (s_main_v36 m c)).trans rfl
theorem s_main_v38 : after (ops (F := F)) (launchContents m c) (Proc.devRef .tc main_v38) = val_main_v38 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  (ssa_binary ops_writes (launchContents m c) 46 (a := main_v37) (b := main_arg18) (y := main_v38) rfl (by decide) (by decide) (by decide) _ _ (s_main_v37 m c) (a_main_arg18 m c)).trans rfl
theorem s_main_v39 : after (ops (F := F)) (launchContents m c) (Proc.devRef .tc main_v39) = val_main_v39 (F := F) (m ((c.tc : Thread nD τ).loc main_arg19)) :=
  (ssa_unary ops_writes (launchContents m c) 47 (x := main_arg19) (y := main_v39) rfl (by decide) (by decide) _ (a_main_arg19 m c)).trans rfl
theorem s_main_v40 : after (ops (F := F)) (launchContents m c) (Proc.devRef .tc main_v40) = val_main_v40 (F := F) (m ((c.tc : Thread nD τ).loc main_arg19)) :=
  (ssa_unary ops_writes (launchContents m c) 48 (x := main_v39) (y := main_v40) rfl (by decide) (by decide) _ (s_main_v39 m c)).trans rfl
theorem s_main_v41 : after (ops (F := F)) (launchContents m c) (Proc.devRef .tc main_v41) = val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (ssa_binary ops_writes (launchContents m c) 49 (a := main_v38) (b := main_v40) (y := main_v41) rfl (by decide) (by decide) (by decide) _ _ (s_main_v38 m c) (s_main_v40 m c)).trans rfl
theorem s_main_call3_cst : after (ops (F := F)) (launchContents m c) (Proc.devRef .tc main_call3_cst) = val_main_call3_cst (F := F) :=
  (ssa_nullary ops_writes (launchContents m c) 50 (y := main_call3_cst) rfl (by decide)).trans rfl
theorem s_main_call3_v0 : after (ops (F := F)) (launchContents m c) (Proc.devRef .tc main_call3_v0) = val_main_call3_v0 (F := F) :=
  (ssa_unary ops_writes (launchContents m c) 51 (x := main_call3_cst) (y := main_call3_v0) rfl (by decide) (by decide) _ (s_main_call3_cst m c)).trans rfl
theorem s_main_v42 : after (ops (F := F)) (launchContents m c) (Proc.devRef .tc main_v42) = val_main_v42 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (ssa_binary ops_writes (launchContents m c) 52 (a := main_v41) (b := main_call3_v0) (y := main_v42) rfl (by decide) (by decide) (by decide) _ _ (s_main_v41 m c) (s_main_call3_v0 m c)).trans rfl
theorem s_main_v43 : after (ops (F := F)) (launchContents m c) (Proc.devRef .tc main_v43) = val_main_v43 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (ssa_binary ops_writes (launchContents m c) 53 (a := main_v42) (b := main_arg20) (y := main_v43) rfl (by decide) (by decide) (by decide) _ _ (s_main_v42 m c) (a_main_arg20 m c)).trans rfl
theorem s_main_v44 : after (ops (F := F)) (launchContents m c) (Proc.devRef .tc main_v44) = val_main_v44 (F := F) (m ((c.tc : Thread nD τ).loc main_arg21)) :=
  (ssa_unary ops_writes (launchContents m c) 54 (x := main_arg21) (y := main_v44) rfl (by decide) (by decide) _ (a_main_arg21 m c)).trans rfl
theorem s_main_v45 : after (ops (F := F)) (launchContents m c) (Proc.devRef .tc main_v45) = val_main_v45 (F := F) (m ((c.tc : Thread nD τ).loc main_arg21)) :=
  (ssa_unary ops_writes (launchContents m c) 55 (x := main_v44) (y := main_v45) rfl (by decide) (by decide) _ (s_main_v44 m c)).trans rfl
theorem s_main_v46 : after (ops (F := F)) (launchContents m c) (Proc.devRef .tc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  (ssa_binary ops_writes (launchContents m c) 56 (a := main_v43) (b := main_v45) (y := main_v46) rfl (by decide) (by decide) (by decide) _ _ (s_main_v43 m c) (s_main_v45 m c)).trans rfl
theorem s_main_call4_cst : after (ops (F := F)) (launchContents m c) (Proc.devRef .tc main_call4_cst) = val_main_call4_cst (F := F) :=
  (ssa_nullary ops_writes (launchContents m c) 57 (y := main_call4_cst) rfl (by decide)).trans rfl
theorem s_main_call4_v0 : after (ops (F := F)) (launchContents m c) (Proc.devRef .tc main_call4_v0) = val_main_call4_v0 (F := F) :=
  (ssa_unary ops_writes (launchContents m c) 58 (x := main_call4_cst) (y := main_call4_v0) rfl (by decide) (by decide) _ (s_main_call4_cst m c)).trans rfl
theorem s_main_v47 : after (ops (F := F)) (launchContents m c) (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  (ssa_binary ops_writes (launchContents m c) 59 (a := main_v46) (b := main_call4_v0) (y := main_v47) rfl (by decide) (by decide) (by decide) _ _ (s_main_v46 m c) (s_main_call4_v0 m c)).trans rfl
theorem s_main_v48 : after (ops (F := F)) (launchContents m c) (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (ssa_binary ops_writes (launchContents m c) 60 (a := main_v47) (b := main_arg22) (y := main_v48) rfl (by decide) (by decide) (by decide) _ _ (s_main_v47 m c) (a_main_arg22 m c)).trans rfl
theorem s_main_v49 : after (ops (F := F)) (launchContents m c) (Proc.devRef .tc main_v49) = val_main_v49 (F := F) (m ((c.tc : Thread nD τ).loc main_arg23)) :=
  (ssa_unary ops_writes (launchContents m c) 61 (x := main_arg23) (y := main_v49) rfl (by decide) (by decide) _ (a_main_arg23 m c)).trans rfl
theorem s_main_v50 : after (ops (F := F)) (launchContents m c) (Proc.devRef .tc main_v50) = val_main_v50 (F := F) (m ((c.tc : Thread nD τ).loc main_arg23)) :=
  (ssa_unary ops_writes (launchContents m c) 62 (x := main_v49) (y := main_v50) rfl (by decide) (by decide) _ (s_main_v49 m c)).trans rfl
theorem s_main_v51 : after (ops (F := F)) (launchContents m c) (Proc.devRef .tc main_v51) = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  (ssa_binary ops_writes (launchContents m c) 63 (a := main_v48) (b := main_v50) (y := main_v51) rfl (by decide) (by decide) (by decide) _ _ (s_main_v48 m c) (s_main_v50 m c)).trans rfl
theorem s_main_call5_cst : after (ops (F := F)) (launchContents m c) (Proc.devRef .tc main_call5_cst) = val_main_call5_cst (F := F) :=
  (ssa_nullary ops_writes (launchContents m c) 64 (y := main_call5_cst) rfl (by decide)).trans rfl
theorem s_main_call5_v0 : after (ops (F := F)) (launchContents m c) (Proc.devRef .tc main_call5_v0) = val_main_call5_v0 (F := F) :=
  (ssa_unary ops_writes (launchContents m c) 65 (x := main_call5_cst) (y := main_call5_v0) rfl (by decide) (by decide) _ (s_main_call5_cst m c)).trans rfl
theorem s_main_v52 : after (ops (F := F)) (launchContents m c) (Proc.devRef .tc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  (ssa_binary ops_writes (launchContents m c) 66 (a := main_v51) (b := main_call5_v0) (y := main_v52) rfl (by decide) (by decide) (by decide) _ _ (s_main_v51 m c) (s_main_call5_v0 m c)).trans rfl
theorem s_main_v53 : after (ops (F := F)) (launchContents m c) (Proc.devRef .tc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (ssa_binary ops_writes (launchContents m c) 67 (a := main_v52) (b := main_arg24) (y := main_v53) rfl (by decide) (by decide) (by decide) _ _ (s_main_v52 m c) (a_main_arg24 m c)).trans rfl
theorem s_main_v54 : after (ops (F := F)) (launchContents m c) (Proc.devRef .tc main_v54) = val_main_v54 (F := F) (m ((c.tc : Thread nD τ).loc main_arg25)) :=
  (ssa_unary ops_writes (launchContents m c) 68 (x := main_arg25) (y := main_v54) rfl (by decide) (by decide) _ (a_main_arg25 m c)).trans rfl
theorem s_main_v55 : after (ops (F := F)) (launchContents m c) (Proc.devRef .tc main_v55) = val_main_v55 (F := F) (m ((c.tc : Thread nD τ).loc main_arg25)) :=
  (ssa_unary ops_writes (launchContents m c) 69 (x := main_v54) (y := main_v55) rfl (by decide) (by decide) _ (s_main_v54 m c)).trans rfl
theorem s_main_v56 : after (ops (F := F)) (launchContents m c) (Proc.devRef .tc main_v56) = val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (ssa_binary ops_writes (launchContents m c) 70 (a := main_v53) (b := main_v55) (y := main_v56) rfl (by decide) (by decide) (by decide) _ _ (s_main_v53 m c) (s_main_v55 m c)).trans rfl
theorem s_main_v57 : after (ops (F := F)) (launchContents m c) (Proc.devRef .tc main_v57) = val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (ssa_unary ops_writes (launchContents m c) 71 (x := main_v56) (y := main_v57) rfl (by decide) (by decide) _ (s_main_v56 m c)).trans rfl
theorem s_main_v58 : after (ops (F := F)) (launchContents m c) (Proc.devRef .tc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (ssa_unary ops_writes (launchContents m c) 72 (x := main_v57) (y := main_v58) rfl (by decide) (by decide) _ (s_main_v57 m c)).trans rfl
theorem s_main_cst_1 : after (ops (F := F)) (launchContents m c) (Proc.devRef .tc main_cst_1) = val_main_cst_1 (F := F) :=
  (ssa_nullary ops_writes (launchContents m c) 73 (y := main_cst_1) rfl (by decide)).trans rfl
theorem s_main_v59 : after (ops (F := F)) (launchContents m c) (Proc.devRef .tc main_v59) = val_main_v59 (F := F) :=
  (ssa_unary ops_writes (launchContents m c) 74 (x := main_cst_1) (y := main_v59) rfl (by decide) (by decide) _ (s_main_cst_1 m c)).trans rfl
theorem s_main_v60 : after (ops (F := F)) (launchContents m c) (Proc.devRef .tc main_v60) = val_main_v60 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (ssa_binary ops_writes (launchContents m c) 75 (a := main_v59) (b := main_v58) (y := main_v60) rfl (by decide) (by decide) (by decide) _ _ (s_main_v59 m c) (s_main_v58 m c)).trans rfl
theorem s_main_cst_2 : after (ops (F := F)) (launchContents m c) (Proc.devRef .tc main_cst_2) = val_main_cst_2 (F := F) :=
  (ssa_nullary ops_writes (launchContents m c) 76 (y := main_cst_2) rfl (by decide)).trans rfl
theorem s_main_v61 : after (ops (F := F)) (launchContents m c) (Proc.devRef .tc main_v61) = val_main_v61 (F := F) :=
  (ssa_unary ops_writes (launchContents m c) 77 (x := main_cst_2) (y := main_v61) rfl (by decide) (by decide) _ (s_main_cst_2 m c)).trans rfl
theorem s_main_v62 : after (ops (F := F)) (launchContents m c) (Proc.devRef .tc main_v62) = val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (ssa_binary ops_writes (launchContents m c) 78 (a := main_v61) (b := main_v60) (y := main_v62) rfl (by decide) (by decide) (by decide) _ _ (s_main_v61 m c) (s_main_v60 m c)).trans rfl
theorem s_main_v63 : after (ops (F := F)) (launchContents m c) (Proc.devRef .tc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg26)) :=
  (ssa_binary ops_writes (launchContents m c) 79 (a := main_v47) (b := main_arg26) (y := main_v63) rfl (by decide) (by decide) (by decide) _ _ (s_main_v47 m c) (a_main_arg26 m c)).trans rfl
theorem s_main_v64 : after (ops (F := F)) (launchContents m c) (Proc.devRef .tc main_v64) = val_main_v64 (F := F) (m ((c.tc : Thread nD τ).loc main_arg27)) :=
  (ssa_unary ops_writes (launchContents m c) 80 (x := main_arg27) (y := main_v64) rfl (by decide) (by decide) _ (a_main_arg27 m c)).trans rfl
theorem s_main_v65 : after (ops (F := F)) (launchContents m c) (Proc.devRef .tc main_v65) = val_main_v65 (F := F) (m ((c.tc : Thread nD τ).loc main_arg27)) :=
  (ssa_unary ops_writes (launchContents m c) 81 (x := main_v64) (y := main_v65) rfl (by decide) (by decide) _ (s_main_v64 m c)).trans rfl
theorem s_main_v66 : after (ops (F := F)) (launchContents m c) (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg26)) (m ((c.tc : Thread nD τ).loc main_arg27)) :=
  (ssa_binary ops_writes (launchContents m c) 82 (a := main_v63) (b := main_v65) (y := main_v66) rfl (by decide) (by decide) (by decide) _ _ (s_main_v63 m c) (s_main_v65 m c)).trans rfl
theorem s_main_call6_cst : after (ops (F := F)) (launchContents m c) (Proc.devRef .tc main_call6_cst) = val_main_call6_cst (F := F) :=
  (ssa_nullary ops_writes (launchContents m c) 83 (y := main_call6_cst) rfl (by decide)).trans rfl
theorem s_main_call6_v0 : after (ops (F := F)) (launchContents m c) (Proc.devRef .tc main_call6_v0) = val_main_call6_v0 (F := F) :=
  (ssa_unary ops_writes (launchContents m c) 84 (x := main_call6_cst) (y := main_call6_v0) rfl (by decide) (by decide) _ (s_main_call6_cst m c)).trans rfl
theorem s_main_v67 : after (ops (F := F)) (launchContents m c) (Proc.devRef .tc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg26)) (m ((c.tc : Thread nD τ).loc main_arg27)) :=
  (ssa_binary ops_writes (launchContents m c) 85 (a := main_v66) (b := main_call6_v0) (y := main_v67) rfl (by decide) (by decide) (by decide) _ _ (s_main_v66 m c) (s_main_call6_v0 m c)).trans rfl
theorem s_main_v68 : after (ops (F := F)) (launchContents m c) (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg26)) (m ((c.tc : Thread nD τ).loc main_arg27)) (m ((c.tc : Thread nD τ).loc main_arg28)) :=
  (ssa_binary ops_writes (launchContents m c) 86 (a := main_v67) (b := main_arg28) (y := main_v68) rfl (by decide) (by decide) (by decide) _ _ (s_main_v67 m c) (a_main_arg28 m c)).trans rfl
theorem s_main_v69 : after (ops (F := F)) (launchContents m c) (Proc.devRef .tc main_v69) = val_main_v69 (F := F) (m ((c.tc : Thread nD τ).loc main_arg29)) :=
  (ssa_unary ops_writes (launchContents m c) 87 (x := main_arg29) (y := main_v69) rfl (by decide) (by decide) _ (a_main_arg29 m c)).trans rfl
theorem s_main_v70 : after (ops (F := F)) (launchContents m c) (Proc.devRef .tc main_v70) = val_main_v70 (F := F) (m ((c.tc : Thread nD τ).loc main_arg29)) :=
  (ssa_unary ops_writes (launchContents m c) 88 (x := main_v69) (y := main_v70) rfl (by decide) (by decide) _ (s_main_v69 m c)).trans rfl
theorem s_main_v71 : after (ops (F := F)) (launchContents m c) (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg26)) (m ((c.tc : Thread nD τ).loc main_arg27)) (m ((c.tc : Thread nD τ).loc main_arg28)) (m ((c.tc : Thread nD τ).loc main_arg29)) :=
  (ssa_binary ops_writes (launchContents m c) 89 (a := main_v68) (b := main_v70) (y := main_v71) rfl (by decide) (by decide) (by decide) _ _ (s_main_v68 m c) (s_main_v70 m c)).trans rfl
theorem s_main_v72 : after (ops (F := F)) (launchContents m c) (Proc.devRef .tc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg26)) (m ((c.tc : Thread nD τ).loc main_arg27)) (m ((c.tc : Thread nD τ).loc main_arg28)) (m ((c.tc : Thread nD τ).loc main_arg29)) :=
  (ssa_unary ops_writes (launchContents m c) 90 (x := main_v71) (y := main_v72) rfl (by decide) (by decide) _ (s_main_v71 m c)).trans rfl
theorem s_main_v73 : after (ops (F := F)) (launchContents m c) (Proc.devRef .tc main_v73) = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg26)) (m ((c.tc : Thread nD τ).loc main_arg27)) (m ((c.tc : Thread nD τ).loc main_arg28)) (m ((c.tc : Thread nD τ).loc main_arg29)) :=
  (ssa_unary ops_writes (launchContents m c) 91 (x := main_v72) (y := main_v73) rfl (by decide) (by decide) _ (s_main_v72 m c)).trans rfl
theorem s_main_cst_3 : after (ops (F := F)) (launchContents m c) (Proc.devRef .tc main_cst_3) = val_main_cst_3 (F := F) :=
  (ssa_nullary ops_writes (launchContents m c) 92 (y := main_cst_3) rfl (by decide)).trans rfl
theorem s_main_v74 : after (ops (F := F)) (launchContents m c) (Proc.devRef .tc main_v74) = val_main_v74 (F := F) :=
  (ssa_unary ops_writes (launchContents m c) 93 (x := main_cst_3) (y := main_v74) rfl (by decide) (by decide) _ (s_main_cst_3 m c)).trans rfl
theorem s_main_v75 : after (ops (F := F)) (launchContents m c) (Proc.devRef .tc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg26)) (m ((c.tc : Thread nD τ).loc main_arg27)) (m ((c.tc : Thread nD τ).loc main_arg28)) (m ((c.tc : Thread nD τ).loc main_arg29)) :=
  (ssa_binary ops_writes (launchContents m c) 94 (a := main_v74) (b := main_v73) (y := main_v75) rfl (by decide) (by decide) (by decide) _ _ (s_main_v74 m c) (s_main_v73 m c)).trans rfl
theorem s_main_cst_4 : after (ops (F := F)) (launchContents m c) (Proc.devRef .tc main_cst_4) = val_main_cst_4 (F := F) :=
  (ssa_nullary ops_writes (launchContents m c) 95 (y := main_cst_4) rfl (by decide)).trans rfl
theorem s_main_v76 : after (ops (F := F)) (launchContents m c) (Proc.devRef .tc main_v76) = val_main_v76 (F := F) :=
  (ssa_unary ops_writes (launchContents m c) 96 (x := main_cst_4) (y := main_v76) rfl (by decide) (by decide) _ (s_main_cst_4 m c)).trans rfl
theorem s_main_v77 : after (ops (F := F)) (launchContents m c) (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg26)) (m ((c.tc : Thread nD τ).loc main_arg27)) (m ((c.tc : Thread nD τ).loc main_arg28)) (m ((c.tc : Thread nD τ).loc main_arg29)) :=
  (ssa_binary ops_writes (launchContents m c) 97 (a := main_v76) (b := main_v75) (y := main_v77) rfl (by decide) (by decide) (by decide) _ _ (s_main_v76 m c) (s_main_v75 m c)).trans rfl
theorem s_main_v78 : after (ops (F := F)) (launchContents m c) (Proc.devRef .tc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) :=
  (ssa_binary ops_writes (launchContents m c) 98 (a := main_v62) (b := main_v77) (y := main_v78) rfl (by decide) (by decide) (by decide) _ _ (s_main_v62 m c) (s_main_v77 m c)).trans rfl

end

/-- What the whole line leaves in the result buffer is the last stage, as a function of the arguments' contents. -/
theorem after_main_v78 (m : (ℓ : Loc nD τ sig) → Buf (Elt F) ℓ) (c : Dev nD) :
    after (ops (F := F)) (launchContents m c) (Proc.devRef .tc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) :=
  s_main_v78 m c

/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => ⟨(h c main_v78).trans (s_main_v78 m c),
      (h c main_arg0).trans (a_main_arg0 m c),
      (h c main_arg1).trans (a_main_arg1 m c),
      (h c main_arg2).trans (a_main_arg2 m c),
      (h c main_arg3).trans (a_main_arg3 m c),
      (h c main_arg4).trans (a_main_arg4 m c),
      (h c main_arg5).trans (a_main_arg5 m c),
      (h c main_arg6).trans (a_main_arg6 m c),
      (h c main_arg7).trans (a_main_arg7 m c),
      (h c main_arg8).trans (a_main_arg8 m c),
      (h c main_arg9).trans (a_main_arg9 m c),
      (h c main_arg10).trans (a_main_arg10 m c),
      (h c main_arg11).trans (a_main_arg11 m c),
      (h c main_arg12).trans (a_main_arg12 m c),
      (h c main_arg13).trans (a_main_arg13 m c),
      (h c main_arg14).trans (a_main_arg14 m c),
      (h c main_arg15).trans (a_main_arg15 m c),
      (h c main_arg16).trans (a_main_arg16 m c),
      (h c main_arg17).trans (a_main_arg17 m c),
      (h c main_arg18).trans (a_main_arg18 m c),
      (h c main_arg19).trans (a_main_arg19 m c),
      (h c main_arg20).trans (a_main_arg20 m c),
      (h c main_arg21).trans (a_main_arg21 m c),
      (h c main_arg22).trans (a_main_arg22 m c),
      (h c main_arg23).trans (a_main_arg23 m c),
      (h c main_arg24).trans (a_main_arg24 m c),
      (h c main_arg25).trans (a_main_arg25 m c),
      (h c main_arg26).trans (a_main_arg26 m c),
      (h c main_arg27).trans (a_main_arg27 m c),
      (h c main_arg28).trans (a_main_arg28 m c),
      (h c main_arg29).trans (a_main_arg29 m c)⟩)
    (run_seq scopedRefs_eq scopedSems_eq defs main (fun _ => ops) main_eq (fun _ => ops_sub) m ρ)

/-- The same with the result stated as the composed term `res_main_v78`. -/
theorem run_res (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = res_main_v78 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => ⟨((h c).1).trans (val_main_v78_eq m c).symm, (h c).2⟩) (run m ρ)

end Cert.ReferenceIdeal.Value

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.RefIsSpec.lean ====
/-
  The reference program computes, row by row, the function `Spec.G`.

  Each dense layer of the reference is a contraction of a [rows, K] array with a [K, N] weight array plus the bias laid out
  over the rows; read at row n and column j that is `Spec.lin` of the row. A clamp is the maximum with an array of zeros.
  A concatenation along the columns, read at a row, lays the pieces' rows side by side (`Spec.cat2`). The minimum over the
  four predicate slots starts from +∞, the unit of the minimum on the extended reals. The two heads end in
  1 / (1 + exp (−x)), the logistic function.
-/
import proofs.«135069_j84061099917535_2_alg».proof.Proof.RefRead
import proofs.«135069_j84061099917535_2_alg».proof.Proof.Spec
import proofs.«135069_j84061099917535_2_alg».proof.Proof.LibPlainDot

noncomputable section

namespace Cert.RefIsSpec

open Idealize.ShloMosaic Idealize.ShloMosaic.ValueIdx Cert.ReferenceIdeal Cert.ReferenceIdeal.Read Cert.LibPlainDot
open Cert

/-! ## Layers read at a row -/

/-- The maximum with the broadcast zero word is the clamp. -/
theorem relu_bcast {s : Shape} (Y : FVec Ideal s .f32) (h : (⟨0, ![]⟩ : Shape).BroadcastsInDim s ![]) (i : s.Idx) :
    maximumf Y (broadcastInDim s ![] h (constant (F := Ideal) ⟨0, ![]⟩ .f32 0x00000000#32)) i = Spec.relu (Y i) := by
  rw [maximumf_apply, broadcastInDim_apply _ h _ i ix0 (fun a => a.elim0)]
  rfl

/-- A contraction with the weights plus the bias broadcast over the rows, at row n and column j, is `Spec.lin` of row n. -/
theorem dense_row {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![M, K]⟩ .f32) (W : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (n : Fin M) (x : Fin K → EReal) (hx : ∀ k, X (ix2 n k) = x k) (j : Fin N) :
    addf (Host.dotGeneral (F := Ideal) d none X W)
        (broadcastInDim ⟨2, ![M, N]⟩ ![0, 1] hbc (broadcastInDim ⟨2, ![1, N]⟩ ![1] hr b)) (ix2 n j)
      = Spec.lin x W b j := by
  rw [dot_bias_eq d h1 h2 h3 h4 h5 h6 X W b hr hbc, affine_apply]
  unfold Spec.lin Spec.dot
  refine congrArg (· + b (ix1 j)) (Finset.sum_congr rfl fun k _ => ?_)
  rw [hx k]

/-- The same followed by the clamp. -/
theorem dense_relu_row {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![M, K]⟩ .f32) (W : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hz : (⟨0, ![]⟩ : Shape).BroadcastsInDim ⟨2, ![M, N]⟩ ![])
    (n : Fin M) (x : Fin K → EReal) (hx : ∀ k, X (ix2 n k) = x k) (j : Fin N) :
    maximumf (addf (Host.dotGeneral (F := Ideal) d none X W)
        (broadcastInDim ⟨2, ![M, N]⟩ ![0, 1] hbc (broadcastInDim ⟨2, ![1, N]⟩ ![1] hr b)))
      (broadcastInDim ⟨2, ![M, N]⟩ ![] hz (constant (F := Ideal) ⟨0, ![]⟩ .f32 0x00000000#32)) (ix2 n j)
      = Spec.relu (Spec.lin x W b j) := by
  rw [relu_bcast]
  exact congrArg Spec.relu (dense_row d h1 h2 h3 h4 h5 h6 X W b hr hbc n x hx j)

/-! ## Concatenations read at a row -/

theorem cat2_of_lt {a b : ℕ} (u : Fin a → EReal) (v : Fin b → EReal) (k : Fin (a + b)) (h : k.val < a) :
    Spec.cat2 u v k = u ⟨k.val, h⟩ := dif_pos h

theorem cat2_of_ge {a b : ℕ} (u : Fin a → EReal) (v : Fin b → EReal) (k : Fin (a + b)) (h : ¬ k.val < a) :
    Spec.cat2 u v k = v ⟨k.val - a, by have := k.isLt; omega⟩ := dif_neg h

/-- Two arrays laid side by side along the columns, at row n: the two rows laid side by side. -/
theorem concat2_row {M a b : ℕ} (A : (⟨2, ![M, a]⟩ : Shape).Idx → EReal) (B : (⟨2, ![M, b]⟩ : Shape).Idx → EReal)
    (h : Shape.Concatenates [(⟨2, ![M, a]⟩ : Shape), ⟨2, ![M, b]⟩] ⟨2, ![M, a + b]⟩ 1) (n : Fin M)
    (u : Fin a → EReal) (v : Fin b → EReal) (hu : ∀ k, A (ix2 n k) = u k) (hv : ∀ k, B (ix2 n k) = v k) (k : Fin (a + b)) :
    concatenate ⟨2, ![M, a + b]⟩ 1 [⟨_, A⟩, ⟨_, B⟩] h (ix2 n k) = Spec.cat2 u v k := by
  by_cases hk : k.val < a
  · rw [cat2_of_lt u v k hk, ← hu]
    exact concatenate_pair_apply_left 1 A B h (ix2 n k) rfl (ix2 n ⟨k.val, hk⟩)
      (fun c => match c with | ⟨0, _⟩ => rfl | ⟨1, _⟩ => rfl)
  · rw [cat2_of_ge u v k hk, ← hv]
    exact concatenate_pair_apply_right 1 A B h (ix2 n k) rfl rfl (ix2 n ⟨k.val - a, by have := k.isLt; omega⟩)
      (fun c => match c with | ⟨0, _⟩ => fun _ => rfl | ⟨1, _⟩ => fun hc => absurd rfl hc)
      (by show k.val - a + a = k.val; omega)

/-- Four 128-column arrays laid side by side, at row n. -/
theorem concat4_row {M : ℕ} (A B C D : (⟨2, ![M, 128]⟩ : Shape).Idx → EReal)
    (h : Shape.Concatenates [(⟨2, ![M, 128]⟩ : Shape), ⟨2, ![M, 128]⟩, ⟨2, ![M, 128]⟩, ⟨2, ![M, 128]⟩] ⟨2, ![M, 512]⟩ 1) (n : Fin M)
    (e c1 c2 g : Fin 128 → EReal) (he : ∀ k, A (ix2 n k) = e k) (h1 : ∀ k, B (ix2 n k) = c1 k)
    (h2 : ∀ k, C (ix2 n k) = c2 k) (hg : ∀ k, D (ix2 n k) = g k) (k : Fin 512) :
    concatenate ⟨2, ![M, 512]⟩ 1 [⟨_, A⟩, ⟨_, B⟩, ⟨_, C⟩, ⟨_, D⟩] h (ix2 n k)
      = Spec.cat2 (a := 128) (b := 128 + (128 + 128)) e (Spec.cat2 (a := 128) (b := 128 + 128) c1 (Spec.cat2 (a := 128) (b := 128) c2 g)) k := by
  have hk := k.isLt
  by_cases k0 : k.val < 128
  · rw [cat2_of_lt _ _ _ k0, ← he]
    exact concatenate_apply_piece 1 [⟨_, A⟩, ⟨_, B⟩, ⟨_, C⟩, ⟨_, D⟩] h (ix2 n k) 0 (by show (0 : ℕ) < 4; decide) _ A rfl rfl 0 rfl (ix2 n ⟨k.val, k0⟩)
      (fun c => match c with | ⟨0, _⟩ => fun _ => rfl | ⟨1, _⟩ => fun hc => absurd rfl hc)
      (by show 0 + k.val = k.val; omega)
  · rw [cat2_of_ge _ _ _ k0]
    by_cases k1 : k.val < 256
    · rw [cat2_of_lt _ _ _ (show (⟨k.val - 128, _⟩ : Fin (128 + (128 + 128))).val < 128 by show k.val - 128 < 128; omega), ← h1]
      exact concatenate_apply_piece 1 [⟨_, A⟩, ⟨_, B⟩, ⟨_, C⟩, ⟨_, D⟩] h (ix2 n k) 1 (by show (1 : ℕ) < 4; decide) _ B rfl rfl 128 rfl (ix2 n ⟨k.val - 128, by omega⟩)
        (fun c => match c with | ⟨0, _⟩ => fun _ => rfl | ⟨1, _⟩ => fun hc => absurd rfl hc)
        (by show 128 + (k.val - 128) = k.val; omega)
    · rw [cat2_of_ge _ _ _ (show ¬ (⟨k.val - 128, _⟩ : Fin (128 + (128 + 128))).val < 128 by show ¬ k.val - 128 < 128; omega)]
      by_cases k2 : k.val < 384
      · rw [cat2_of_lt _ _ _ (show (⟨k.val - 128 - 128, _⟩ : Fin (128 + 128)).val < 128 by show k.val - 128 - 128 < 128; omega), ← h2]
        exact concatenate_apply_piece 1 [⟨_, A⟩, ⟨_, B⟩, ⟨_, C⟩, ⟨_, D⟩] h (ix2 n k) 2 (by show (2 : ℕ) < 4; decide) _ C rfl rfl 256 rfl (ix2 n ⟨k.val - 128 - 128, by omega⟩)
          (fun c => match c with | ⟨0, _⟩ => fun _ => rfl | ⟨1, _⟩ => fun hc => absurd rfl hc)
          (by show 256 + (k.val - 128 - 128) = k.val; omega)
      · rw [cat2_of_ge _ _ _ (show ¬ (⟨k.val - 128 - 128, _⟩ : Fin (128 + 128)).val < 128 by show ¬ k.val - 128 - 128 < 128; omega), ← hg]
        exact concatenate_apply_piece 1 [⟨_, A⟩, ⟨_, B⟩, ⟨_, C⟩, ⟨_, D⟩] h (ix2 n k) 3 (by show (3 : ℕ) < 4; decide) _ D rfl rfl 384 rfl (ix2 n ⟨k.val - 128 - 128 - 128, by omega⟩)
          (fun c => match c with | ⟨0, _⟩ => fun _ => rfl | ⟨1, _⟩ => fun hc => absurd rfl hc)
          (by show 384 + (k.val - 128 - 128 - 128) = k.val; omega)

/-- A 256-column and two 64-column arrays laid side by side, at row n. -/
theorem concat3_row {M : ℕ} (A : (⟨2, ![M, 256]⟩ : Shape).Idx → EReal) (B C : (⟨2, ![M, 64]⟩ : Shape).Idx → EReal)
    (h : Shape.Concatenates [(⟨2, ![M, 256]⟩ : Shape), ⟨2, ![M, 64]⟩, ⟨2, ![M, 64]⟩] ⟨2, ![M, 384]⟩ 1) (n : Fin M)
    (nd : Fin 256 → EReal) (l r : Fin 64 → EReal) (hn : ∀ k, A (ix2 n k) = nd k) (hl : ∀ k, B (ix2 n k) = l k)
    (hr : ∀ k, C (ix2 n k) = r k) (k : Fin 384) :
    concatenate ⟨2, ![M, 384]⟩ 1 [⟨_, A⟩, ⟨_, B⟩, ⟨_, C⟩] h (ix2 n k)
      = Spec.cat2 (a := 256) (b := 64 + 64) nd (Spec.cat2 (a := 64) (b := 64) l r) k := by
  have hk := k.isLt
  by_cases k0 : k.val < 256
  · rw [cat2_of_lt _ _ _ k0, ← hn]
    exact concatenate_apply_piece 1 [⟨_, A⟩, ⟨_, B⟩, ⟨_, C⟩] h (ix2 n k) 0 (by show (0 : ℕ) < 3; decide) _ A rfl rfl 0 rfl (ix2 n ⟨k.val, k0⟩)
      (fun c => match c with | ⟨0, _⟩ => fun _ => rfl | ⟨1, _⟩ => fun hc => absurd rfl hc)
      (by show 0 + k.val = k.val; omega)
  · rw [cat2_of_ge _ _ _ k0]
    by_cases k1 : k.val < 320
    · rw [cat2_of_lt _ _ _ (show (⟨k.val - 256, _⟩ : Fin (64 + 64)).val < 64 by show k.val - 256 < 64; omega), ← hl]
      exact concatenate_apply_piece 1 [⟨_, A⟩, ⟨_, B⟩, ⟨_, C⟩] h (ix2 n k) 1 (by show (1 : ℕ) < 3; decide) _ B rfl rfl 256 rfl (ix2 n ⟨k.val - 256, by omega⟩)
        (fun c => match c with | ⟨0, _⟩ => fun _ => rfl | ⟨1, _⟩ => fun hc => absurd rfl hc)
        (by show 256 + (k.val - 256) = k.val; omega)
    · rw [cat2_of_ge _ _ _ (show ¬ (⟨k.val - 256, _⟩ : Fin (64 + 64)).val < 64 by show ¬ k.val - 256 < 64; omega), ← hr]
      exact concatenate_apply_piece 1 [⟨_, A⟩, ⟨_, B⟩, ⟨_, C⟩] h (ix2 n k) 2 (by show (2 : ℕ) < 3; decide) _ C rfl rfl 320 rfl (ix2 n ⟨k.val - 256 - 64, by omega⟩)
        (fun c => match c with | ⟨0, _⟩ => fun _ => rfl | ⟨1, _⟩ => fun hc => absurd rfl hc)
        (by show 320 + (k.val - 256 - 64) = k.val; omega)

/-! ## The minimum over the four predicate slots -/

theorem fold_univ_fin4 (f : EReal → EReal → EReal) [Std.Commutative f] [Std.Associative f] (b : EReal) (g : Fin 4 → EReal) :
    (Finset.univ : Finset (Fin 4)).fold f b g = f (g 0) (f (g 1) (f (g 2) (f (g 3) b))) := by
  simp only [Fin.univ_succ, Finset.fold_cons, Finset.fold_map, Finset.univ_unique, Finset.fold_singleton]
  rfl

/-- The word of +∞ is the top element. -/
theorem inf_f32 : Ideal.ofBits .f32 0x7F800000#32 = (⊤ : EReal) := by
  simp [Ideal.ofBits, Ideal.ieee]

/-- The reduced index (n, j) with slot s put back is (n, s, j). -/
theorem lift_ix3 {M N : ℕ} (h : (⟨3, ![M, 4, N]⟩ : Shape).Reduces [1] (⟨2, ![M, N]⟩ : Shape)) (n : Fin M) (j : Fin N)
    (s : Fin ((⟨3, ![M, 4, N]⟩ : Shape).size 1)) : h.lift (ix2 n j) s = ix3 n (⟨s.val, s.isLt⟩ : Fin 4) j := by
  funext c; apply Fin.ext
  fin_cases c <;> rfl

/-- From +∞ the reduction by minimum over the slot axis, at (n, j), is the minimum of the four slots' entries. -/
theorem reduce_min4 {M N : ℕ} (X : (⟨3, ![M, 4, N]⟩ : Shape).Idx → EReal)
    (h' : (⟨3, ![M, 4, N]⟩ : Shape).ReducesTo [1] (⟨2, ![M, N]⟩ : Shape))
    (h : (⟨3, ![M, 4, N]⟩ : Shape).Reduces [1] (⟨2, ![M, N]⟩ : Shape)) (hu : 0 < (⟨0, ![]⟩ : Shape).numel)
    (n : Fin M) (j : Fin N) (p : Fin 4 → EReal) (hp : ∀ s, X (ix3 n s j) = p s) :
    Host.reduce (FloatOps.minimumf (F := Ideal) (φ := .f32)) X (constant (F := Ideal) (⟨0, ![]⟩ : Shape) .f32 0x7F800000#32) h' hu (ix2 n j)
      = min (min (min (p 0) (p 1)) (p 2)) (p 3) := by
  rw [Host.reduce_eq_fold_single (FloatOps.minimumf (F := Ideal) (φ := .f32)) X _ h' h hu]
  have hf : (X ∘ h.lift (ix2 n j)) = p := funext fun s => (congrArg X (lift_ix3 h n j s)).trans (hp _)
  refine (congrArg (fun f => Finset.fold (FloatOps.minimumf (F := Ideal) (φ := .f32)) _ f (Finset.univ : Finset (Fin 4))) hf).trans ?_
  refine (fold_univ_fin4 (FloatOps.minimumf (F := Ideal) (φ := .f32)) _ p).trans ?_
  show min (p 0) (min (p 1) (min (p 2) (min (p 3) (Ideal.ofBits .f32 0x7F800000#32)))) = _
  rw [inf_f32, min_top_right, ← min_assoc, ← min_assoc]

/-! ## The stages of the reference, at row n -/

/-- The contraction of the predicate array's last axis with the weights plus the bias, at (n, s, h): `Spec.lin` of slot s. -/
theorem einsum1_row (X : (⟨S65536x4x128, .f32⟩ : BufTy).Contents (Elt Ideal)) (W : (⟨S128x128, .f32⟩ : BufTy).Contents (Elt Ideal))
    (b : (⟨S128, .f32⟩ : BufTy).Contents (Elt Ideal)) (n : Fin 65536) (s : Fin 4) (h : Fin 128) :
    val_main_v3 (F := Ideal) X W b (ix3 n s h) = Spec.lin (fun d => X (ix3 n s d)) W b h := by
  rw [val_main_v3_apply, val_main_v0_apply, val_main_v2_apply, val_main_v1_apply, Ideal.addf_def]
  unfold Spec.lin Spec.dot
  refine congrArg₂ (· + ·) (Finset.sum_congr rfl fun k _ => congrArg₂ (· * ·) (congrArg X ?_) (congrArg W ?_)) (congrArg b ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

theorem einsum2_row (X : (⟨S65536x4x128, .f32⟩ : BufTy).Contents (Elt Ideal)) (W : (⟨S128x128, .f32⟩ : BufTy).Contents (Elt Ideal))
    (b : (⟨S128, .f32⟩ : BufTy).Contents (Elt Ideal)) (n : Fin 65536) (s : Fin 4) (h : Fin 128) :
    val_main_v8 (F := Ideal) X W b (ix3 n s h) = Spec.lin (fun d => X (ix3 n s d)) W b h := by
  rw [val_main_v8_apply, val_main_v5_apply, val_main_v7_apply, val_main_v6_apply, Ideal.addf_def]
  unfold Spec.lin Spec.dot
  refine congrArg₂ (· + ·) (Finset.sum_congr rfl fun k _ => congrArg₂ (· * ·) (congrArg X ?_) (congrArg W ?_)) (congrArg b ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

variable {θ : Spec.Params}
  {x0 x1 : (⟨S65536x32, .f32⟩ : BufTy).Contents (Elt Ideal)} {x2 : (⟨S65536x1000, .f32⟩ : BufTy).Contents (Elt Ideal)}
  {x3 : (⟨S65536x1, .f32⟩ : BufTy).Contents (Elt Ideal)} {x4 x5 : (⟨S65536x4x128, .f32⟩ : BufTy).Contents (Elt Ideal)}
  {x6 x7 : (⟨S65536x2, .f32⟩ : BufTy).Contents (Elt Ideal)}

local notation "ρ" => Spec.rowOfArgs x0 x1 x2 x3 x4 x5 x6 x7

theorem s4 (n : Fin 65536) (j : Fin 128) :
    val_main_v4 (F := Ideal) x4 θ.W_pred θ.b_pred (ix2 n j) = Spec.cond1 θ (ρ n) j := by
  unfold val_main_v4 val_main_cst
  exact reduce_min4 _ _ (by decide) _ n j (fun s => Spec.lin ((ρ n).p1 s) θ.W_pred θ.b_pred j)
    (fun s => einsum1_row x4 θ.W_pred θ.b_pred n s j)

theorem s9 (n : Fin 65536) (j : Fin 128) :
    val_main_v9 (F := Ideal) x5 θ.W_pred θ.b_pred (ix2 n j) = Spec.cond2 θ (ρ n) j := by
  unfold val_main_v9 val_main_cst_0
  exact reduce_min4 _ _ (by decide) _ n j (fun s => Spec.lin ((ρ n).p2 s) θ.W_pred θ.b_pred j)
    (fun s => einsum2_row x5 θ.W_pred θ.b_pred n s j)

theorem s10 (n : Fin 65536) (k : Fin 64) : val_main_v10 (F := Ideal) x0 x1 (ix2 n k) = (ρ n).opcat k := by
  unfold val_main_v10
  exact concat2_row (a := 32) (b := 32) x0 x1 _ n _ _ (fun _ => rfl) (fun _ => rfl) k

theorem s14 (n : Fin 65536) (j : Fin 128) :
    val_main_v14 (F := Ideal) x0 x1 θ.W_op θ.b_op (ix2 n j) = Spec.opEmb θ (ρ n) j := by
  unfold val_main_v14 val_main_v11 val_main_v13 val_main_v12
  exact dense_row _ rfl rfl rfl rfl rfl rfl _ _ _ _ _ n _ (s10 n) j

theorem s20 (n : Fin 65536) (j : Fin 128) :
    val_main_v20 (F := Ideal) x2 x3 θ.W_bm θ.b_bm (ix2 n j) = Spec.bmE θ (ρ n) j := by
  rw [val_main_v20_apply, val_main_v19_apply, Ideal.mulf_def]
  unfold val_main_v18 val_main_v15 val_main_v17 val_main_v16 Spec.bmE Spec.bmEmb
  refine congrArg₂ (· * ·) (dense_row _ rfl rfl rfl rfl rfl rfl _ _ _ _ _ n _ (fun _ => rfl) j) (congrArg x3 ?_)
  exact funext fun a => Fin.ext (by match a with | ⟨0, _⟩ => rfl | ⟨1, _⟩ => rfl)

theorem s21 (n : Fin 65536) (k : Fin 512) :
    val_main_v21 (F := Ideal) x0 x1 x2 x3 x4 x5 θ.W_op θ.b_op θ.W_pred θ.b_pred θ.W_bm θ.b_bm (ix2 n k)
      = Spec.cat2 (a := 128) (b := 128 + (128 + 128)) (Spec.opEmb θ (ρ n))
          (Spec.cat2 (a := 128) (b := 128 + 128) (Spec.cond1 θ (ρ n)) (Spec.cat2 (a := 128) (b := 128) (Spec.cond2 θ (ρ n)) (Spec.bmE θ (ρ n)))) k := by
  unfold val_main_v21
  exact concat4_row _ _ _ _ _ n _ _ _ _ (s14 n) (s4 n) (s9 n) (s20 n) k

theorem s26 (n : Fin 65536) (j : Fin 256) :
    val_main_v26 (F := Ideal) x0 x1 x2 x3 x4 x5 θ.W_op θ.b_op θ.W_pred θ.b_pred θ.W_bm θ.b_bm θ.W_node θ.b_node (ix2 n j)
      = Spec.node θ (ρ n) j := by
  rw [Spec.node_cat]
  unfold val_main_v26 val_main_v25 val_main_v22 val_main_v24 val_main_v23 val_main_call0_v0 val_main_call0_cst Spec.nodeCat
  exact dense_relu_row _ rfl rfl rfl rfl rfl rfl _ _ _ _ _ _ n _ (s21 n) j

theorem s31 (n : Fin 65536) (j : Fin 64) :
    val_main_v31 (F := Ideal) x6 θ.W_cc θ.b_cc (ix2 n j) = Spec.ccL θ (ρ n) j := by
  unfold val_main_v31 val_main_v30 val_main_v27 val_main_v29 val_main_v28 val_main_call1_v0 val_main_call1_cst
  exact dense_relu_row _ rfl rfl rfl rfl rfl rfl _ _ _ _ _ _ n _ (fun _ => rfl) j

theorem s36 (n : Fin 65536) (j : Fin 64) :
    val_main_v36 (F := Ideal) x7 θ.W_cc θ.b_cc (ix2 n j) = Spec.ccR θ (ρ n) j := by
  unfold val_main_v36 val_main_v35 val_main_v32 val_main_v34 val_main_v33 val_main_call2_v0 val_main_call2_cst
  exact dense_relu_row _ rfl rfl rfl rfl rfl rfl _ _ _ _ _ _ n _ (fun _ => rfl) j

theorem s37 (n : Fin 65536) (k : Fin 384) :
    val_main_v37 (F := Ideal) x0 x1 x2 x3 x4 x5 x6 x7 θ.W_op θ.b_op θ.W_pred θ.b_pred θ.W_bm θ.b_bm θ.W_cc θ.b_cc θ.W_node θ.b_node (ix2 n k)
      = Spec.cat2 (a := 256) (b := 64 + 64) (Spec.node θ (ρ n)) (Spec.cat2 (a := 64) (b := 64) (Spec.ccL θ (ρ n)) (Spec.ccR θ (ρ n))) k := by
  unfold val_main_v37
  exact concat3_row _ _ _ _ n _ _ _ (s26 n) (s31 n) (s36 n) k

theorem s42 (n : Fin 65536) (j : Fin 128) :
    val_main_v42 (F := Ideal) x0 x1 x2 x3 x4 x5 x6 x7 θ.W_op θ.b_op θ.W_pred θ.b_pred θ.W_bm θ.b_bm θ.W_cc θ.b_cc θ.W_node θ.b_node θ.W_m1 θ.b_m1 (ix2 n j)
      = Spec.mix1 θ (ρ n) j := by
  rw [Spec.mix1_cat]
  unfold val_main_v42 val_main_v41 val_main_v38 val_main_v40 val_main_v39 val_main_call3_v0 val_main_call3_cst Spec.mixCat
  exact dense_relu_row _ rfl rfl rfl rfl rfl rfl _ _ _ _ _ _ n _ (s37 n) j

theorem s47 (n : Fin 65536) (j : Fin 64) :
    val_main_v47 (F := Ideal) x0 x1 x2 x3 x4 x5 x6 x7 θ.W_op θ.b_op θ.W_pred θ.b_pred θ.W_bm θ.b_bm θ.W_cc θ.b_cc θ.W_node θ.b_node θ.W_m1 θ.b_m1 θ.W_m2 θ.b_m2 (ix2 n j)
      = Spec.mix2 θ (ρ n) j := by
  unfold val_main_v47 val_main_v46 val_main_v43 val_main_v45 val_main_v44 val_main_call4_v0 val_main_call4_cst
  exact dense_relu_row _ rfl rfl rfl rfl rfl rfl _ _ _ _ _ _ n _ (s42 n) j

theorem s52 (n : Fin 65536) (k : Fin 32) :
    val_main_v52 (F := Ideal) x0 x1 x2 x3 x4 x5 x6 x7 θ.W_op θ.b_op θ.W_pred θ.b_pred θ.W_bm θ.b_bm θ.W_cc θ.b_cc θ.W_node θ.b_node θ.W_m1 θ.b_m1 θ.W_m2 θ.b_m2 θ.W_c1 θ.b_c1 (ix2 n k)
      = Spec.relu (Spec.lin (Spec.mix2 θ (ρ n)) θ.W_c1 θ.b_c1 k) := by
  unfold val_main_v52 val_main_v51 val_main_v48 val_main_v50 val_main_v49 val_main_call5_v0 val_main_call5_cst
  exact dense_relu_row _ rfl rfl rfl rfl rfl rfl _ _ _ _ _ _ n _ (s47 n) k

theorem s67 (n : Fin 65536) (k : Fin 32) :
    val_main_v67 (F := Ideal) x0 x1 x2 x3 x4 x5 x6 x7 θ.W_op θ.b_op θ.W_pred θ.b_pred θ.W_bm θ.b_bm θ.W_cc θ.b_cc θ.W_node θ.b_node θ.W_m1 θ.b_m1 θ.W_m2 θ.b_m2 θ.W_k1 θ.b_k1 (ix2 n k)
      = Spec.relu (Spec.lin (Spec.mix2 θ (ρ n)) θ.W_k1 θ.b_k1 k) := by
  unfold val_main_v67 val_main_v66 val_main_v63 val_main_v65 val_main_v64 val_main_call6_v0 val_main_call6_cst
  exact dense_relu_row _ rfl rfl rfl rfl rfl rfl _ _ _ _ _ _ n _ (s47 n) k

theorem s62 (n : Fin 65536) :
    val_main_v62 (F := Ideal) x0 x1 x2 x3 x4 x5 x6 x7 θ.W_op θ.b_op θ.W_pred θ.b_pred θ.W_bm θ.b_bm θ.W_cc θ.b_cc θ.W_node θ.b_node θ.W_m1 θ.b_m1 θ.W_m2 θ.b_m2 θ.W_c1 θ.b_c1 θ.W_c2 θ.b_c2 (ix2 n (0 : Fin 1))
      = Spec.cost θ (ρ n) := by
  unfold val_main_v62 val_main_v61 val_main_v60 val_main_v59 val_main_v58 val_main_v57 val_main_cst_1 val_main_cst_2
  rw [host_sigmoid_eq]
  unfold val_main_v56 val_main_v53 val_main_v55 val_main_v54 Spec.cost Spec.head
  exact congrArg Ideal.logistic (dense_row _ rfl rfl rfl rfl rfl rfl _ _ _ _ _ n _ (s52 n) (0 : Fin 1))

theorem s77 (n : Fin 65536) :
    val_main_v77 (F := Ideal) x0 x1 x2 x3 x4 x5 x6 x7 θ.W_op θ.b_op θ.W_pred θ.b_pred θ.W_bm θ.b_bm θ.W_cc θ.b_cc θ.W_node θ.b_node θ.W_m1 θ.b_m1 θ.W_m2 θ.b_m2 θ.W_k1 θ.b_k1 θ.W_k2 θ.b_k2 (ix2 n (0 : Fin 1))
      = Spec.card θ (ρ n) := by
  unfold val_main_v77 val_main_v76 val_main_v75 val_main_v74 val_main_v73 val_main_v72 val_main_cst_3 val_main_cst_4
  rw [host_sigmoid_eq]
  unfold val_main_v71 val_main_v68 val_main_v70 val_main_v69 Spec.card Spec.head
  exact congrArg Ideal.logistic (dense_row _ rfl rfl rfl rfl rfl rfl _ _ _ _ _ n _ (s67 n) (0 : Fin 1))

/-- The reference's result array is `Spec.G` of its arguments (the weights gathered in θ). -/
theorem ref_eq_params (θ : Spec.Params) (x0 x1 : (⟨S65536x32, .f32⟩ : BufTy).Contents (Elt Ideal)) (x2 : (⟨S65536x1000, .f32⟩ : BufTy).Contents (Elt Ideal))
    (x3 : (⟨S65536x1, .f32⟩ : BufTy).Contents (Elt Ideal)) (x4 x5 : (⟨S65536x4x128, .f32⟩ : BufTy).Contents (Elt Ideal))
    (x6 x7 : (⟨S65536x2, .f32⟩ : BufTy).Contents (Elt Ideal)) :
    val_main_v78 (F := Ideal) x0 x1 x2 x3 x4 x5 x6 x7 θ.W_op θ.b_op θ.W_pred θ.b_pred θ.W_bm θ.b_bm θ.W_cc θ.b_cc θ.W_node θ.b_node θ.W_m1 θ.b_m1 θ.W_m2 θ.b_m2 θ.W_c1 θ.b_c1 θ.W_c2 θ.b_c2 θ.W_k1 θ.b_k1 θ.W_k2 θ.b_k2
      = Spec.G θ x0 x1 x2 x3 x4 x5 x6 x7 := by
  funext i
  obtain ⟨n, q, rfl⟩ : ∃ (n : Fin 65536) (q : Fin 2), i = ix2 n q := ⟨i 0, i 1, eq_ix2 i⟩
  unfold val_main_v78
  refine (concat2_row (a := 1) (b := 1) _ _ _ n (fun _ => Spec.cost θ (Spec.rowOfArgs x0 x1 x2 x3 x4 x5 x6 x7 n))
    (fun _ => Spec.card θ (Spec.rowOfArgs x0 x1 x2 x3 x4 x5 x6 x7 n))
    (fun k => match k with | ⟨0, _⟩ => s62 n) (fun k => match k with | ⟨0, _⟩ => s77 n) q).trans ?_
  match q with
  | ⟨0, _⟩ => rfl
  | ⟨1, _⟩ => rfl

theorem ref_eq (x0 x1 : (⟨S65536x32, .f32⟩ : BufTy).Contents (Elt Ideal)) (x2 : (⟨S65536x1000, .f32⟩ : BufTy).Contents (Elt Ideal))
    (x3 : (⟨S65536x1, .f32⟩ : BufTy).Contents (Elt Ideal)) (x4 x5 : (⟨S65536x4x128, .f32⟩ : BufTy).Contents (Elt Ideal))
    (x6 x7 : (⟨S65536x2, .f32⟩ : BufTy).Contents (Elt Ideal))
    (x8 : (⟨S64x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S1000x128, .f32⟩ : BufTy).Contents (Elt Ideal)) (x13 : (⟨S128, .f32⟩ : BufTy).Contents (Elt Ideal))
    (x14 : (⟨S2x64, .f32⟩ : BufTy).Contents (Elt Ideal)) (x15 : (⟨S64, .f32⟩ : BufTy).Contents (Elt Ideal))
    (x16 : (⟨S512x256, .f32⟩ : BufTy).Contents (Elt Ideal)) (x17 : (⟨S256, .f32⟩ : BufTy).Contents (Elt Ideal))
    (x18 : (⟨S384x128, .f32⟩ : BufTy).Contents (Elt Ideal)) (x19 : (⟨S128, .f32⟩ : BufTy).Contents (Elt Ideal))
    (x20 : (⟨S128x64, .f32⟩ : BufTy).Contents (Elt Ideal)) (x21 : (⟨S64, .f32⟩ : BufTy).Contents (Elt Ideal))
    (x22 : (⟨S64x32, .f32⟩ : BufTy).Contents (Elt Ideal)) (x23 : (⟨S32, .f32⟩ : BufTy).Contents (Elt Ideal))
    (x24 : (⟨S32x1, .f32⟩ : BufTy).Contents (Elt Ideal)) (x25 : (⟨S1, .f32⟩ : BufTy).Contents (Elt Ideal))
    (x26 : (⟨S64x32, .f32⟩ : BufTy).Contents (Elt Ideal)) (x27 : (⟨S32, .f32⟩ : BufTy).Contents (Elt Ideal))
    (x28 : (⟨S32x1, .f32⟩ : BufTy).Contents (Elt Ideal)) (x29 : (⟨S1, .f32⟩ : BufTy).Contents (Elt Ideal)) :
    val_main_v78 (F := Ideal) x0 x1 x2 x3 x4 x5 x6 x7 x8 x9 x10 x11 x12 x13 x14 x15 x16 x17 x18 x19 x20 x21 x22 x23 x24 x25 x26 x27 x28 x29
      = Spec.G ⟨x8, x9, x10, x11, x12, x13, x14, x15, x16, x17, x18, x19, x20, x21, x22, x23, x24, x25, x26, x27, x28, x29⟩ x0 x1 x2 x3 x4 x5 x6 x7 :=
  ref_eq_params ⟨x8, x9, x10, x11, x12, x13, x14, x15, x16, x17, x18, x19, x20, x21, x22, x23, x24, x25, x26, x27, x28, x29⟩ x0 x1 x2 x3 x4 x5 x6 x7

end Cert.RefIsSpec

end
-- ==== Proof.lean ====
/-
  The certificate of one fused per-row network: the kernel against its plain reference, as extended reals.

  The kernel packs the five narrow per-row inputs side by side into one 128-column array on the host and then runs ONE
  region over 64 blocks of 1024 rows; the body computes, for each row, a chain of dense layers (two predicate groups
  reduced by the minimum over their four slots, an operator embedding, a bitmap embedding scaled by a flag, a node layer
  and a mixing layer written as sums of partial products against bands of rows of their weights, a second mixing layer,
  two heads ending in the logistic function). The reference computes the same chain on whole arrays, with the node and
  mixing layers as single products over rows laid side by side. Both are the row function `Spec.rowOut` of row n of the
  arguments, at every row n and output column: on the kernel's side block by block (the body's stored block is the row
  function of the loaded blocks' rows; row p of block t is row 1024·t + p of the arguments; the 64 blocks tile the rows), on
  the reference's side stage by stage. The two arrangements of the node and mixing layers agree because a sum over
  consecutive index ranges is the sum of the ranges' sums, which needs only that addition of extended reals is associative
  and commutative: no input has to be finite, and the precondition is never opened.

  The three frames: each kernel program's from its run (host prefix, region, every argument left as launched), the
  reference's from its straight-line run. The idealization rewrote nothing, so its conjunct is `True`.
-/
import proofs.«135069_j84061099917535_2_alg».proof.Defs
import proofs.«135069_j84061099917535_2_alg».proof.Proof.Gen.Kernel
import proofs.«135069_j84061099917535_2_alg».proof.Proof.Gen.KernelIdeal
import proofs.«135069_j84061099917535_2_alg».proof.Proof.Gen.ReferenceIdeal
import proofs.«135069_j84061099917535_2_alg».proof.Proof.Gen.Pre_finite_inputs
import proofs.«135069_j84061099917535_2_alg».proof.Proof.BitsFrame
import proofs.«135069_j84061099917535_2_alg».proof.Proof.IdealFrame
import proofs.«135069_j84061099917535_2_alg».proof.Proof.IdealValue
import proofs.«135069_j84061099917535_2_alg».proof.Proof.BodyIsSpec
import proofs.«135069_j84061099917535_2_alg».proof.Proof.RefRun
import proofs.«135069_j84061099917535_2_alg».proof.Proof.RefRead
import proofs.«135069_j84061099917535_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Frame.frame m ρ

/-- So does the kernel read at exact values. -/
theorem frame_ki : Cert.frame_KernelIdeal := fun m ρ _ => Cert.KernelIdeal.Frame.frame m ρ

/-- The reference is a straight line of host operations none of which writes an argument. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The body's stored block, row by row, is the row function of the loaded blocks. -/
theorem payload : Cert.KernelIdeal.HandValue.PayloadIsRow :=
  fun x0 x1 x2 x3 x4 x5 x6 x7 x8 x9 x10 x11 x12 x13 x14 x15 x16 x17 x18 x19 x20 x21 x22 x23 x24 x25 p q => Cert.BodyIsSpec.s_out_apply x0 x1 x2 x3 x4 x5 x6 x7 x8 x9 x10 x11 x12 x13 x14 x15 x16 x17 x18 x19 x20 x21 x22 x23 x24 x25 p q

/-- Both programs end with the result array at `Spec.G` of arguments that agree. -/
theorem algebraic : Cert.algebraic_KernelIdeal_ReferenceIdeal := by
  intro m ρ m' ρ' _ hagree
  refine ⟨fun c => Cert.KernelIdeal.HandValue.Gm m c, Cert.KernelIdeal.HandValue.run m ρ payload, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29⟩ := hagree c
  rw [Cert.RefIsSpec.ref_eq, h0, h1, h2, h3, h4, h5, h6, h7, h8, h9, h10, h11, h12, h13, h14, h15, h16, h17, h18, h19, h20, h21, h22, h23, h24, h25, h26, h27, h28, h29]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
